-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)) (v5 : (c : Dev Cert.KernelIdeal.nD) → Buf (Elt Ideal) ((c.tc : Thread Cert.KernelIdeal.nD Cert.KernelIdeal.τ).loc Cert.KernelIdeal.main_v43_5)) (v6 : (c : Dev Cert.KernelIdeal.nD) → Buf (Elt Ideal) ((c.tc : Thread Cert.KernelIdeal.nD Cert.KernelIdeal.τ).loc Cert.KernelIdeal.main_v43_6)) (v7 : (c : Dev Cert.KernelIdeal.nD) → Buf (Elt Ideal) ((c.tc : Thread Cert.KernelIdeal.nD Cert.KernelIdeal.τ).loc Cert.KernelIdeal.main_v43_7)) (v8 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v43_3) = v3 c
          ∧ r.2.mem ((c.tc : Thread Cert.KernelIdeal.nD Cert.KernelIdeal.τ).loc Cert.KernelIdeal.main_v43_4) = v4 c
          ∧ r.2.mem ((c.tc : Thread Cert.KernelIdeal.nD Cert.KernelIdeal.τ).loc Cert.KernelIdeal.main_v43_5) = v5 c
          ∧ r.2.mem ((c.tc : Thread Cert.KernelIdeal.nD Cert.KernelIdeal.τ).loc Cert.KernelIdeal.main_v43_6) = v6 c
          ∧ r.2.mem ((c.tc : Thread Cert.KernelIdeal.nD Cert.KernelIdeal.τ).loc Cert.KernelIdeal.main_v43_7) = v7 c
          ∧ r.2.mem ((c.tc : Thread Cert.KernelIdeal.nD Cert.KernelIdeal.τ).loc Cert.KernelIdeal.main_v4) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v106) = v3 c
          ∧ r.2.mem ((c.tc : Thread Cert.ReferenceIdeal.nD Cert.ReferenceIdeal.τ).loc Cert.ReferenceIdeal.main_v29) = v4 c
          ∧ r.2.mem ((c.tc : Thread Cert.ReferenceIdeal.nD Cert.ReferenceIdeal.τ).loc Cert.ReferenceIdeal.main_v80) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_v81) = v7 c
          ∧ r.2.mem ((c.tc : Thread Cert.ReferenceIdeal.nD Cert.ReferenceIdeal.τ).loc Cert.ReferenceIdeal.main_v4) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S512x512 : Shape := ⟨2, ![512, 512]⟩
abbrev S256x128 : Shape := ⟨2, ![256, 128]⟩
abbrev S128 : Shape := ⟨1, ![128]⟩
abbrev S128x2 : Shape := ⟨2, ![128, 2]⟩
abbrev S2 : Shape := ⟨1, ![2]⟩
abbrev S512x256 : Shape := ⟨2, ![512, 256]⟩
abbrev S256x2 : Shape := ⟨2, ![256, 2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x512 : S_.BroadcastsInDim S512x512 (![] : Fin 0 → Fin S512x512.rank)
  reducesTo_S512x512_S_d0_1 : S512x512.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S512x256 : S_.BroadcastsInDim S512x256 (![] : Fin 0 → Fin S512x256.rank)
  reducesTo_S512x256_S_d0_1 : S512x256.ReducesTo [0, 1] S_
  bcast_S_S256x2 : S_.BroadcastsInDim S256x2 (![] : Fin 0 → Fin S256x2.rank)
  reducesTo_S256x2_S_d0_1 : S256x2.ReducesTo [0, 1] S_

variable [Facts]

def fn_part6 {F : FTy → Type} [FloatOps F] (main_arg25 : FVec F S256x2 .f32) (main_arg26 : FVec F S2 .f32) (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  let main_v104 : FVec F S256x2 .f32 := Host.absf main_arg25
  let main_cst_40 : FVec F S_ .f32 := constant S_ .f32 0x7F800000#32
  let main_v105 : FVec F S256x2 .f32 := broadcastInDim S256x2 ![] bcast_S_S256x2 main_cst_40
  let main_v106 : IVec S256x2 1 := cmpf .olt main_v104 main_v105
  let main_c_41 : IVec S_ 1 := constantI S_ 1 1#1
  let main_v107 : IVec S_ 1 := (fun x v => Host.reduce IntOp.andi x v reducesTo_S256x2_S_d0_1 h_S_) main_v106 main_c_41
  let main_v108 : IVec S_ 1 := andi main_v103 main_v107
  let main_v109 : FVec F S2 .f32 := Host.absf main_arg26
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg22 : FVec F S256 .f32) (main_arg23 : FVec F S256x2 .f32) (main_arg24 : FVec F S2 .f32) (main_arg25 : FVec F S256x2 .f32) (main_arg26 : FVec F S2 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S256 .f32 := Host.absf main_arg22
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x2 .f32 := Host.absf main_arg23
  let main_cst_36 : FVec F S_ .f32 := constant S_ .f32 0x7F800000#32
  let main_v95 : FVec F S256x2 .f32 := broadcastInDim S256x2 ![] bcast_S_S256x2 main_cst_36
  let main_v96 : IVec S256x2 1 := cmpf .olt main_v94 main_v95
  let main_c_37 : IVec S_ 1 := constantI S_ 1 1#1
  let main_v97 : IVec S_ 1 := (fun x v => Host.reduce IntOp.andi x v reducesTo_S256x2_S_d0_1 h_S_) main_v96 main_c_37
  let main_v98 : IVec S_ 1 := andi main_v93 main_v97
  let main_v99 : FVec F S2 .f32 := Host.absf main_arg24
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_arg25 main_arg26 main_v98 main_v101 main_c_39

def fn_part4 {F : FTy → Type} [FloatOps F] (main_arg18 : FVec F S2 .f32) (main_arg19 : FVec F S512x256 .f32) (main_arg20 : FVec F S256 .f32) (main_arg21 : FVec F S512x256 .f32) (main_arg22 : FVec F S256 .f32) (main_arg23 : FVec F S256x2 .f32) (main_arg24 : FVec F S2 .f32) (main_arg25 : FVec F S256x2 .f32) (main_arg26 : FVec F S2 .f32) (main_v63 : IVec S_ 1) (main_v67 : IVec S_ 1) : IVec S_ 1 :=
  let main_v68 : IVec S_ 1 := andi main_v63 main_v67
  let main_v69 : FVec F S2 .f32 := Host.absf main_arg18
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S512x256 .f32 := Host.absf main_arg19
  let main_cst_28 : FVec F S_ .f32 := constant S_ .f32 0x7F800000#32
  let main_v75 : FVec F S512x256 .f32 := broadcastInDim S512x256 ![] bcast_S_S512x256 main_cst_28
  let main_v76 : IVec S512x256 1 := cmpf .olt main_v74 main_v75
  let main_c_29 : IVec S_ 1 := constantI S_ 1 1#1
  let main_v77 : IVec S_ 1 := (fun x v => Host.reduce IntOp.andi x v reducesTo_S512x256_S_d0_1 h_S_) main_v76 main_c_29
  let main_v78 : IVec S_ 1 := andi main_v73 main_v77
  let main_v79 : FVec F S256 .f32 := Host.absf main_arg20
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S512x256 .f32 := Host.absf main_arg21
  let main_cst_32 : FVec F S_ .f32 := constant S_ .f32 0x7F800000#32
  fn_part5 (F := F) main_arg22 main_arg23 main_arg24 main_arg25 main_arg26 main_v83 main_v84 main_cst_32

def fn_part3 {F : FTy → Type} [FloatOps F] (main_arg15 : FVec F S256x128 .f32) (main_arg16 : FVec F S128 .f32) (main_arg17 : FVec F S128x2 .f32) (main_arg18 : FVec F S2 .f32) (main_arg19 : FVec F S512x256 .f32) (main_arg20 : FVec F S256 .f32) (main_arg21 : FVec F S512x256 .f32) (main_arg22 : FVec F S256 .f32) (main_arg23 : FVec F S256x2 .f32) (main_arg24 : FVec F S2 .f32) (main_arg25 : FVec F S256x2 .f32) (main_arg26 : FVec F S2 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S256x128 .f32 := Host.absf main_arg15
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg17
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg18 main_arg19 main_arg20 main_arg21 main_arg22 main_arg23 main_arg24 main_arg25 main_arg26 main_v63 main_v67

def fn_part2 {F : FTy → Type} [FloatOps F] (main_arg11 : FVec F S256 .f32) (main_arg12 : FVec F S256x256 .f32) (main_arg13 : FVec F S256 .f32) (main_arg14 : FVec F S512x512 .f32) (main_arg15 : FVec F S256x128 .f32) (main_arg16 : FVec F S128 .f32) (main_arg17 : FVec F S128x2 .f32) (main_arg18 : FVec F S2 .f32) (main_arg19 : FVec F S512x256 .f32) (main_arg20 : FVec F S256 .f32) (main_arg21 : FVec F S512x256 .f32) (main_arg22 : FVec F S256 .f32) (main_arg23 : FVec F S256x2 .f32) (main_arg24 : FVec F S2 .f32) (main_arg25 : FVec F S256x2 .f32) (main_arg26 : FVec F S2 .f32) (main_v33 : IVec S_ 1) : IVec S_ 1 :=
  let main_v34 : FVec F S256 .f32 := Host.absf main_arg11
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S512x512 .f32 := Host.absf main_arg14
  let main_cst_18 : FVec F S_ .f32 := constant S_ .f32 0x7F800000#32
  let main_v50 : FVec F S512x512 .f32 := broadcastInDim S512x512 ![] bcast_S_S512x512 main_cst_18
  fn_part3 (F := F) main_arg15 main_arg16 main_arg17 main_arg18 main_arg19 main_arg20 main_arg21 main_arg22 main_arg23 main_arg24 main_arg25 main_arg26 main_v48 main_v49 main_v50

def fn_part1 {F : FTy → Type} [FloatOps F] (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S512x512 .f32) (main_arg15 : FVec F S256x128 .f32) (main_arg16 : FVec F S128 .f32) (main_arg17 : FVec F S128x2 .f32) (main_arg18 : FVec F S2 .f32) (main_arg19 : FVec F S512x256 .f32) (main_arg20 : FVec F S256 .f32) (main_arg21 : FVec F S512x256 .f32) (main_arg22 : FVec F S256 .f32) (main_arg23 : FVec F S256x2 .f32) (main_arg24 : FVec F S2 .f32) (main_arg25 : FVec F S256x2 .f32) (main_arg26 : FVec F S2 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S65536 32) (main_arg1 : IVec S65536 32) (main_arg2 : IVec S65536 32) (main_arg3 : IVec S65536 32) (main_arg4 : FVec F S100000x256 .f32) (main_arg5 : FVec F S100000x256 .f32) (main_arg6 : FVec F S50000x256 .f32) (main_arg7 : FVec F S50000x256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S512x512 .f32) (main_arg15 : FVec F S256x128 .f32) (main_arg16 : FVec F S128 .f32) (main_arg17 : FVec F S128x2 .f32) (main_arg18 : FVec F S2 .f32) (main_arg19 : FVec F S512x256 .f32) (main_arg20 : FVec F S256 .f32) (main_arg21 : FVec F S512x256 .f32) (main_arg22 : FVec F S256 .f32) (main_arg23 : FVec F S256x2 .f32) (main_arg24 : FVec F S2 .f32) (main_arg25 : FVec F S256x2 .f32) (main_arg26 : FVec F S2 .f32) : IVec S_ 1 :=
  let main_v0 : FVec F S100000x256 .f32 := Host.absf main_arg4
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg5
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S50000x256 .f32 := Host.absf main_arg6
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x256 .f32 := Host.absf main_arg7
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S65536 : Shape := ⟨1, ![65536]⟩
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S512x512 : Shape := ⟨2, ![512, 512]⟩
abbrev S256x128 : Shape := ⟨2, ![256, 128]⟩
abbrev S128 : Shape := ⟨1, ![128]⟩
abbrev S128x2 : Shape := ⟨2, ![128, 2]⟩
abbrev S2 : Shape := ⟨1, ![2]⟩
abbrev S512x256 : Shape := ⟨2, ![512, 256]⟩
abbrev S256x2 : Shape := ⟨2, ![256, 2]⟩
abbrev S_ : Shape := ⟨0, ![]⟩
abbrev S65536x1 : Shape := ⟨2, ![65536, 1]⟩
abbrev S65536x256 : Shape := ⟨2, ![65536, 256]⟩
abbrev S65536x2 : Shape := ⟨2, ![65536, 2]⟩
abbrev S65536x512 : Shape := ⟨2, ![65536, 512]⟩
abbrev S1024x256 : Shape := ⟨2, ![1024, 256]⟩
abbrev S1024x2 : Shape := ⟨2, ![1024, 2]⟩
abbrev S1024x512 : Shape := ⟨2, ![1024, 512]⟩
abbrev S1x256 : Shape := ⟨2, ![1, 256]⟩
abbrev S1x2 : Shape := ⟨2, ![1, 2]⟩
abbrev S1024x128 : Shape := ⟨2, ![1024, 128]⟩
abbrev S1x128 : Shape := ⟨2, ![1, 128]⟩

abbrev nBuf : Space → Nat
  | .hbm => 88
  | .vmem => 43
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536, .i32⟩
  | .hbm, ⟨3, _⟩ => ⟨S65536, .i32⟩
  | .hbm, ⟨4, _⟩ => ⟨S100000x256, .f32⟩
  | .hbm, ⟨5, _⟩ => ⟨S100000x256, .f32⟩
  | .hbm, ⟨6, _⟩ => ⟨S50000x256, .f32⟩
  | .hbm, ⟨7, _⟩ => ⟨S50000x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S512x512, .f32⟩
  | .hbm, ⟨15, _⟩ => ⟨S256x128, .f32⟩
  | .hbm, ⟨16, _⟩ => ⟨S128, .f32⟩
  | .hbm, ⟨17, _⟩ => ⟨S128x2, .f32⟩
  | .hbm, ⟨18, _⟩ => ⟨S2, .f32⟩
  | .hbm, ⟨19, _⟩ => ⟨S512x256, .f32⟩
  | .hbm, ⟨20, _⟩ => ⟨S256, .f32⟩
  | .hbm, ⟨21, _⟩ => ⟨S512x256, .f32⟩
  | .hbm, ⟨22, _⟩ => ⟨S256, .f32⟩
  | .hbm, ⟨23, _⟩ => ⟨S256x2, .f32⟩
  | .hbm, ⟨24, _⟩ => ⟨S2, .f32⟩
  | .hbm, ⟨25, _⟩ => ⟨S256x2, .f32⟩
  | .hbm, ⟨26, _⟩ => ⟨S2, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .i1⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536x256, .f32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S65536x1, .i32⟩
  | .hbm, ⟨52, _⟩ => ⟨S65536x256, .f32⟩
  | .hbm, ⟨53, _⟩ => ⟨S_, .i32⟩
  | .hbm, ⟨54, _⟩ => ⟨S65536, .i32⟩
  | .hbm, ⟨55, _⟩ => ⟨S65536, .i1⟩
  | .hbm, ⟨56, _⟩ => ⟨S_, .i32⟩
  | .hbm, ⟨57, _⟩ => ⟨S65536, .i32⟩
  | .hbm, ⟨58, _⟩ => ⟨S65536, .i32⟩
  | .hbm, ⟨59, _⟩ => ⟨S65536, .i32⟩
  | .hbm, ⟨60, _⟩ => ⟨S65536x1, .i32⟩
  | .hbm, ⟨61, _⟩ => ⟨S65536x256, .f32⟩
  | .hbm, ⟨62, _⟩ => ⟨S_, .i32⟩
  | .hbm, ⟨63, _⟩ => ⟨S65536, .i32⟩
  | .hbm, ⟨64, _⟩ => ⟨S65536, .i1⟩
  | .hbm, ⟨65, _⟩ => ⟨S_, .i32⟩
  | .hbm, ⟨66, _⟩ => ⟨S65536, .i32⟩
  | .hbm, ⟨67, _⟩ => ⟨S65536, .i32⟩
  | .hbm, ⟨68, _⟩ => ⟨S65536, .i32⟩
  | .hbm, ⟨69, _⟩ => ⟨S65536x1, .i32⟩
  | .hbm, ⟨70, _⟩ => ⟨S65536x256, .f32⟩
  | .hbm, ⟨71, _⟩ => ⟨S256x256, .bf16⟩
  | .hbm, ⟨72, _⟩ => ⟨S256x256, .bf16⟩
  | .hbm, ⟨73, _⟩ => ⟨S256x256, .bf16⟩
  | .hbm, ⟨74, _⟩ => ⟨S256x128, .bf16⟩
  | .hbm, ⟨75, _⟩ => ⟨S128x2, .bf16⟩
  | .hbm, ⟨76, _⟩ => ⟨S512x256, .bf16⟩
  | .hbm, ⟨77, _⟩ => ⟨S512x256, .bf16⟩
  | .hbm, ⟨78, _⟩ => ⟨S256x2, .bf16⟩
  | .hbm, ⟨79, _⟩ => ⟨S256x2, .bf16⟩
  | .hbm, ⟨80, _⟩ => ⟨S65536x2, .f32⟩
  | .hbm, ⟨81, _⟩ => ⟨S65536x2, .f32⟩
  | .hbm, ⟨82, _⟩ => ⟨S65536x2, .f32⟩
  | .hbm, ⟨83, _⟩ => ⟨S65536x2, .f32⟩
  | .hbm, ⟨84, _⟩ => ⟨S65536x512, .f32⟩
  | .hbm, ⟨85, _⟩ => ⟨S65536x512, .f32⟩
  | .hbm, ⟨86, _⟩ => ⟨S65536x512, .f32⟩
  | .hbm, ⟨87, _⟩ => ⟨S65536x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S512x512, .bf16⟩
  | .local _ .vmem, ⟨15, _⟩ => ⟨S256x128, .bf16⟩
  | .local _ .vmem, ⟨16, _⟩ => ⟨S128, .f32⟩
  | .local _ .vmem, ⟨17, _⟩ => ⟨S128x2, .bf16⟩
  | .local _ .vmem, ⟨18, _⟩ => ⟨S2, .f32⟩
  | .local _ .vmem, ⟨19, _⟩ => ⟨S512x256, .bf16⟩
  | .local _ .vmem, ⟨20, _⟩ => ⟨S256, .f32⟩
  | .local _ .vmem, ⟨21, _⟩ => ⟨S512x256, .bf16⟩
  | .local _ .vmem, ⟨22, _⟩ => ⟨S256, .f32⟩
  | .local _ .vmem, ⟨23, _⟩ => ⟨S256x2, .bf16⟩
  | .local _ .vmem, ⟨24, _⟩ => ⟨S2, .f32⟩
  | .local _ .vmem, ⟨25, _⟩ => ⟨S256x2, .bf16⟩
  | .local _ .vmem, ⟨26, _⟩ => ⟨S2, .f32⟩
  | .local _ .vmem, ⟨27, _⟩ => ⟨S1024x2, .f32⟩
  | .local _ .vmem, ⟨28, _⟩ => ⟨S1024x2, .f32⟩
  | .local _ .vmem, ⟨29, _⟩ => ⟨S1024x2, .f32⟩
  | .local _ .vmem, ⟨30, _⟩ => ⟨S1024x2, .f32⟩
  | .local _ .vmem, ⟨31, _⟩ => ⟨S1024x2, .f32⟩
  | .local _ .vmem, ⟨32, _⟩ => ⟨S1024x2, .f32⟩
  | .local _ .vmem, ⟨33, _⟩ => ⟨S1024x2, .f32⟩
  | .local _ .vmem, ⟨34, _⟩ => ⟨S1024x2, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_c : Ref sig .tc := ⟨.hbm, 35, rfl⟩
abbrev main_v6 : Ref sig .tc := ⟨.hbm, 36, rfl⟩
abbrev main_v7 : Ref sig .tc := ⟨.hbm, 37, rfl⟩
abbrev main_c_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_c_2 : Ref sig .tc := ⟨.hbm, 44, rfl⟩
abbrev main_v13 : Ref sig .tc := ⟨.hbm, 45, rfl⟩
abbrev main_v14 : Ref sig .tc := ⟨.hbm, 46, rfl⟩
abbrev main_c_3 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_c_4 : Ref sig .tc := ⟨.hbm, 53, rfl⟩
abbrev main_v20 : Ref sig .tc := ⟨.hbm, 54, rfl⟩
abbrev main_v21 : Ref sig .tc := ⟨.hbm, 55, rfl⟩
abbrev main_c_5 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_6 : Ref sig .tc := ⟨.hbm, 62, rfl⟩
abbrev main_v27 : Ref sig .tc := ⟨.hbm, 63, rfl⟩
abbrev main_v28 : Ref sig .tc := ⟨.hbm, 64, rfl⟩
abbrev main_c_7 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43_0 : Ref sig .tc := ⟨.hbm, 80, rfl⟩
abbrev main_v43_1 : Ref sig .tc := ⟨.hbm, 81, rfl⟩
abbrev main_v43_2 : Ref sig .tc := ⟨.hbm, 82, rfl⟩
abbrev main_v43_3 : Ref sig .tc := ⟨.hbm, 83, rfl⟩
abbrev main_v43_4 : Ref sig .tc := ⟨.hbm, 84, rfl⟩
abbrev main_v43_5 : Ref sig .tc := ⟨.hbm, 85, rfl⟩
abbrev main_v43_6 : Ref sig .tc := ⟨.hbm, 86, rfl⟩
abbrev main_v43_7 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_stg29_0 : Ref sig .tc := ⟨.vmem, 39, rfl⟩
abbrev cc0_stg29_1 : Ref sig .tc := ⟨.vmem, 40, rfl⟩
abbrev cc0_stg30_0 : Ref sig .tc := ⟨.vmem, 41, rfl⟩
abbrev cc0_stg30_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36
abbrev cc0_sem28_0 : DmaSem sig := 37
abbrev cc0_sem28_1 : DmaSem sig := 38
abbrev cc0_sem29_0 : DmaSem sig := 39
abbrev cc0_sem29_1 : DmaSem sig := 40
abbrev cc0_sem30_0 : DmaSem sig := 41
abbrev cc0_sem30_1 : DmaSem sig := 42

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x2 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x2 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1024x2 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x2 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x2 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024x2 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1024x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1024x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1024x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

class Facts₀ : Prop where
  bcast_S_S512x512 : S_.BroadcastsInDim S512x512 (![] : Fin 0 → Fin S512x512.rank)
  bitsLt_bf16_f32 : FTy.bits .bf16 < FTy.bits .f32
  bcast_S_S65536 : S_.BroadcastsInDim S65536 (![] : Fin 0 → Fin S65536.rank)
  bcast_S65536_S65536x1_0 : S65536.BroadcastsInDim S65536x1 (![0] : Fin 1 → Fin S65536x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S1024x512_o0_256_S1024x256 : S1024x512.Slices ![0, 256] S1024x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  concatenates_S1024x256_S1024x256_S1024x512_d1 : Shape.Concatenates [S1024x256, S1024x256] S1024x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1024x2_S1024x2_0_0 : ∀ a, (![0, 0] : Fin 2 → Nat) a + S1024x2.size a ≤ S1024x2.size a
  h_S1024x2 : 0 < S1024x2.numel
  gather_S100000x256_S65536x1_S65536x256_1_0_n_n_0_1_1256_wf : GatherDims.WF S100000x256 S65536x1 S65536x256 [1] [0] [] [0] [] 1 ![1, 256]
  gather_S50000x256_S65536x1_S65536x256_1_0_n_n_0_1_1256_wf : GatherDims.WF S50000x256 S65536x1 S65536x256 [1] [0] [] [0] [] 1 ![1, 256]
  dot_S1024x256_S256x256_S1024x256_1_0_0_1_n_n_wf : DotDims.WF S1024x256 S256x256 S1024x256 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x256_S256x2_S1024x2_1_0_0_1_n_n_wf : DotDims.WF S1024x256 S256x2 S1024x2 [1] [0] [0] [1] [] []
  dot_S1024x256_S256x128_S1024x128_1_0_0_1_n_n_wf : DotDims.WF S1024x256 S256x128 S1024x128 [1] [0] [0] [1] [] []
  dot_S1024x128_S128x2_S1024x2_1_0_0_1_n_n_wf : DotDims.WF S1024x128 S128x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x2.size a ≤ S128x2.size a
  hwx0_13 : ∀ i : grid0.Coords, EltTy.bits .bf16 = 32 ∨ (Rect.block (s := S128x2) S128x2.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S2.size a ≤ S2.size a
  hwx0_14 : ∀ i : grid0.Coords, EltTy.bits .f32 = 32 ∨ (Rect.block (s := S2) S2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S512x256.size a
  hwx0_15 : ∀ i : grid0.Coords, EltTy.bits .bf16 = 32 ∨ (Rect.block (s := S512x256) S512x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S512x256.size a
  hwx0_17 : ∀ i : grid0.Coords, EltTy.bits .bf16 = 32 ∨ (Rect.block (s := S512x256) S512x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x2.size a ≤ S256x2.size a
  hwx0_19 : ∀ i : grid0.Coords, EltTy.bits .bf16 = 32 ∨ (Rect.block (s := S256x2) S256x2.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S2.size a ≤ S2.size a
  hwx0_20 : ∀ i : grid0.Coords, EltTy.bits .f32 = 32 ∨ (Rect.block (s := S2) S2.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x2.size a ≤ S256x2.size a
  hwx0_21 : ∀ i : grid0.Coords, EltTy.bits .bf16 = 32 ∨ (Rect.block (s := S256x2) S256x2.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S2.size a ≤ S2.size a
  hwx0_22 : ∀ i : grid0.Coords, EltTy.bits .f32 = 32 ∨ (Rect.block (s := S2) S2.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x2.size a ≤ S65536x2.size a
  hwx0_23 : ∀ i : grid0.Coords, EltTy.bits .f32 = 32 ∨ (Rect.block (s := S65536x2) S1024x2.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x2.size a ≤ S65536x2.size a
  hwx0_24 : ∀ i : grid0.Coords, EltTy.bits .f32 = 32 ∨ (Rect.block (s := S65536x2) S1024x2.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x2.size a ≤ S65536x2.size a
  hwx0_25 : ∀ i : grid0.Coords, EltTy.bits .f32 = 32 ∨ (Rect.block (s := S65536x2) S1024x2.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x2.size a ≤ S65536x2.size a
  hwx0_26 : ∀ i : grid0.Coords, EltTy.bits .f32 = 32 ∨ (Rect.block (s := S65536x2) S1024x2.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1024x512.size a ≤ S65536x512.size a
  hwx0_27 : ∀ i : grid0.Coords, EltTy.bits .f32 = 32 ∨ (Rect.block (s := S65536x512) S1024x512.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S1024x512.size a ≤ S65536x512.size a
  hwx0_28 : ∀ i : grid0.Coords, EltTy.bits .f32 = 32 ∨ (Rect.block (s := S65536x512) S1024x512.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S1024x512.size a ≤ S65536x512.size a
  hwx0_29 : ∀ i : grid0.Coords, EltTy.bits .f32 = 32 ∨ (Rect.block (s := S65536x512) S1024x512.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S1024x512.size a ≤ S65536x512.size a
  hwx0_30 : ∀ i : grid0.Coords, EltTy.bits .f32 = 32 ∨ (Rect.block (s := S65536x512) S1024x512.size (cc0_transform_30 i) (hinb0_30 i)).WholeWords (EltTy.packing .f32)

variable [Facts₀]

def gather_S100000x256_S65536x1_S65536x256_1_0_n_n_0_1_1256 : GatherDims S100000x256 S65536x1 S65536x256 where
  offsetDims := [1]
  collapsedSliceDims := [0]
  operandBatchingDims := []
  startIndicesBatchingDims := []
  startIndexMap := [0]
  indexVectorDim := 1
  sliceSizes := ![1, 256]
  wf := gather_S100000x256_S65536x1_S65536x256_1_0_n_n_0_1_1256_wf
def gather_S50000x256_S65536x1_S65536x256_1_0_n_n_0_1_1256 : GatherDims S50000x256 S65536x1 S65536x256 where
  offsetDims := [1]
  collapsedSliceDims := [0]
  operandBatchingDims := []
  startIndicesBatchingDims := []
  startIndexMap := [0]
  indexVectorDim := 1
  sliceSizes := ![1, 256]
  wf := gather_S50000x256_S65536x1_S65536x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2_S1024x2_1_0_0_1_n_n : DotDims S1024x128 S128x2 S1024x2 where
  lhsContracting := [1]
  rhsContracting := [0]
  lhsNonContracting := [0]
  rhsNonContracting := [1]
  lhsBatch := []
  rhsBatch := []
  wf := dot_S1024x128_S128x2_S1024x2_1_0_0_1_n_n_wf

abbrev win0_0 : Pipeline.Window sig grid0 :=
  Pipeline.Window.ofSpec (Memref.whole main_v12) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v38) S128x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S512x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg20) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v40) S512x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg22) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v41) S256x2.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg24) S2.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v42) S256x2.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg26) S2.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v43_0) S1024x2.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v43_1) S1024x2.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v43_2) S1024x2.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v43_3) S1024x2.size cc0_transform_26 reads0_26 true false 2 stage0_26 sem0_26
    hrank0 hreads0_26 hinb0_26 nbuf0_26 (Memref.isWhole_whole _) hwx0_26 hstage0_26

abbrev win0_27 : Pipeline.Window sig grid0 :=
  Pipeline.Window.ofSpec (Memref.whole main_v43_4) S1024x512.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v43_5) S1024x512.size cc0_transform_28 reads0_28 true false 2 stage0_28 sem0_28
    hrank0 hreads0_28 hinb0_28 nbuf0_28 (Memref.isWhole_whole _) hwx0_28 hstage0_28

abbrev win0_29 : Pipeline.Window sig grid0 :=
  Pipeline.Window.ofSpec (Memref.whole main_v43_6) S1024x512.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v43_7) S1024x512.size cc0_transform_30 reads0_30 true false 2 stage0_30 sem0_30
    hrank0 hreads0_30 hinb0_30 nbuf0_30 (Memref.isWhole_whole _) hwx0_30 hstage0_30

abbrev win0 : Fin 31 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | ⟨_ + 31, h⟩ => absurd h (Nat.not_lt.2 (Nat.le_add_left _ _))
abbrev spec0 : Fin 31 → Pipeline.WinSpec sig grid0.rank := fun w => (win0 w).toWinSpec

class Facts : Prop extends Facts₀ where

variable [Facts]
-- ==== ReferenceIdeal.lean ====
abbrev S65536 : Shape := ⟨1, ![65536]⟩
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S512x512 : Shape := ⟨2, ![512, 512]⟩
abbrev S256x128 : Shape := ⟨2, ![256, 128]⟩
abbrev S128 : Shape := ⟨1, ![128]⟩
abbrev S128x2 : Shape := ⟨2, ![128, 2]⟩
abbrev S2 : Shape := ⟨1, ![2]⟩
abbrev S512x256 : Shape := ⟨2, ![512, 256]⟩
abbrev S256x2 : Shape := ⟨2, ![256, 2]⟩
abbrev S_ : Shape := ⟨0, ![]⟩
abbrev S65536x1 : Shape := ⟨2, ![65536, 1]⟩
abbrev S65536x256 : Shape := ⟨2, ![65536, 256]⟩
abbrev S1x256 : Shape := ⟨2, ![1, 256]⟩
abbrev S65536x512 : Shape := ⟨2, ![65536, 512]⟩
abbrev S65536x2 : Shape := ⟨2, ![65536, 2]⟩
abbrev S1x2 : Shape := ⟨2, ![1, 2]⟩
abbrev S65536x128 : Shape := ⟨2, ![65536, 128]⟩
abbrev S1x128 : Shape := ⟨2, ![1, 128]⟩

abbrev nBuf : Space → Nat
  | .hbm => 156
  | .vmem => 0
  | .smem => 0
  | _ => 0

abbrev hbmTy0_0 (i : Nat) : BufTy := match i % 128 with
  | 0 => ⟨S65536, .i32⟩
  | 1 => ⟨S65536, .i32⟩
  | 2 => ⟨S65536, .i32⟩
  | 3 => ⟨S65536, .i32⟩
  | 4 => ⟨S100000x256, .f32⟩
  | 5 => ⟨S100000x256, .f32⟩
  | 6 => ⟨S50000x256, .f32⟩
  | 7 => ⟨S50000x256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S512x512, .f32⟩
  | 15 => ⟨S256x128, .f32⟩
  | 16 => ⟨S128, .f32⟩
  | 17 => ⟨S128x2, .f32⟩
  | 18 => ⟨S2, .f32⟩
  | 19 => ⟨S512x256, .f32⟩
  | 20 => ⟨S256, .f32⟩
  | 21 => ⟨S512x256, .f32⟩
  | 22 => ⟨S256, .f32⟩
  | 23 => ⟨S256x2, .f32⟩
  | 24 => ⟨S2, .f32⟩
  | 25 => ⟨S256x2, .f32⟩
  | 26 => ⟨S2, .f32⟩
  | 27 => ⟨S512x512, .f32⟩
  | 28 => ⟨S_, .f32⟩
  | 29 => ⟨S512x512, .f32⟩
  | 30 => ⟨S512x512, .i1⟩
  | 31 => ⟨S_, .f32⟩
  | 32 => ⟨S512x512, .f32⟩
  | 33 => ⟨S512x512, .f32⟩
  | 34 => ⟨S_, .i32⟩
  | 35 => ⟨S65536, .i32⟩
  | 36 => ⟨S65536, .i1⟩
  | 37 => ⟨S_, .i32⟩
  | 38 => ⟨S65536, .i32⟩
  | 39 => ⟨S65536, .i32⟩
  | 40 => ⟨S65536, .i32⟩
  | 41 => ⟨S65536x1, .i32⟩
  | 42 => ⟨S65536x256, .f32⟩
  | 43 => ⟨S65536x256, .f32⟩
  | 44 => ⟨S1x256, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S65536x256, .f32⟩
  | 59 => ⟨S65536x256, .f32⟩
  | 60 => ⟨S1x256, .f32⟩
  | 61 => ⟨S65536x256, .f32⟩
  | 62 => ⟨S65536x256, .f32⟩
  | 63 => ⟨S_, .f32⟩
  | 64 => ⟨S65536x256, .f32⟩
  | 65 => ⟨S65536x256, .f32⟩
  | 66 => ⟨S65536x512, .f32⟩
  | 67 => ⟨S65536x512, .f32⟩
  | 68 => ⟨S65536x256, .f32⟩
  | 69 => ⟨S65536x512, .f32⟩
  | 70 => ⟨S65536x256, .f32⟩
  | 71 => ⟨S1x256, .f32⟩
  | 72 => ⟨S65536x256, .f32⟩
  | 73 => ⟨S65536x256, .f32⟩
  | 74 => ⟨S65536x256, .f32⟩
  | 75 => ⟨S65536x2, .f32⟩
  | 76 => ⟨S1x2, .f32⟩
  | 77 => ⟨S65536x2, .f32⟩
  | 78 => ⟨S65536x2, .f32⟩
  | 79 => ⟨S65536x128, .f32⟩
  | 80 => ⟨S1x128, .f32⟩
  | 81 => ⟨S65536x128, .f32⟩
  | 82 => ⟨S65536x128, .f32⟩
  | 83 => ⟨S65536x128, .f32⟩
  | 84 => ⟨S65536x128, .f32⟩
  | 85 => ⟨S_, .f32⟩
  | 86 => ⟨S65536x128, .f32⟩
  | 87 => ⟨S65536x128, .f32⟩
  | 88 => ⟨S_, .f32⟩
  | 89 => ⟨S65536x128, .f32⟩
  | 90 => ⟨S65536x128, .f32⟩
  | 91 => ⟨S65536x2, .f32⟩
  | 92 => ⟨S1x2, .f32⟩
  | 93 => ⟨S65536x2, .f32⟩
  | 94 => ⟨S65536x2, .f32⟩
  | 95 => ⟨S_, .i32⟩
  | 96 => ⟨S65536, .i32⟩
  | 97 => ⟨S65536, .i1⟩
  | 98 => ⟨S_, .i32⟩
  | 99 => ⟨S65536, .i32⟩
  | 100 => ⟨S65536, .i32⟩
  | 101 => ⟨S65536, .i32⟩
  | 102 => ⟨S65536x1, .i32⟩
  | 103 => ⟨S65536x256, .f32⟩
  | 104 => ⟨S65536x256, .f32⟩
  | 105 => ⟨S1x256, .f32⟩
  | 106 => ⟨S65536x256, .f32⟩
  | 107 => ⟨S65536x256, .f32⟩
  | 108 => ⟨S_, .f32⟩
  | 109 => ⟨S65536x256, .f32⟩
  | 110 => ⟨S65536x256, .f32⟩
  | 111 => ⟨S_, .i32⟩
  | 112 => ⟨S65536, .i32⟩
  | 113 => ⟨S65536, .i1⟩
  | 114 => ⟨S_, .i32⟩
  | 115 => ⟨S65536, .i32⟩
  | 116 => ⟨S65536, .i32⟩
  | 117 => ⟨S65536, .i32⟩
  | 118 => ⟨S65536x1, .i32⟩
  | 119 => ⟨S65536x256, .f32⟩
  | 120 => ⟨S65536x256, .f32⟩
  | 121 => ⟨S1x256, .f32⟩
  | 122 => ⟨S65536x256, .f32⟩
  | 123 => ⟨S65536x256, .f32⟩
  | 124 => ⟨S_, .f32⟩
  | 125 => ⟨S65536x256, .f32⟩
  | 126 => ⟨S65536x256, .f32⟩
  | 127 => ⟨S65536x512, .f32⟩
  | _ => ⟨S65536, .i32⟩

abbrev hbmTy0_1 (i : Nat) : BufTy := match i % 128 with
  | 0 => ⟨S65536x512, .f32⟩
  | 1 => ⟨S65536x256, .f32⟩
  | 2 => ⟨S65536x512, .f32⟩
  | 3 => ⟨S65536x256, .f32⟩
  | 4 => ⟨S1x256, .f32⟩
  | 5 => ⟨S65536x256, .f32⟩
  | 6 => ⟨S65536x256, .f32⟩
  | 7 => ⟨S65536x256, .f32⟩
  | 8 => ⟨S65536x2, .f32⟩
  | 9 => ⟨S1x2, .f32⟩
  | 10 => ⟨S65536x2, .f32⟩
  | 11 => ⟨S65536x2, .f32⟩
  | 12 => ⟨S65536x128, .f32⟩
  | 13 => ⟨S1x128, .f32⟩
  | 14 => ⟨S65536x128, .f32⟩
  | 15 => ⟨S65536x128, .f32⟩
  | 16 => ⟨S65536x128, .f32⟩
  | 17 => ⟨S65536x128, .f32⟩
  | 18 => ⟨S_, .f32⟩
  | 19 => ⟨S65536x128, .f32⟩
  | 20 => ⟨S65536x128, .f32⟩
  | 21 => ⟨S_, .f32⟩
  | 22 => ⟨S65536x128, .f32⟩
  | 23 => ⟨S65536x128, .f32⟩
  | 24 => ⟨S65536x2, .f32⟩
  | 25 => ⟨S1x2, .f32⟩
  | 26 => ⟨S65536x2, .f32⟩
  | 27 => ⟨S65536x2, .f32⟩
  | _ => ⟨S65536, .i32⟩

abbrev hbmTy (i : Nat) : BufTy := match i / 128 with
  | 0 => hbmTy0_0 i
  | 1 => hbmTy0_1 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_cst_0 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call1_cst : Ref sig .tc := ⟨.hbm, 47, rfl⟩
abbrev main_call1_v0 : Ref sig .tc := ⟨.hbm, 48, rfl⟩
abbrev main_v16 : Ref sig .tc := ⟨.hbm, 49, rfl⟩
abbrev main_c_2 : Ref sig .tc := ⟨.hbm, 50, rfl⟩
abbrev main_v17 : Ref sig .tc := ⟨.hbm, 51, rfl⟩
abbrev main_v18 : Ref sig .tc := ⟨.hbm, 52, rfl⟩
abbrev main_c_3 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call2_cst : Ref sig .tc := ⟨.hbm, 63, rfl⟩
abbrev main_call2_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_4 : Ref sig .tc := ⟨.hbm, 85, rfl⟩
abbrev main_v48 : Ref sig .tc := ⟨.hbm, 86, rfl⟩
abbrev main_v49 : Ref sig .tc := ⟨.hbm, 87, rfl⟩
abbrev main_cst_5 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_6 : Ref sig .tc := ⟨.hbm, 95, rfl⟩
abbrev main_v56 : Ref sig .tc := ⟨.hbm, 96, rfl⟩
abbrev main_v57 : Ref sig .tc := ⟨.hbm, 97, rfl⟩
abbrev main_c_7 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_call3_cst : Ref sig .tc := ⟨.hbm, 108, rfl⟩
abbrev main_call3_v0 : Ref sig .tc := ⟨.hbm, 109, rfl⟩
abbrev main_v67 : Ref sig .tc := ⟨.hbm, 110, rfl⟩
abbrev main_c_8 : Ref sig .tc := ⟨.hbm, 111, rfl⟩
abbrev main_v68 : Ref sig .tc := ⟨.hbm, 112, rfl⟩
abbrev main_v69 : Ref sig .tc := ⟨.hbm, 113, rfl⟩
abbrev main_c_9 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_call4_cst : Ref sig .tc := ⟨.hbm, 124, rfl⟩
abbrev main_call4_v0 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_cst_10 : Ref sig .tc := ⟨.hbm, 146, rfl⟩
abbrev main_v99 : Ref sig .tc := ⟨.hbm, 147, rfl⟩
abbrev main_v100 : Ref sig .tc := ⟨.hbm, 148, rfl⟩
abbrev main_cst_11 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S_S65536 : S_.BroadcastsInDim S65536 (![] : Fin 0 → Fin S65536.rank)
  bcast_S65536_S65536x1_0 : S65536.BroadcastsInDim S65536x1 (![0] : Fin 1 → Fin S65536x1.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  concatenates_S65536x256_S65536x256_S65536x512_d1 : Shape.Concatenates [S65536x256, S65536x256] S65536x512 1
  slices_S65536x512_S65536x256_0_256 : S65536x512.Slices ![0, 256] S65536x256
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  gather_S100000x256_S65536x1_S65536x256_1_0_n_n_0_1_1256_wf : GatherDims.WF S100000x256 S65536x1 S65536x256 [1] [0] [] [0] [] 1 ![1, 256]
  dot_S65536x256_S256x256_S65536x256_1_0_0_1_n_n_wf : DotDims.WF S65536x256 S256x256 S65536x256 [1] [0] [0] [1] [] []
  gather_S50000x256_S65536x1_S65536x256_1_0_n_n_0_1_1256_wf : GatherDims.WF S50000x256 S65536x1 S65536x256 [1] [0] [] [0] [] 1 ![1, 256]
  dot_S65536x512_S512x512_S65536x512_1_0_0_1_n_n_wf : DotDims.WF S65536x512 S512x512 S65536x512 [1] [0] [0] [1] [] []
  dot_S65536x512_S512x256_S65536x256_1_0_0_1_n_n_wf : DotDims.WF S65536x512 S512x256 S65536x256 [1] [0] [0] [1] [] []
  dot_S65536x256_S256x2_S65536x2_1_0_0_1_n_n_wf : DotDims.WF S65536x256 S256x2 S65536x2 [1] [0] [0] [1] [] []
  dot_S65536x256_S256x128_S65536x128_1_0_0_1_n_n_wf : DotDims.WF S65536x256 S256x128 S65536x128 [1] [0] [0] [1] [] []
  dot_S65536x128_S128x2_S65536x2_1_0_0_1_n_n_wf : DotDims.WF S65536x128 S128x2 S65536x2 [1] [0] [0] [1] [] []

variable [Facts₀]

def gather_S100000x256_S65536x1_S65536x256_1_0_n_n_0_1_1256 : GatherDims S100000x256 S65536x1 S65536x256 where
  offsetDims := [1]
  collapsedSliceDims := [0]
  operandBatchingDims := []
  startIndicesBatchingDims := []
  startIndexMap := [0]
  indexVectorDim := 1
  sliceSizes := ![1, 256]
  wf := gather_S100000x256_S65536x1_S65536x256_1_0_n_n_0_1_1256_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def gather_S50000x256_S65536x1_S65536x256_1_0_n_n_0_1_1256 : GatherDims S50000x256 S65536x1 S65536x256 where
  offsetDims := [1]
  collapsedSliceDims := [0]
  operandBatchingDims := []
  startIndicesBatchingDims := []
  startIndexMap := [0]
  indexVectorDim := 1
  sliceSizes := ![1, 256]
  wf := gather_S50000x256_S65536x1_S65536x256_1_0_n_n_0_1_1256_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x256_S256x2_S65536x2_1_0_0_1_n_n : DotDims S65536x256 S256x2 S65536x2 where
  lhsContracting := [1]
  rhsContracting := [0]
  lhsNonContracting := [0]
  rhsNonContracting := [1]
  lhsBatch := []
  rhsBatch := []
  wf := dot_S65536x256_S256x2_S65536x2_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x2_S65536x2_1_0_0_1_n_n : DotDims S65536x128 S128x2 S65536x2 where
  lhsContracting := [1]
  rhsContracting := [0]
  lhsNonContracting := [0]
  rhsNonContracting := [1]
  lhsBatch := []
  rhsBatch := []
  wf := dot_S65536x128_S128x2_S65536x2_1_0_0_1_n_n_wf

class Facts : Prop extends Facts₀ where

variable [Facts]
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibDenseRow.lean ====
/-
  A dense layer as a kernel body writes it, read at an entry, at the extended reals.

  `jnp.dot(x, W) + b` inside a kernel is a matrix product accumulated into a zero array, plus the bias vector `[N]`
  viewed as the one row `[1, N]` and repeated over the `M` rows. At `(r, e)` the product is the sum over
  `k : Fin K` of `x (r, k) · W (k, e)` and the repeated bias is `b e`, whatever the sizes.
-/
import Idealize.ShloMosaic.PureOps.Ideal.Laws
import Idealize.ShloMosaic.Lib.ValueIdx
import Idealize.ShloMosaic.Lib.Pipeline.Value
import proofs.«167602_j51625506897950_2_alg».proof.Proof.LibDotSum

noncomputable section

namespace Cert.LibDenseRow

open Idealize.ShloMosaic Idealize.ShloMosaic.ValueIdx

/-- A vector `[N]` viewed as the row `[1, N]` and repeated over `M` rows reads, at `(r, e)`, its entry `e`. -/
theorem rowBias_apply {M N : Nat} {α : Type} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (r : Fin M) (e : Fin N) :
    broadcastTo ⟨2, ![M, N]⟩ (shapeCast ⟨2, ![1, N]⟩ b h1) h2 (ix2 r e) = b (ix1 e) := by
  refine (broadcastTo_apply _ h2 (ix2 r e) (ix2 (0 : Fin 1) e) fun a => ?_).trans
    (shapeCast_apply b h1 (ix2 (0 : Fin 1) e) (ix1 e) ?_)
  · match a with
    | ⟨0, _⟩ => rfl
    | ⟨1, _⟩ =>
      show e.val = if N = 1 then 0 else e.val
      split
      · have := e.isLt; omega
      · rfl
  · rw [Shape.rowMajor_val_one, Shape.rowMajor_val_two]
    show e.val = 0 * N + e.val
    omega

/-- The product of an `M × K` by a `K × N` array accumulated into the zero array, plus the bias `[N]` repeated over the
    rows, at `(r, e)`: the sum over `k` of `x (r, k) · W (k, e)`, plus `b e`. The six hypotheses on the record of
    dimension numbers compute on a given record. -/
theorem dense_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).ShapeCasts ⟨2, ![1, N]⟩) (h2 : (⟨2, ![1, N]⟩ : Shape).Broadcasts ⟨2, ![M, N]⟩)
    (x : FVec Ideal ⟨2, ![M, K]⟩ .f32) (W : FVec Ideal ⟨2, ![K, N]⟩ .f32) (b : FVec Ideal ⟨1, ![N]⟩ .f32)
    (r : Fin M) (e : Fin N) :
    addf (matmul D none x W (constant (F := Ideal) ⟨2, ![M, N]⟩ .f32 0x00000000#32))
        (broadcastTo ⟨2, ![M, N]⟩ (shapeCast ⟨2, ![1, N]⟩ b h1) h2) (ix2 r e)
      = ∑ k : Fin K, x (ix2 r k) * W (ix2 k e) + b (ix1 e) := by
  show matmul D none x W (constant (F := Ideal) ⟨2, ![M, N]⟩ .f32 0x00000000#32) (ix2 r e)
      + broadcastTo ⟨2, ![M, N]⟩ (shapeCast ⟨2, ![1, N]⟩ b h1) h2 (ix2 r e) = _
  rw [rowBias_apply b h1 h2 r e]
  refine congrArg (· + b (ix1 e)) ?_
  exact (Ideal.matmul_constant_zero_apply D none x W (ix2 r e)).trans
    (Cert.LibDotSum.sum_dot D hr hs hl0 hl1 hr0 hr1 x W r e)

end Cert.LibDenseRow

end
-- ==== Proof.LibRowSpec.lean ====
/-
  Rows of matrices of extended reals, and the operations a dense tower applies to one row.

  `row`, `mat`, `vec` read a matrix's row, a matrix and a vector as plain functions of their coordinates. On rows:
  `dot x W` is the row times the matrix (entry `q` the sum over `k` of `x k · W k q`), `lin x W b` the affine layer
  `x · W + b`, `relu z = max z 0` with the zero spelt as the 32-bit word programs print, `cat a b` two rows of 256
  entries side by side, `hi v` the right half of a row of 512 entries; `hi (cat a b) = b`. All sums are finite sums of
  extended reals and no law of arithmetic is used, so nothing here asks for finiteness.
-/
import Idealize.ShloMosaic.PureOps.Ideal
import Idealize.ShloMosaic.Lib.ValueIdx

noncomputable section

namespace Cert.Spec

open Idealize.ShloMosaic Idealize.ShloMosaic.ValueIdx

/-- Row `p` of a matrix. -/
abbrev row {α : Type} {M K : Nat} (x : (⟨2, ![M, K]⟩ : Shape).Idx → α) (p : Fin M) : Fin K → α := fun k => x (ix2 p k)
/-- A matrix as a function of its two coordinates. -/
abbrev mat {α : Type} {K N : Nat} (W : (⟨2, ![K, N]⟩ : Shape).Idx → α) : Fin K → Fin N → α := fun k q => W (ix2 k q)
/-- A vector as a function of its coordinate. -/
abbrev vec {α : Type} {N : Nat} (b : (⟨1, ![N]⟩ : Shape).Idx → α) : Fin N → α := fun q => b (ix1 q)

/-- A row times a matrix: entry `q` is the sum over `k` of `x k · W k q`. -/
def dot {K N : Nat} (x : Fin K → EReal) (W : Fin K → Fin N → EReal) (q : Fin N) : EReal := ∑ k : Fin K, x k * W k q

/-- An affine layer on a row: `x · W + b`. -/
def lin {K N : Nat} (x : Fin K → EReal) (W : Fin K → Fin N → EReal) (b : Fin N → EReal) (q : Fin N) : EReal :=
  dot x W q + b q

/-- `max z 0`, the zero spelt as the word both programs print. -/
def relu (z : EReal) : EReal := max z (Ideal.ofBits .f32 0x00000000#32)

/-- Two rows of 256 entries side by side. -/
def cat {α : Type} (a b : Fin 256 → α) (j : Fin 512) : α :=
  if h : j.val < 256 then a ⟨j.val, h⟩ else b ⟨j.val - 256, by have := j.isLt; omega⟩

/-- The right half of a row of 512 entries. -/
def hi {α : Type} (v : Fin 512 → α) (q : Fin 256) : α := v ⟨256 + q.val, by have := q.isLt; omega⟩

/-- The right half of two rows side by side is the second row. -/
theorem hi_cat {α : Type} (a b : Fin 256 → α) : hi (cat a b) = b := by
  funext q
  have hq := q.isLt
  unfold hi cat
  rw [dif_neg (by dsimp only; omega)]
  exact congrArg b (Fin.ext (by dsimp only; omega))

end Cert.Spec

end
-- ==== Proof.LibRowOps.lean ====
/-
  The operations of a two-layer tower, read at one entry, in the kernel's spelling and in the host's.

  Every lemma reads one operation of an `M`-row array at `(r, e)` in terms of row `r` alone (`Spec.row`), whatever `M`
  and whatever the float formats of a product's operands (a change of format is the identity on extended reals):
  a product into a zero accumulator and a host contraction are the row times the matrix (`Spec.dot`); either followed
  by a bias repeated over the rows is the affine layer (`Spec.lin`); two arrays of 256 columns joined side by side read
  the left one below column 256 and the right one from there on (`Spec.cat`); the slice from column 256 on reads the
  right half (`Spec.hi`).
-/
import Idealize.ShloMosaic.PureOps.Ideal.Laws
import Idealize.ShloMosaic.Lib.ValueIdx
import Idealize.ShloMosaic.Lib.Pipeline.Value
import proofs.«167602_j51625506897950_2_alg».proof.Proof.LibDotSum
import proofs.«167602_j51625506897950_2_alg».proof.Proof.LibDenseRow
import proofs.«167602_j51625506897950_2_alg».proof.Proof.LibRowSpec

noncomputable section

namespace Cert.LibRowOps

open Idealize.ShloMosaic Idealize.ShloMosaic.ValueIdx Cert.Spec

/-! ## Products -/

/-- A kernel's product of an `M × K` by a `K × N` array into the zero array, at `(r, e)`: row `r` times the matrix. -/
theorem kdot_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : FVec Ideal ⟨2, ![M, K]⟩ φ₁) (W : FVec Ideal ⟨2, ![K, N]⟩ φ₂) (r : Fin M) (e : Fin N) :
    matmul D none x W (constant (F := Ideal) ⟨2, ![M, N]⟩ .f32 0x00000000#32) (ix2 r e)
      = dot (row (α := EReal) x r) (mat (α := EReal) W) e :=
  (Ideal.matmul_constant_zero_apply D none x W (ix2 r e)).trans
    (Cert.LibDotSum.sum_dot D hr hs hl0 hl1 hr0 hr1 x W r e)

/-- The host's contraction of an `M × K` by a `K × N` array, at `(r, e)`: row `r` times the matrix. -/
theorem hdot_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (x : FVec Ideal ⟨2, ![M, K]⟩ φ₁) (W : FVec Ideal ⟨2, ![K, N]⟩ φ₂) (r : Fin M) (e : Fin N) :
    Host.dotGeneral D none x W (ix2 r e) = dot (row (α := EReal) x r) (mat (α := EReal) W) e :=
  (Ideal.dotGeneral_apply D none .single x W (ix2 r e)).trans
    (Cert.LibDotSum.sum_dot D hr hs hl0 hl1 hr0 hr1 x W r e)

/-! ## Affine layers -/

/-- A kernel's `x · W + b`: the product into the zero array plus the bias `[N]` viewed as the row `[1, N]` and repeated
    over the `M` rows, at `(r, e)`. -/
theorem klin_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).ShapeCasts ⟨2, ![1, N]⟩) (h2 : (⟨2, ![1, N]⟩ : Shape).Broadcasts ⟨2, ![M, N]⟩)
    (x : FVec Ideal ⟨2, ![M, K]⟩ φ₁) (W : FVec Ideal ⟨2, ![K, N]⟩ φ₂) (b : FVec Ideal ⟨1, ![N]⟩ .f32)
    (r : Fin M) (e : Fin N) :
    addf (matmul D none x W (constant (F := Ideal) ⟨2, ![M, N]⟩ .f32 0x00000000#32))
        (broadcastTo ⟨2, ![M, N]⟩ (shapeCast ⟨2, ![1, N]⟩ b h1) h2) (ix2 r e)
      = lin (row (α := EReal) x r) (mat (α := EReal) W) (vec (α := EReal) b) e := by
  show matmul D none x W (constant (F := Ideal) ⟨2, ![M, N]⟩ .f32 0x00000000#32) (ix2 r e)
      + broadcastTo ⟨2, ![M, N]⟩ (shapeCast ⟨2, ![1, N]⟩ b h1) h2 (ix2 r e) = _
  rw [Cert.LibDenseRow.rowBias_apply b h1 h2 r e, kdot_apply D hr hs hl0 hl1 hr0 hr1 x W r e]
  rfl

/-- The host's `x · W + b`: the contraction plus the bias `[N]` laid out as `[1, N]` and repeated over the `M` rows, at
    `(r, e)`. -/
theorem hlin_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ φ₁) (W : FVec Ideal ⟨2, ![K, N]⟩ φ₂) (b : FVec Ideal ⟨1, ![N]⟩ .f32)
    (r : Fin M) (e : Fin N) :
    addf (Host.dotGeneral D none x W)
        (broadcastInDim ⟨2, ![M, N]⟩ ![0, 1] h2 (broadcastInDim ⟨2, ![1, N]⟩ ![1] h1 b)) (ix2 r e)
      = lin (row (α := EReal) x r) (mat (α := EReal) W) (vec (α := EReal) b) e := by
  show Host.dotGeneral D none x W (ix2 r e)
      + broadcastInDim ⟨2, ![M, N]⟩ ![0, 1] h2 (broadcastInDim ⟨2, ![1, N]⟩ ![1] h1 b) (ix2 r e) = _
  rw [Cert.LibDotSum.bias_apply b h1 h2 r e, hdot_apply D hr hs hl0 hl1 hr0 hr1 x W r e]
  rfl

/-! ## Two arrays of 256 columns side by side, and the right half -/

/-- Two `M × 256` arrays joined along the columns, at `(p, j)`: the two rows side by side. -/
theorem cat_apply {α : Type} {M : Nat} (a b : (⟨2, ![M, 256]⟩ : Shape).Idx → α)
    (h : Shape.Concatenates [(⟨2, ![M, 256]⟩ : Shape), ⟨2, ![M, 256]⟩] ⟨2, ![M, 512]⟩ 1) (p : Fin M) (j : Fin 512) :
    concatenate ⟨2, ![M, 512]⟩ 1 [⟨⟨2, ![M, 256]⟩, a⟩, ⟨⟨2, ![M, 256]⟩, b⟩] h (ix2 p j) = cat (row a p) (row b p) j := by
  have hj := j.isLt
  unfold cat
  by_cases hlt : j.val < 256
  · rw [dif_pos hlt]
    refine concatenate_pair_apply_left 1 a b h (ix2 p j) rfl (ix2 p ⟨j.val, hlt⟩) fun c => ?_
    match c with
    | ⟨0, _⟩ => rfl
    | ⟨1, _⟩ => rfl
  · rw [dif_neg hlt]
    refine concatenate_pair_apply_right 1 a b h (ix2 p j) rfl rfl (ix2 p ⟨j.val - 256, by omega⟩) (fun c hc => ?_) ?_
    · match c with
      | ⟨0, _⟩ => rfl
      | ⟨1, _⟩ => exact absurd rfl hc
    · show (j.val - 256) + 256 = j.val
      omega

/-- The slice of an `M × 512` array from column 256 on, at `(p, q)`: the right half of row `p`. -/
theorem hi_apply {α : Type} {M : Nat} (v : (⟨2, ![M, 512]⟩ : Shape).Idx → α)
    (h : (⟨2, ![M, 512]⟩ : Shape).Slices ![0, 256] ⟨2, ![M, 256]⟩) (p : Fin M) (q : Fin 256) :
    extractStridedSlice ⟨2, ![M, 256]⟩ ![0, 256] v h (ix2 p q) = hi (row v p) q := by
  have hq := q.isLt
  refine extractStridedSlice_apply ![0, 256] v h (ix2 p q) (ix2 p ⟨256 + q.val, by omega⟩) fun c => ?_
  match c with
  | ⟨0, _⟩ => show p.val = 0 + p.val; omega
  | ⟨1, _⟩ => rfl

end Cert.LibRowOps

end
-- ==== Proof.KernelRows.lean ====
/-
  The kernel body's arithmetic, read at one entry of a block.

  Each value the body stores, and each value it carries from one stage to the next, is read here at row `p` of the
  1024-row block in terms of that row alone: the casts between float formats and the casts of a shape to itself are
  the identity, a product into a zero accumulator plus a repeated bias is the affine layer of the row, the
  concatenation and the slice at column 256 are `Spec.cat` and `Spec.hi` of rows. The two towers use different
  payload terms of the same form, so each lemma appears once per tower.
-/
import proofs.«167602_j51625506897950_2_alg».proof.Proof.Gen.KernelIdeal.Skeleton
import proofs.«167602_j51625506897950_2_alg».proof.Proof.LibRowOps

noncomputable section

namespace Cert.KernelRows

open Idealize.ShloMosaic Idealize.ShloMosaic.ValueIdx Cert.Spec Cert.LibRowOps Cert.KernelIdeal Cert.KernelIdeal.Gen

/-! ## The source tower -/

/-- The features are stored as loaded. -/
theorem pay1_eq (x : Vec Ideal S1024x256 .f32) : k0_pay1 (F := Ideal) x = x := by
  unfold k0_pay1; exact shapeCast_self _ _

/-- The item features pass through as loaded. -/
theorem pay2_eq (x : Vec Ideal S1024x256 .f32) : k0_pay2 (F := Ideal) x = x := by
  unfold k0_pay2; exact shapeCast_self _ _

/-- The user embedding of the block's row `p`. -/
theorem pay4_apply (x0 : Vec Ideal S1024x256 .f32) (W : Vec Ideal S256x256 .bf16) (b : Vec Ideal S256 .f32)
    (p : Fin 1024) (q : Fin 256) :
    k0_pay4 (F := Ideal) x0 W b (ix2 p q) = relu (lin (row (α := EReal) x0 p) (mat (α := EReal) W) (vec (α := EReal) b) q) := by
  unfold k0_pay4 k0_pay3 k0_pay1
  simp only [shapeCast_self]
  exact congrArg (max · (Ideal.ofBits .f32 0x00000000#32))
    (klin_apply dot_S1024x256_S256x256_S1024x256_1_0_0_1_n_n rfl rfl (fun _ _ => rfl) (fun _ _ => rfl) (fun _ _ => rfl) (fun _ _ => rfl)
      shapeCasts_S256_S1x256 broadcasts_S1x256_S1024x256 (truncf (F := Ideal) .bf16 x0 bitsLt_bf16_f32) W b p q)

/-- The shared embedding of the block's row `p`. -/
theorem pay5_apply (x0 : Vec Ideal S1024x256 .f32) (W : Vec Ideal S256x256 .bf16) (b : Vec Ideal S256 .f32)
    (p : Fin 1024) (q : Fin 256) :
    k0_pay5 (F := Ideal) x0 W b (ix2 p q) = relu (lin (row (α := EReal) x0 p) (mat (α := EReal) W) (vec (α := EReal) b) q) := by
  unfold k0_pay5 k0_pay3 k0_pay1
  simp only [shapeCast_self]
  exact congrArg (max · (Ideal.ofBits .f32 0x00000000#32))
    (klin_apply dot_S1024x256_S256x256_S1024x256_1_0_0_1_n_n rfl rfl (fun _ _ => rfl) (fun _ _ => rfl) (fun _ _ => rfl) (fun _ _ => rfl)
      shapeCasts_S256_S1x256 broadcasts_S1x256_S1024x256 (truncf (F := Ideal) .bf16 x0 bitsLt_bf16_f32) W b p q)

/-- The right half of the row read back from the joined buffer. -/
theorem pay7_apply (v : Vec Ideal S1024x512 .f32) (p : Fin 1024) (q : Fin 256) :
    k0_pay7 (F := Ideal) v (ix2 p q) = hi (row (α := EReal) v p) q := by
  unfold k0_pay7 k0_pay6
  simp only [shapeCast_self]
  exact hi_apply (truncf (F := Ideal) .bf16 v bitsLt_bf16_f32) slices_S1024x512_o0_256_S1024x256 p q

/-- The joined row times the adjacency matrix. -/
theorem pay8_apply (v : Vec Ideal S1024x512 .f32) (A : Vec Ideal S512x512 .bf16) (p : Fin 1024) (j : Fin 512) :
    k0_pay8 (F := Ideal) v A (ix2 p j) = dot (row (α := EReal) v p) (mat (α := EReal) A) j := by
  unfold k0_pay8 k0_pay6
  simp only [shapeCast_self]
  exact kdot_apply dot_S1024x512_S512x512_S1024x512_1_0_0_1_n_n rfl rfl (fun _ _ => rfl) (fun _ _ => rfl) (fun _ _ => rfl) (fun _ _ => rfl) (truncf (F := Ideal) .bf16 v bitsLt_bf16_f32) A p j

/-- The prediction of row `p` from the item features `v3`, the embedding `v13` and the causal block `v31`. -/
theorem pay9_apply (v3 v13 : FVec Ideal S1024x256 .f32) (v31 : FVec Ideal S1024x512 .f32)
    (trW : Vec Ideal S512x256 .bf16) (trb : Vec Ideal S256 .f32) (prW : Vec Ideal S256x2 .bf16) (prb : Vec Ideal S2 .f32)
    (p : Fin 1024) (e : Fin 2) :
    k0_pay9 (F := Ideal) v3 v13 v31 trW trb prW prb (ix2 p e)
      = lin (fun k => lin (cat (row (α := EReal) v13 p) (hi (row (α := EReal) v31 p))) (mat (α := EReal) trW) (vec (α := EReal) trb) k * v3 (ix2 p k))
          (mat (α := EReal) prW) (vec (α := EReal) prb) e := by
  unfold k0_pay9
  simp only [shapeCast_self]
  refine (klin_apply dot_S1024x256_S256x2_S1024x2_1_0_0_1_n_n rfl rfl (fun _ _ => rfl) (fun _ _ => rfl) (fun _ _ => rfl) (fun _ _ => rfl)
      shapeCasts_S2_S1x2 broadcasts_S1x2_S1024x2 _ prW prb p e).trans ?_
  refine congrArg (fun f => lin f (mat (α := EReal) prW) (vec (α := EReal) prb) e) (funext fun k => ?_)
  refine congrArg (· * v3 (ix2 p k)) ?_
  refine (klin_apply dot_S1024x512_S512x256_S1024x256_1_0_0_1_n_n rfl rfl (fun _ _ => rfl) (fun _ _ => rfl) (fun _ _ => rfl) (fun _ _ => rfl)
      shapeCasts_S256_S1x256 broadcasts_S1x256_S1024x256 _ trW trb p k).trans ?_
  refine congrArg (fun f => lin f (mat (α := EReal) trW) (vec (α := EReal) trb) k) (funext fun j => ?_)
  refine (cat_apply v13 _ concatenates_S1024x256_S1024x256_S1024x512_d1 p j).trans ?_
  refine congrArg (fun f => cat (row (α := EReal) v13 p) f j) (funext fun q => ?_)
  exact hi_apply v31 slices_S1024x512_o0_256_S1024x256 p q

/-- The domain classifier of row `p` from the shared embedding `v28`. -/
theorem pay10_apply (v28 : FVec Ideal S1024x256 .bf16) (c1W : Vec Ideal S256x128 .bf16) (c1b : Vec Ideal S128 .f32)
    (c2W : Vec Ideal S128x2 .bf16) (c2b : Vec Ideal S2 .f32) (p : Fin 1024) (e : Fin 2) :
    k0_pay10 (F := Ideal) v28 c1W c1b c2W c2b (ix2 p e)
      = lin (fun k => Ideal.logistic (lin (row (α := EReal) v28 p) (mat (α := EReal) c1W) (vec (α := EReal) c1b) k)) (mat (α := EReal) c2W) (vec (α := EReal) c2b) e := by
  unfold k0_pay10
  simp only [shapeCast_self]
  refine (klin_apply dot_S1024x128_S128x2_S1024x2_1_0_0_1_n_n rfl rfl (fun _ _ => rfl) (fun _ _ => rfl) (fun _ _ => rfl) (fun _ _ => rfl)
      shapeCasts_S2_S1x2 broadcasts_S1x2_S1024x2 _ c2W c2b p e).trans ?_
  refine congrArg (fun f => lin f (mat (α := EReal) c2W) (vec (α := EReal) c2b) e) (funext fun k => ?_)
  exact congrArg Ideal.logistic (klin_apply dot_S1024x256_S256x128_S1024x128_1_0_0_1_n_n rfl rfl (fun _ _ => rfl) (fun _ _ => rfl) (fun _ _ => rfl) (fun _ _ => rfl)
      shapeCasts_S128_S1x128 broadcasts_S1x128_S1024x128 v28 c1W c1b p k)

/-! ## The target tower -/

/-- The features are stored as loaded. -/
theorem pay11_eq (x : Vec Ideal S1024x256 .f32) : k0_pay11 (F := Ideal) x = x := by
  unfold k0_pay11; exact shapeCast_self _ _

/-- The item features pass through as loaded. -/
theorem pay12_eq (x : Vec Ideal S1024x256 .f32) : k0_pay12 (F := Ideal) x = x := by
  unfold k0_pay12; exact shapeCast_self _ _

/-- The user embedding of the block's row `p`. -/
theorem pay14_apply (x0 : Vec Ideal S1024x256 .f32) (W : Vec Ideal S256x256 .bf16) (b : Vec Ideal S256 .f32)
    (p : Fin 1024) (q : Fin 256) :
    k0_pay14 (F := Ideal) x0 W b (ix2 p q) = relu (lin (row (α := EReal) x0 p) (mat (α := EReal) W) (vec (α := EReal) b) q) := by
  unfold k0_pay14 k0_pay13 k0_pay11
  simp only [shapeCast_self]
  exact congrArg (max · (Ideal.ofBits .f32 0x00000000#32))
    (klin_apply dot_S1024x256_S256x256_S1024x256_1_0_0_1_n_n rfl rfl (fun _ _ => rfl) (fun _ _ => rfl) (fun _ _ => rfl) (fun _ _ => rfl)
      shapeCasts_S256_S1x256 broadcasts_S1x256_S1024x256 (truncf (F := Ideal) .bf16 x0 bitsLt_bf16_f32) W b p q)

/-- The shared embedding of the block's row `p`. -/
theorem pay15_apply (x0 : Vec Ideal S1024x256 .f32) (W : Vec Ideal S256x256 .bf16) (b : Vec Ideal S256 .f32)
    (p : Fin 1024) (q : Fin 256) :
    k0_pay15 (F := Ideal) x0 W b (ix2 p q) = relu (lin (row (α := EReal) x0 p) (mat (α := EReal) W) (vec (α := EReal) b) q) := by
  unfold k0_pay15 k0_pay13 k0_pay11
  simp only [shapeCast_self]
  exact congrArg (max · (Ideal.ofBits .f32 0x00000000#32))
    (klin_apply dot_S1024x256_S256x256_S1024x256_1_0_0_1_n_n rfl rfl (fun _ _ => rfl) (fun _ _ => rfl) (fun _ _ => rfl) (fun _ _ => rfl)
      shapeCasts_S256_S1x256 broadcasts_S1x256_S1024x256 (truncf (F := Ideal) .bf16 x0 bitsLt_bf16_f32) W b p q)

/-- The right half of the row read back from the joined buffer. -/
theorem pay17_apply (v : Vec Ideal S1024x512 .f32) (p : Fin 1024) (q : Fin 256) :
    k0_pay17 (F := Ideal) v (ix2 p q) = hi (row (α := EReal) v p) q := by
  unfold k0_pay17 k0_pay16
  simp only [shapeCast_self]
  exact hi_apply (truncf (F := Ideal) .bf16 v bitsLt_bf16_f32) slices_S1024x512_o0_256_S1024x256 p q

/-- The joined row times the adjacency matrix. -/
theorem pay18_apply (v : Vec Ideal S1024x512 .f32) (A : Vec Ideal S512x512 .bf16) (p : Fin 1024) (j : Fin 512) :
    k0_pay18 (F := Ideal) v A (ix2 p j) = dot (row (α := EReal) v p) (mat (α := EReal) A) j := by
  unfold k0_pay18 k0_pay16
  simp only [shapeCast_self]
  exact kdot_apply dot_S1024x512_S512x512_S1024x512_1_0_0_1_n_n rfl rfl (fun _ _ => rfl) (fun _ _ => rfl) (fun _ _ => rfl) (fun _ _ => rfl) (truncf (F := Ideal) .bf16 v bitsLt_bf16_f32) A p j

/-- The prediction of row `p` from the item features `v3`, the embedding `v13` and the causal block `v31`. -/
theorem pay19_apply (v3 v13 : FVec Ideal S1024x256 .f32) (v31 : FVec Ideal S1024x512 .f32)
    (trW : Vec Ideal S512x256 .bf16) (trb : Vec Ideal S256 .f32) (prW : Vec Ideal S256x2 .bf16) (prb : Vec Ideal S2 .f32)
    (p : Fin 1024) (e : Fin 2) :
    k0_pay19 (F := Ideal) v3 v13 v31 trW trb prW prb (ix2 p e)
      = lin (fun k => lin (cat (row (α := EReal) v13 p) (hi (row (α := EReal) v31 p))) (mat (α := EReal) trW) (vec (α := EReal) trb) k * v3 (ix2 p k))
          (mat (α := EReal) prW) (vec (α := EReal) prb) e := by
  unfold k0_pay19
  simp only [shapeCast_self]
  refine (klin_apply dot_S1024x256_S256x2_S1024x2_1_0_0_1_n_n rfl rfl (fun _ _ => rfl) (fun _ _ => rfl) (fun _ _ => rfl) (fun _ _ => rfl)
      shapeCasts_S2_S1x2 broadcasts_S1x2_S1024x2 _ prW prb p e).trans ?_
  refine congrArg (fun f => lin f (mat (α := EReal) prW) (vec (α := EReal) prb) e) (funext fun k => ?_)
  refine congrArg (· * v3 (ix2 p k)) ?_
  refine (klin_apply dot_S1024x512_S512x256_S1024x256_1_0_0_1_n_n rfl rfl (fun _ _ => rfl) (fun _ _ => rfl) (fun _ _ => rfl) (fun _ _ => rfl)
      shapeCasts_S256_S1x256 broadcasts_S1x256_S1024x256 _ trW trb p k).trans ?_
  refine congrArg (fun f => lin f (mat (α := EReal) trW) (vec (α := EReal) trb) k) (funext fun j => ?_)
  refine (cat_apply v13 _ concatenates_S1024x256_S1024x256_S1024x512_d1 p j).trans ?_
  refine congrArg (fun f => cat (row (α := EReal) v13 p) f j) (funext fun q => ?_)
  exact hi_apply v31 slices_S1024x512_o0_256_S1024x256 p q

/-- The domain classifier of row `p` from the shared embedding `v28`. -/
theorem pay20_apply (v28 : FVec Ideal S1024x256 .bf16) (c1W : Vec Ideal S256x128 .bf16) (c1b : Vec Ideal S128 .f32)
    (c2W : Vec Ideal S128x2 .bf16) (c2b : Vec Ideal S2 .f32) (p : Fin 1024) (e : Fin 2) :
    k0_pay20 (F := Ideal) v28 c1W c1b c2W c2b (ix2 p e)
      = lin (fun k => Ideal.logistic (lin (row (α := EReal) v28 p) (mat (α := EReal) c1W) (vec (α := EReal) c1b) k)) (mat (α := EReal) c2W) (vec (α := EReal) c2b) e := by
  unfold k0_pay20
  simp only [shapeCast_self]
  refine (klin_apply dot_S1024x128_S128x2_S1024x2_1_0_0_1_n_n rfl rfl (fun _ _ => rfl) (fun _ _ => rfl) (fun _ _ => rfl) (fun _ _ => rfl)
      shapeCasts_S2_S1x2 broadcasts_S1x2_S1024x2 _ c2W c2b p e).trans ?_
  refine congrArg (fun f => lin f (mat (α := EReal) c2W) (vec (α := EReal) c2b) e) (funext fun k => ?_)
  exact congrArg Ideal.logistic (klin_apply dot_S1024x256_S256x128_S1024x128_1_0_0_1_n_n rfl rfl (fun _ _ => rfl) (fun _ _ => rfl) (fun _ _ => rfl) (fun _ _ => rfl)
      shapeCasts_S128_S1x128 broadcasts_S1x128_S1024x128 v28 c1W c1b p k)

end Cert.KernelRows

end
-- ==== Proof.Spec.lean ====
/-
  The two towers of one batch row, as functions of that row alone.

  Every result of the model is computed row by row: row `r` of each output depends on row `r` of the gathered user
  features `a` and item features `it` and on the weights, never on another row. For one row:

    emb   = relu (a · eW + eb)                      cemb  = relu (a · ecW + ecb)
    inp   = [a | cemb]                              causal = inp · adj
    user  = [emb | causal(256‥512)] · trW + trb     pred  = (user ⊙ it) · prW + prb
    cls   = σ (cemb · c1W + c1b) · c2W + c2b

  with `relu z = max z 0`, `σ` the logistic function, `[u | v]` two rows of 256 entries side by side and `⊙` the
  entrywise product.
-/
import proofs.«167602_j51625506897950_2_alg».proof.Proof.LibRowSpec

noncomputable section

namespace Cert.Spec

open Idealize.ShloMosaic Idealize.ShloMosaic.ValueIdx

/-- The weights one tower uses, as plain functions of their coordinates. -/
structure Weights where
  eW : Fin 256 → Fin 256 → EReal
  eb : Fin 256 → EReal
  ecW : Fin 256 → Fin 256 → EReal
  ecb : Fin 256 → EReal
  adj : Fin 512 → Fin 512 → EReal
  trW : Fin 512 → Fin 256 → EReal
  trb : Fin 256 → EReal
  prW : Fin 256 → Fin 2 → EReal
  prb : Fin 2 → EReal
  c1W : Fin 256 → Fin 128 → EReal
  c1b : Fin 128 → EReal
  c2W : Fin 128 → Fin 2 → EReal
  c2b : Fin 2 → EReal

variable (w : Weights)

/-- The user embedding of a row of features. -/
def emb (a : Fin 256 → EReal) : Fin 256 → EReal := fun q => relu (lin a w.eW w.eb q)
/-- The shared (causal) embedding of a row of features. -/
def cemb (a : Fin 256 → EReal) : Fin 256 → EReal := fun q => relu (lin a w.ecW w.ecb q)
/-- The features beside their shared embedding: the row the adjacency matrix multiplies. -/
def inp (a : Fin 256 → EReal) : Fin 512 → EReal := cat a (cemb w a)
/-- That row times the thresholded adjacency matrix. -/
def causal (a : Fin 256 → EReal) : Fin 512 → EReal := dot (inp w a) w.adj
/-- The user representation: the embedding beside the right half of the causal row, through the transfer layer. -/
def user (a : Fin 256 → EReal) : Fin 256 → EReal := lin (cat (emb w a) (hi (causal w a))) w.trW w.trb
/-- The prediction for a user row `a` and an item row `it`. -/
def pred (a it : Fin 256 → EReal) : Fin 2 → EReal := lin (fun k => user w a k * it k) w.prW w.prb
/-- The domain classifier on the shared embedding. -/
def cls (a : Fin 256 → EReal) : Fin 2 → EReal :=
  lin (fun k => Ideal.logistic (lin (cemb w a) w.c1W w.c1b k)) w.c2W w.c2b

end Cert.Spec

end
-- ==== Proof.Model.lean ====
/-
  Each output array as one function of the gathered features and the weights.

  Row `r` of every output is the corresponding row function of `Spec` applied to row `r` of the gathered user
  features (and, for the prediction, of the gathered item features). The weights enter as the arrays the programs are
  given; `weights` packs them as functions of their coordinates.
-/
import proofs.«167602_j51625506897950_2_alg».proof.Proof.Spec

noncomputable section

namespace Cert.Model

open Idealize.ShloMosaic Idealize.ShloMosaic.ValueIdx Cert.Spec

/-- A matrix of extended reals. -/
abbrev Mat (m n : Nat) := (⟨2, ![m, n]⟩ : Shape).Idx → EReal
/-- A vector of extended reals. -/
abbrev Vc (n : Nat) := (⟨1, ![n]⟩ : Shape).Idx → EReal

/-- One tower's weights, from the arrays. -/
def weights (eW : Mat 256 256) (eb : Vc 256) (ecW : Mat 256 256) (ecb : Vc 256) (adj : Mat 512 512)
    (trW : Mat 512 256) (trb : Vc 256) (prW : Mat 256 2) (prb : Vc 2)
    (c1W : Mat 256 128) (c1b : Vc 128) (c2W : Mat 128 2) (c2b : Vc 2) : Weights :=
  ⟨mat eW, vec eb, mat ecW, vec ecb, mat adj, mat trW, vec trb, mat prW, vec prb, mat c1W, vec c1b, mat c2W, vec c2b⟩

/-- The predictions: row `r` from rows `r` of the user and item features. -/
def predArr (w : Weights) (attr item : Mat 65536 256) : Mat 65536 2 :=
  fun i => pred w (row attr (i 0)) (row item (i 0)) (i 1)
/-- The domain classifier's outputs. -/
def clsArr (w : Weights) (attr : Mat 65536 256) : Mat 65536 2 := fun i => cls w (row attr (i 0)) (i 1)
/-- The features beside their shared embedding. -/
def inpArr (w : Weights) (attr : Mat 65536 256) : Mat 65536 512 := fun i => inp w (row attr (i 0)) (i 1)
/-- That array times the thresholded adjacency matrix. -/
def causalArr (w : Weights) (attr : Mat 65536 256) : Mat 65536 512 := fun i => causal w (row attr (i 0)) (i 1)

end Cert.Model

end
-- ==== Proof.KernelTower.lean ====
/-
  One block through the kernel body, tower by tower.

  The body's stores, composed: from the block of user features `x0`, the block of item features `x1` and the weights,
  row `p` of each of the four blocks a tower writes is the row function of `Spec` at row `p` of `x0` (and of `x1`). The
  joined output buffer is written in two halves and read back whole; its right half, read back for the classifier,
  is the shared embedding again.
-/
import proofs.«167602_j51625506897950_2_alg».proof.Proof.KernelRows
import proofs.«167602_j51625506897950_2_alg».proof.Proof.Model

noncomputable section

namespace Cert.KernelTower

open Idealize.ShloMosaic Idealize.ShloMosaic.ValueIdx Cert.Spec Cert.Model Cert.KernelRows Cert.KernelIdeal Cert.KernelIdeal.Gen

/-- Two blocks of 256 columns side by side: what the joined output buffer holds after its two stores. -/
def joined (a b : S1024x256.Idx → EReal) : S1024x512.Idx → EReal :=
  fun i => cat (row (α := EReal) a (i 0)) (row (α := EReal) b (i 0)) (i 1)

variable (x0 x1 : Vec Ideal S1024x256 .f32)
  (eW : Vec Ideal S256x256 .bf16) (eb : Vec Ideal S256 .f32) (ecW : Vec Ideal S256x256 .bf16) (ecb : Vec Ideal S256 .f32)
  (adj : Vec Ideal S512x512 .bf16) (trW : Vec Ideal S512x256 .bf16) (trb : Vec Ideal S256 .f32)
  (prW : Vec Ideal S256x2 .bf16) (prb : Vec Ideal S2 .f32)
  (c1W : Vec Ideal S256x128 .bf16) (c1b : Vec Ideal S128 .f32) (c2W : Vec Ideal S128x2 .bf16) (c2b : Vec Ideal S2 .f32)

/-! ## The source tower on a block -/

/-- The joined buffer: the features beside their shared embedding. -/
theorem inp_s (p : Fin 1024) (j : Fin 512) : (joined (k0_pay1 (F := Ideal) x0) (k0_pay5 (F := Ideal) x0 ecW ecb)) (ix2 p j) = inp (weights eW eb ecW ecb adj trW trb prW prb c1W c1b c2W c2b) (row (α := EReal) x0 p) j := by
  show cat (row (α := EReal) (k0_pay1 (F := Ideal) x0) p) (row (α := EReal) (k0_pay5 (F := Ideal) x0 ecW ecb) p) j = _
  rw [pay1_eq]
  exact congrArg (fun f => cat (row (α := EReal) x0 p) f j) (funext fun q => pay5_apply x0 ecW ecb p q)

/-- The causal block. -/
theorem causal_s (p : Fin 1024) (j : Fin 512) :
    k0_pay8 (F := Ideal) (joined (k0_pay1 (F := Ideal) x0) (k0_pay5 (F := Ideal) x0 ecW ecb)) adj (ix2 p j) = causal (weights eW eb ecW ecb adj trW trb prW prb c1W c1b c2W c2b) (row (α := EReal) x0 p) j :=
  (pay8_apply (joined (k0_pay1 (F := Ideal) x0) (k0_pay5 (F := Ideal) x0 ecW ecb)) adj p j).trans
    (congrArg (fun f => dot f (mat (α := EReal) adj) j) (funext fun k => inp_s x0 eW eb ecW ecb adj trW trb prW prb c1W c1b c2W c2b p k))

/-- The prediction block. -/
theorem pred_s (p : Fin 1024) (e : Fin 2) :
    k0_pay9 (F := Ideal) (k0_pay2 (F := Ideal) x1) (k0_pay4 (F := Ideal) x0 eW eb) (k0_pay8 (F := Ideal) (joined (k0_pay1 (F := Ideal) x0) (k0_pay5 (F := Ideal) x0 ecW ecb)) adj) trW trb prW prb (ix2 p e)
      = pred (weights eW eb ecW ecb adj trW trb prW prb c1W c1b c2W c2b) (row (α := EReal) x0 p) (row (α := EReal) x1 p) e := by
  refine (pay9_apply _ _ _ trW trb prW prb p e).trans ?_
  refine congrArg (fun f => lin f (mat (α := EReal) prW) (vec (α := EReal) prb) e) (funext fun k => ?_)
  rw [pay2_eq]
  refine congrArg (· * x1 (ix2 p k)) ?_
  refine congrArg (fun f => lin f (mat (α := EReal) trW) (vec (α := EReal) trb) k) (funext fun j => ?_)
  exact congrArg₂ (fun f g => cat f g j) (funext fun q => pay4_apply x0 eW eb p q)
    (funext fun q => congrArg (fun f => hi f q)
      (funext fun j' => causal_s x0 eW eb ecW ecb adj trW trb prW prb c1W c1b c2W c2b p j'))

/-- The classifier block: the right half of the joined buffer is the shared embedding. -/
theorem cls_s (p : Fin 1024) (e : Fin 2) :
    k0_pay10 (F := Ideal) (k0_pay7 (F := Ideal) (joined (k0_pay1 (F := Ideal) x0) (k0_pay5 (F := Ideal) x0 ecW ecb))) c1W c1b c2W c2b (ix2 p e) = cls (weights eW eb ecW ecb adj trW trb prW prb c1W c1b c2W c2b) (row (α := EReal) x0 p) e := by
  refine (pay10_apply _ c1W c1b c2W c2b p e).trans ?_
  refine congrArg (fun f => lin f (mat (α := EReal) c2W) (vec (α := EReal) c2b) e) (funext fun k => ?_)
  refine congrArg (fun f => Ideal.logistic (lin f (mat (α := EReal) c1W) (vec (α := EReal) c1b) k)) (funext fun q => ?_)
  refine (pay7_apply (joined (k0_pay1 (F := Ideal) x0) (k0_pay5 (F := Ideal) x0 ecW ecb)) p q).trans ?_
  refine (congrArg (fun f => hi f q)
    (funext fun j => inp_s x0 eW eb ecW ecb adj trW trb prW prb c1W c1b c2W c2b p j)).trans ?_
  exact congrFun (hi_cat _ _) q

/-! ## The target tower on a block -/

/-- The joined buffer: the features beside their shared embedding. -/
theorem inp_t (p : Fin 1024) (j : Fin 512) : (joined (k0_pay11 (F := Ideal) x0) (k0_pay15 (F := Ideal) x0 ecW ecb)) (ix2 p j) = inp (weights eW eb ecW ecb adj trW trb prW prb c1W c1b c2W c2b) (row (α := EReal) x0 p) j := by
  show cat (row (α := EReal) (k0_pay11 (F := Ideal) x0) p) (row (α := EReal) (k0_pay15 (F := Ideal) x0 ecW ecb) p) j = _
  rw [pay11_eq]
  exact congrArg (fun f => cat (row (α := EReal) x0 p) f j) (funext fun q => pay15_apply x0 ecW ecb p q)

/-- The causal block. -/
theorem causal_t (p : Fin 1024) (j : Fin 512) :
    k0_pay18 (F := Ideal) (joined (k0_pay11 (F := Ideal) x0) (k0_pay15 (F := Ideal) x0 ecW ecb)) adj (ix2 p j) = causal (weights eW eb ecW ecb adj trW trb prW prb c1W c1b c2W c2b) (row (α := EReal) x0 p) j :=
  (pay18_apply (joined (k0_pay11 (F := Ideal) x0) (k0_pay15 (F := Ideal) x0 ecW ecb)) adj p j).trans
    (congrArg (fun f => dot f (mat (α := EReal) adj) j) (funext fun k => inp_t x0 eW eb ecW ecb adj trW trb prW prb c1W c1b c2W c2b p k))

/-- The prediction block. -/
theorem pred_t (p : Fin 1024) (e : Fin 2) :
    k0_pay19 (F := Ideal) (k0_pay12 (F := Ideal) x1) (k0_pay14 (F := Ideal) x0 eW eb) (k0_pay18 (F := Ideal) (joined (k0_pay11 (F := Ideal) x0) (k0_pay15 (F := Ideal) x0 ecW ecb)) adj) trW trb prW prb (ix2 p e)
      = pred (weights eW eb ecW ecb adj trW trb prW prb c1W c1b c2W c2b) (row (α := EReal) x0 p) (row (α := EReal) x1 p) e := by
  refine (pay19_apply _ _ _ trW trb prW prb p e).trans ?_
  refine congrArg (fun f => lin f (mat (α := EReal) prW) (vec (α := EReal) prb) e) (funext fun k => ?_)
  rw [pay12_eq]
  refine congrArg (· * x1 (ix2 p k)) ?_
  refine congrArg (fun f => lin f (mat (α := EReal) trW) (vec (α := EReal) trb) k) (funext fun j => ?_)
  exact congrArg₂ (fun f g => cat f g j) (funext fun q => pay14_apply x0 eW eb p q)
    (funext fun q => congrArg (fun f => hi f q)
      (funext fun j' => causal_t x0 eW eb ecW ecb adj trW trb prW prb c1W c1b c2W c2b p j'))

/-- The classifier block: the right half of the joined buffer is the shared embedding. -/
theorem cls_t (p : Fin 1024) (e : Fin 2) :
    k0_pay20 (F := Ideal) (k0_pay17 (F := Ideal) (joined (k0_pay11 (F := Ideal) x0) (k0_pay15 (F := Ideal) x0 ecW ecb))) c1W c1b c2W c2b (ix2 p e) = cls (weights eW eb ecW ecb adj trW trb prW prb c1W c1b c2W c2b) (row (α := EReal) x0 p) e := by
  refine (pay20_apply _ c1W c1b c2W c2b p e).trans ?_
  refine congrArg (fun f => lin f (mat (α := EReal) c2W) (vec (α := EReal) c2b) e) (funext fun k => ?_)
  refine congrArg (fun f => Ideal.logistic (lin f (mat (α := EReal) c1W) (vec (α := EReal) c1b) k)) (funext fun q => ?_)
  refine (pay17_apply (joined (k0_pay11 (F := Ideal) x0) (k0_pay15 (F := Ideal) x0 ecW ecb)) p q).trans ?_
  refine (congrArg (fun f => hi f q)
    (funext fun j => inp_t x0 eW eb ecW ecb adj trW trb prW prb c1W c1b c2W c2b p j)).trans ?_
  exact congrFun (hi_cat _ _) q

end Cert.KernelTower

end
-- ==== Proof.KernelArrays.lean ====
/-
  A block's rows as rows of the whole arrays.

  If row `p` of the block of user features is row `r` of the array of user features (and likewise for the items),
  then row `p` of each block the body writes is row `r` of the corresponding array of `Model`.
-/
import proofs.«167602_j51625506897950_2_alg».proof.Proof.KernelTower

noncomputable section

namespace Cert.KernelArrays

open Idealize.ShloMosaic Idealize.ShloMosaic.ValueIdx Cert.Spec Cert.Model Cert.KernelTower Cert.KernelIdeal Cert.KernelIdeal.Gen

variable (x0 x1 : Vec Ideal S1024x256 .f32)
  (eW : Vec Ideal S256x256 .bf16) (eb : Vec Ideal S256 .f32) (ecW : Vec Ideal S256x256 .bf16) (ecb : Vec Ideal S256 .f32)
  (adj : Vec Ideal S512x512 .bf16) (trW : Vec Ideal S512x256 .bf16) (trb : Vec Ideal S256 .f32)
  (prW : Vec Ideal S256x2 .bf16) (prb : Vec Ideal S2 .f32)
  (c1W : Vec Ideal S256x128 .bf16) (c1b : Vec Ideal S128 .f32) (c2W : Vec Ideal S128x2 .bf16) (c2b : Vec Ideal S2 .f32)
  (attr item : Mat 65536 256) (r : Fin 65536) (p : Fin 1024)

/-! ## The source tower -/

theorem inp_s (h0 : ∀ k, x0 (ix2 p k) = attr (ix2 r k)) (j : Fin 512) :
    (joined (k0_pay1 (F := Ideal) x0) (k0_pay5 (F := Ideal) x0 ecW ecb)) (ix2 p j) = inpArr (weights eW eb ecW ecb adj trW trb prW prb c1W c1b c2W c2b) attr (ix2 r j) :=
  (Cert.KernelTower.inp_s x0 eW eb ecW ecb adj trW trb prW prb c1W c1b c2W c2b p j).trans (congrArg (fun f => inp (weights eW eb ecW ecb adj trW trb prW prb c1W c1b c2W c2b) f j) (funext h0))

theorem causal_s (h0 : ∀ k, x0 (ix2 p k) = attr (ix2 r k)) (j : Fin 512) :
    k0_pay8 (F := Ideal) (joined (k0_pay1 (F := Ideal) x0) (k0_pay5 (F := Ideal) x0 ecW ecb)) adj (ix2 p j) = causalArr (weights eW eb ecW ecb adj trW trb prW prb c1W c1b c2W c2b) attr (ix2 r j) :=
  (Cert.KernelTower.causal_s x0 eW eb ecW ecb adj trW trb prW prb c1W c1b c2W c2b p j).trans (congrArg (fun f => causal (weights eW eb ecW ecb adj trW trb prW prb c1W c1b c2W c2b) f j) (funext h0))

theorem pred_s (h0 : ∀ k, x0 (ix2 p k) = attr (ix2 r k)) (h1 : ∀ k, x1 (ix2 p k) = item (ix2 r k)) (e : Fin 2) :
    k0_pay9 (F := Ideal) (k0_pay2 (F := Ideal) x1) (k0_pay4 (F := Ideal) x0 eW eb) (k0_pay8 (F := Ideal) (joined (k0_pay1 (F := Ideal) x0) (k0_pay5 (F := Ideal) x0 ecW ecb)) adj) trW trb prW prb (ix2 p e)
      = predArr (weights eW eb ecW ecb adj trW trb prW prb c1W c1b c2W c2b) attr item (ix2 r e) :=
  (Cert.KernelTower.pred_s x0 x1 eW eb ecW ecb adj trW trb prW prb c1W c1b c2W c2b p e).trans
    (congrArg₂ (fun f g => pred (weights eW eb ecW ecb adj trW trb prW prb c1W c1b c2W c2b) f g e) (funext h0) (funext h1))

theorem cls_s (h0 : ∀ k, x0 (ix2 p k) = attr (ix2 r k)) (e : Fin 2) :
    k0_pay10 (F := Ideal) (k0_pay7 (F := Ideal) (joined (k0_pay1 (F := Ideal) x0) (k0_pay5 (F := Ideal) x0 ecW ecb))) c1W c1b c2W c2b (ix2 p e) = clsArr (weights eW eb ecW ecb adj trW trb prW prb c1W c1b c2W c2b) attr (ix2 r e) :=
  (Cert.KernelTower.cls_s x0 eW eb ecW ecb adj trW trb prW prb c1W c1b c2W c2b p e).trans (congrArg (fun f => cls (weights eW eb ecW ecb adj trW trb prW prb c1W c1b c2W c2b) f e) (funext h0))

/-! ## The target tower -/

theorem inp_t (h0 : ∀ k, x0 (ix2 p k) = attr (ix2 r k)) (j : Fin 512) :
    (joined (k0_pay11 (F := Ideal) x0) (k0_pay15 (F := Ideal) x0 ecW ecb)) (ix2 p j) = inpArr (weights eW eb ecW ecb adj trW trb prW prb c1W c1b c2W c2b) attr (ix2 r j) :=
  (Cert.KernelTower.inp_t x0 eW eb ecW ecb adj trW trb prW prb c1W c1b c2W c2b p j).trans (congrArg (fun f => inp (weights eW eb ecW ecb adj trW trb prW prb c1W c1b c2W c2b) f j) (funext h0))

theorem causal_t (h0 : ∀ k, x0 (ix2 p k) = attr (ix2 r k)) (j : Fin 512) :
    k0_pay18 (F := Ideal) (joined (k0_pay11 (F := Ideal) x0) (k0_pay15 (F := Ideal) x0 ecW ecb)) adj (ix2 p j) = causalArr (weights eW eb ecW ecb adj trW trb prW prb c1W c1b c2W c2b) attr (ix2 r j) :=
  (Cert.KernelTower.causal_t x0 eW eb ecW ecb adj trW trb prW prb c1W c1b c2W c2b p j).trans (congrArg (fun f => causal (weights eW eb ecW ecb adj trW trb prW prb c1W c1b c2W c2b) f j) (funext h0))

theorem pred_t (h0 : ∀ k, x0 (ix2 p k) = attr (ix2 r k)) (h1 : ∀ k, x1 (ix2 p k) = item (ix2 r k)) (e : Fin 2) :
    k0_pay19 (F := Ideal) (k0_pay12 (F := Ideal) x1) (k0_pay14 (F := Ideal) x0 eW eb) (k0_pay18 (F := Ideal) (joined (k0_pay11 (F := Ideal) x0) (k0_pay15 (F := Ideal) x0 ecW ecb)) adj) trW trb prW prb (ix2 p e)
      = predArr (weights eW eb ecW ecb adj trW trb prW prb c1W c1b c2W c2b) attr item (ix2 r e) :=
  (Cert.KernelTower.pred_t x0 x1 eW eb ecW ecb adj trW trb prW prb c1W c1b c2W c2b p e).trans
    (congrArg₂ (fun f g => pred (weights eW eb ecW ecb adj trW trb prW prb c1W c1b c2W c2b) f g e) (funext h0) (funext h1))

theorem cls_t (h0 : ∀ k, x0 (ix2 p k) = attr (ix2 r k)) (e : Fin 2) :
    k0_pay20 (F := Ideal) (k0_pay17 (F := Ideal) (joined (k0_pay11 (F := Ideal) x0) (k0_pay15 (F := Ideal) x0 ecW ecb))) c1W c1b c2W c2b (ix2 p e) = clsArr (weights eW eb ecW ecb adj trW trb prW prb c1W c1b c2W c2b) attr (ix2 r e) :=
  (Cert.KernelTower.cls_t x0 eW eb ecW ecb adj trW trb prW prb c1W c1b c2W c2b p e).trans (congrArg (fun f => cls (weights eW eb ecW ecb adj trW trb prW prb c1W c1b c2W c2b) f e) (funext h0))

end Cert.KernelArrays

end
-- ==== Proof.KernelBlocks.lean ====
/-
  The blocks of the grid as parts of the arrays.

  The grid has 64 points. At point `t` each of the four feature arrays and each of the eight output arrays is cut at
  rows `1024 t ‥ 1024 t + 1024`, all columns; every weight's block is the whole array at every point. The index maps
  the program prints are decided once over the 64 points; from them, row `p` of a feature block is row `1024 t + p`
  of its array, and a weight's block is its array.
-/
import proofs.«167602_j51625506897950_2_alg».proof.Proof.Gen.KernelIdeal.Frame.Runs
import Idealize.ShloMosaic.Lib.ValueIdx
import Idealize.ShloMosaic.Lib.Pipeline.Value

noncomputable section

namespace Cert.KernelBlocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The grid has 64 points. -/
theorem lt64 (t : Fin cfg0.N) : t.val < 64 := lt_of_lt_of_eq t.isLt (show cfg0.N = 64 from N_0)

/-! ## The printed index maps, decided over the grid

A window over rows moves one block of 1024 rows per point and never along the columns; a weight's window stays at
block zero on every axis. -/
theorem idxRows0 : ∀ t : Fin cfg0.N, win0_0.index t (0 : Fin 2) = t.val ∧ win0_0.index t (1 : Fin 2) = 0 :=
  (by decide +kernel : ∀ t : Fin grid0.N, _)
theorem idxRows1 : ∀ t : Fin cfg0.N, win0_1.index t (0 : Fin 2) = t.val ∧ win0_1.index t (1 : Fin 2) = 0 :=
  (by decide +kernel : ∀ t : Fin grid0.N, _)
theorem idxRows2 : ∀ t : Fin cfg0.N, win0_2.index t (0 : Fin 2) = t.val ∧ win0_2.index t (1 : Fin 2) = 0 :=
  (by decide +kernel : ∀ t : Fin grid0.N, _)
theorem idxRows3 : ∀ t : Fin cfg0.N, win0_3.index t (0 : Fin 2) = t.val ∧ win0_3.index t (1 : Fin 2) = 0 :=
  (by decide +kernel : ∀ t : Fin grid0.N, _)
theorem idxRows23 : ∀ t : Fin cfg0.N, win0_23.index t (0 : Fin 2) = t.val ∧ win0_23.index t (1 : Fin 2) = 0 :=
  (by decide +kernel : ∀ t : Fin grid0.N, _)
theorem idxRows24 : ∀ t : Fin cfg0.N, win0_24.index t (0 : Fin 2) = t.val ∧ win0_24.index t (1 : Fin 2) = 0 :=
  (by decide +kernel : ∀ t : Fin grid0.N, _)
theorem idxRows25 : ∀ t : Fin cfg0.N, win0_25.index t (0 : Fin 2) = t.val ∧ win0_25.index t (1 : Fin 2) = 0 :=
  (by decide +kernel : ∀ t : Fin grid0.N, _)
theorem idxRows26 : ∀ t : Fin cfg0.N, win0_26.index t (0 : Fin 2) = t.val ∧ win0_26.index t (1 : Fin 2) = 0 :=
  (by decide +kernel : ∀ t : Fin grid0.N, _)
theorem idxRows27 : ∀ t : Fin cfg0.N, win0_27.index t (0 : Fin 2) = t.val ∧ win0_27.index t (1 : Fin 2) = 0 :=
  (by decide +kernel : ∀ t : Fin grid0.N, _)
theorem idxRows28 : ∀ t : Fin cfg0.N, win0_28.index t (0 : Fin 2) = t.val ∧ win0_28.index t (1 : Fin 2) = 0 :=
  (by decide +kernel : ∀ t : Fin grid0.N, _)
theorem idxRows29 : ∀ t : Fin cfg0.N, win0_29.index t (0 : Fin 2) = t.val ∧ win0_29.index t (1 : Fin 2) = 0 :=
  (by decide +kernel : ∀ t : Fin grid0.N, _)
theorem idxRows30 : ∀ t : Fin cfg0.N, win0_30.index t (0 : Fin 2) = t.val ∧ win0_30.index t (1 : Fin 2) = 0 :=
  (by decide +kernel : ∀ t : Fin grid0.N, _)
theorem idxWhole4 : ∀ t : Fin cfg0.N, win0_4.index t (0 : Fin 2) = 0 ∧ win0_4.index t (1 : Fin 2) = 0 :=
  (by decide +kernel : ∀ t : Fin grid0.N, _)
theorem idxWhole5 : ∀ t : Fin cfg0.N, win0_5.index t (0 : Fin 1) = 0 :=
  (by decide +kernel : ∀ t : Fin grid0.N, _)
theorem idxWhole6 : ∀ t : Fin cfg0.N, win0_6.index t (0 : Fin 2) = 0 ∧ win0_6.index t (1 : Fin 2) = 0 :=
  (by decide +kernel : ∀ t : Fin grid0.N, _)
theorem idxWhole7 : ∀ t : Fin cfg0.N, win0_7.index t (0 : Fin 1) = 0 :=
  (by decide +kernel : ∀ t : Fin grid0.N, _)
theorem idxWhole8 : ∀ t : Fin cfg0.N, win0_8.index t (0 : Fin 2) = 0 ∧ win0_8.index t (1 : Fin 2) = 0 :=
  (by decide +kernel : ∀ t : Fin grid0.N, _)
theorem idxWhole9 : ∀ t : Fin cfg0.N, win0_9.index t (0 : Fin 1) = 0 :=
  (by decide +kernel : ∀ t : Fin grid0.N, _)
theorem idxWhole10 : ∀ t : Fin cfg0.N, win0_10.index t (0 : Fin 2) = 0 ∧ win0_10.index t (1 : Fin 2) = 0 :=
  (by decide +kernel : ∀ t : Fin grid0.N, _)
theorem idxWhole11 : ∀ t : Fin cfg0.N, win0_11.index t (0 : Fin 2) = 0 ∧ win0_11.index t (1 : Fin 2) = 0 :=
  (by decide +kernel : ∀ t : Fin grid0.N, _)
theorem idxWhole12 : ∀ t : Fin cfg0.N, win0_12.index t (0 : Fin 1) = 0 :=
  (by decide +kernel : ∀ t : Fin grid0.N, _)
theorem idxWhole13 : ∀ t : Fin cfg0.N, win0_13.index t (0 : Fin 2) = 0 ∧ win0_13.index t (1 : Fin 2) = 0 :=
  (by decide +kernel : ∀ t : Fin grid0.N, _)
theorem idxWhole14 : ∀ t : Fin cfg0.N, win0_14.index t (0 : Fin 1) = 0 :=
  (by decide +kernel : ∀ t : Fin grid0.N, _)
theorem idxWhole15 : ∀ t : Fin cfg0.N, win0_15.index t (0 : Fin 2) = 0 ∧ win0_15.index t (1 : Fin 2) = 0 :=
  (by decide +kernel : ∀ t : Fin grid0.N, _)
theorem idxWhole16 : ∀ t : Fin cfg0.N, win0_16.index t (0 : Fin 1) = 0 :=
  (by decide +kernel : ∀ t : Fin grid0.N, _)
theorem idxWhole17 : ∀ t : Fin cfg0.N, win0_17.index t (0 : Fin 2) = 0 ∧ win0_17.index t (1 : Fin 2) = 0 :=
  (by decide +kernel : ∀ t : Fin grid0.N, _)
theorem idxWhole18 : ∀ t : Fin cfg0.N, win0_18.index t (0 : Fin 1) = 0 :=
  (by decide +kernel : ∀ t : Fin grid0.N, _)
theorem idxWhole19 : ∀ t : Fin cfg0.N, win0_19.index t (0 : Fin 2) = 0 ∧ win0_19.index t (1 : Fin 2) = 0 :=
  (by decide +kernel : ∀ t : Fin grid0.N, _)
theorem idxWhole20 : ∀ t : Fin cfg0.N, win0_20.index t (0 : Fin 1) = 0 :=
  (by decide +kernel : ∀ t : Fin grid0.N, _)
theorem idxWhole21 : ∀ t : Fin cfg0.N, win0_21.index t (0 : Fin 2) = 0 ∧ win0_21.index t (1 : Fin 2) = 0 :=
  (by decide +kernel : ∀ t : Fin grid0.N, _)
theorem idxWhole22 : ∀ t : Fin cfg0.N, win0_22.index t (0 : Fin 1) = 0 :=
  (by decide +kernel : ∀ t : Fin grid0.N, _)

/-! ## The input blocks as parts of their arrays -/

/-- Row `p` of window 0's block at point `t` is row `1024 t + p` of its array. -/
theorem iblk0_apply (c : Dev nD) (t : Fin cfg0.N) (p : Fin 1024) (k : Fin 256) :
    iblk m c 0 t (ix2 p k) = V m c main_v12 (ix2 ⟨t.val * 1024 + p.val, by have := lt64 t; have := p.isLt; omega⟩ k) := by
  show V m c main_v12 (((cfg0.win 0).blk t).view.emb (ix2 p k)) = _
  refine congrArg (V m c main_v12) (funext fun a => Fin.ext ?_)
  obtain ⟨e0, e1⟩ := idxRows0 t
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega

/-- Row `p` of window 1's block at point `t` is row `1024 t + p` of its array. -/
theorem iblk1_apply (c : Dev nD) (t : Fin cfg0.N) (p : Fin 1024) (k : Fin 256) :
    iblk m c 1 t (ix2 p k) = V m c main_v26 (ix2 ⟨t.val * 1024 + p.val, by have := lt64 t; have := p.isLt; omega⟩ k) := by
  show V m c main_v26 (((cfg0.win 1).blk t).view.emb (ix2 p k)) = _
  refine congrArg (V m c main_v26) (funext fun a => Fin.ext ?_)
  obtain ⟨e0, e1⟩ := idxRows1 t
  match a with
  | ⟨0, _⟩ => show win0_1.index t (0 : Fin 2) * 1024 + 1 * p.val = t.val * 1024 + p.val; rw [e0]; omega
  | ⟨1, _⟩ => show win0_1.index t (1 : Fin 2) * 256 + 1 * k.val = k.val; rw [e1]; omega

/-- Row `p` of window 2's block at point `t` is row `1024 t + p` of its array. -/
theorem iblk2_apply (c : Dev nD) (t : Fin cfg0.N) (p : Fin 1024) (k : Fin 256) :
    iblk m c 2 t (ix2 p k) = V m c main_v19 (ix2 ⟨t.val * 1024 + p.val, by have := lt64 t; have := p.isLt; omega⟩ k) := by
  show V m c main_v19 (((cfg0.win 2).blk t).view.emb (ix2 p k)) = _
  refine congrArg (V m c main_v19) (funext fun a => Fin.ext ?_)
  obtain ⟨e0, e1⟩ := idxRows2 t
  match a with
  | ⟨0, _⟩ => show win0_2.index t (0 : Fin 2) * 1024 + 1 * p.val = t.val * 1024 + p.val; rw [e0]; omega
  | ⟨1, _⟩ => show win0_2.index t (1 : Fin 2) * 256 + 1 * k.val = k.val; rw [e1]; omega

/-- Row `p` of window 3's block at point `t` is row `1024 t + p` of its array. -/
theorem iblk3_apply (c : Dev nD) (t : Fin cfg0.N) (p : Fin 1024) (k : Fin 256) :
    iblk m c 3 t (ix2 p k) = V m c main_v33 (ix2 ⟨t.val * 1024 + p.val, by have := lt64 t; have := p.isLt; omega⟩ k) := by
  show V m c main_v33 (((cfg0.win 3).blk t).view.emb (ix2 p k)) = _
  refine congrArg (V m c main_v33) (funext fun a => Fin.ext ?_)
  obtain ⟨e0, e1⟩ := idxRows3 t
  match a with
  | ⟨0, _⟩ => show win0_3.index t (0 : Fin 2) * 1024 + 1 * p.val = t.val * 1024 + p.val; rw [e0]; omega
  | ⟨1, _⟩ => show win0_3.index t (1 : Fin 2) * 256 + 1 * k.val = k.val; rw [e1]; omega

/-- Window 4's block is its whole array at every point. -/
theorem iblk4_eq (c : Dev nD) (t : Fin cfg0.N) : iblk m c 4 t = V m c main_v34 := by
  funext y
  show V m c main_v34 (((cfg0.win 4).blk t).view.emb y) = V m c main_v34 y
  refine congrArg (V m c main_v34) (funext fun a => Fin.ext ?_)
  obtain ⟨e0, e1⟩ := idxWhole4 t
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- Window 5's block is its whole array at every point. -/
theorem iblk5_eq (c : Dev nD) (t : Fin cfg0.N) : iblk m c 5 t = V m c main_arg9 := by
  funext y
  show V m c main_arg9 (((cfg0.win 5).blk t).view.emb y) = V m c main_arg9 y
  refine congrArg (V m c main_arg9) (funext fun a => Fin.ext ?_)
  have e0 := idxWhole5 t
  match a with
  | ⟨0, _⟩ => show win0_5.index t (0 : Fin 1) * 256 + 1 * (y 0).val = (y 0).val; rw [e0]; omega

/-- Window 6's block is its whole array at every point. -/
theorem iblk6_eq (c : Dev nD) (t : Fin cfg0.N) : iblk m c 6 t = V m c main_v35 := by
  funext y
  show V m c main_v35 (((cfg0.win 6).blk t).view.emb y) = V m c main_v35 y
  refine congrArg (V m c main_v35) (funext fun a => Fin.ext ?_)
  obtain ⟨e0, e1⟩ := idxWhole6 t
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

/-- Window 7's block is its whole array at every point. -/
theorem iblk7_eq (c : Dev nD) (t : Fin cfg0.N) : iblk m c 7 t = V m c main_arg11 := by
  funext y
  show V m c main_arg11 (((cfg0.win 7).blk t).view.emb y) = V m c main_arg11 y
  refine congrArg (V m c main_arg11) (funext fun a => Fin.ext ?_)
  have e0 := idxWhole7 t
  match a with
  | ⟨0, _⟩ => show win0_7.index t (0 : Fin 1) * 256 + 1 * (y 0).val = (y 0).val; rw [e0]; omega

/-- Window 8's block is its whole array at every point. -/
theorem iblk8_eq (c : Dev nD) (t : Fin cfg0.N) : iblk m c 8 t = V m c main_v36 := by
  funext y
  show V m c main_v36 (((cfg0.win 8).blk t).view.emb y) = V m c main_v36 y
  refine congrArg (V m c main_v36) (funext fun a => Fin.ext ?_)
  obtain ⟨e0, e1⟩ := idxWhole8 t
  match a with
  | ⟨0, _⟩ => show win0_8.index t (0 : Fin 2) * 256 + 1 * (y 0).val = (y 0).val; rw [e0]; omega
  | ⟨1, _⟩ => show win0_8.index t (1 : Fin 2) * 256 + 1 * (y 1).val = (y 1).val; rw [e1]; omega

/-- Window 9's block is its whole array at every point. -/
theorem iblk9_eq (c : Dev nD) (t : Fin cfg0.N) : iblk m c 9 t = V m c main_arg13 := by
  funext y
  show V m c main_arg13 (((cfg0.win 9).blk t).view.emb y) = V m c main_arg13 y
  refine congrArg (V m c main_arg13) (funext fun a => Fin.ext ?_)
  have e0 := idxWhole9 t
  match a with
  | ⟨0, _⟩ => show win0_9.index t (0 : Fin 1) * 256 + 1 * (y 0).val = (y 0).val; rw [e0]; omega

/-- Window 10's block is its whole array at every point. -/
theorem iblk10_eq (c : Dev nD) (t : Fin cfg0.N) : iblk m c 10 t = V m c main_v5 := by
  funext y
  show V m c main_v5 (((cfg0.win 10).blk t).view.emb y) = V m c main_v5 y
  refine congrArg (V m c main_v5) (funext fun a => Fin.ext ?_)
  obtain ⟨e0, e1⟩ := idxWhole10 t
  match a with
  | ⟨0, _⟩ => show win0_10.index t (0 : Fin 2) * 512 + 1 * (y 0).val = (y 0).val; rw [e0]; omega
  | ⟨1, _⟩ => show win0_10.index t (1 : Fin 2) * 512 + 1 * (y 1).val = (y 1).val; rw [e1]; omega

/-- Window 11's block is its whole array at every point. -/
theorem iblk11_eq (c : Dev nD) (t : Fin cfg0.N) : iblk m c 11 t = V m c main_v37 := by
  funext y
  show V m c main_v37 (((cfg0.win 11).blk t).view.emb y) = V m c main_v37 y
  refine congrArg (V m c main_v37) (funext fun a => Fin.ext ?_)
  obtain ⟨e0, e1⟩ := idxWhole11 t
  match a with
  | ⟨0, _⟩ => show win0_11.index t (0 : Fin 2) * 256 + 1 * (y 0).val = (y 0).val; rw [e0]; omega
  | ⟨1, _⟩ => show win0_11.index t (1 : Fin 2) * 128 + 1 * (y 1).val = (y 1).val; rw [e1]; omega

/-- Window 12's block is its whole array at every point. -/
theorem iblk12_eq (c : Dev nD) (t : Fin cfg0.N) : iblk m c 12 t = V m c main_arg16 := by
  funext y
  show V m c main_arg16 (((cfg0.win 12).blk t).view.emb y) = V m c main_arg16 y
  refine congrArg (V m c main_arg16) (funext fun a => Fin.ext ?_)
  have e0 := idxWhole12 t
  match a with
  | ⟨0, _⟩ => show win0_12.index t (0 : Fin 1) * 128 + 1 * (y 0).val = (y 0).val; rw [e0]; omega

/-- Window 13's block is its whole array at every point. -/
theorem iblk13_eq (c : Dev nD) (t : Fin cfg0.N) : iblk m c 13 t = V m c main_v38 := by
  funext y
  show V m c main_v38 (((cfg0.win 13).blk t).view.emb y) = V m c main_v38 y
  refine congrArg (V m c main_v38) (funext fun a => Fin.ext ?_)
  obtain ⟨e0, e1⟩ := idxWhole13 t
  match a with
  | ⟨0, _⟩ => show win0_13.index t (0 : Fin 2) * 128 + 1 * (y 0).val = (y 0).val; rw [e0]; omega
  | ⟨1, _⟩ => show win0_13.index t (1 : Fin 2) * 2 + 1 * (y 1).val = (y 1).val; rw [e1]; omega

/-- Window 14's block is its whole array at every point. -/
theorem iblk14_eq (c : Dev nD) (t : Fin cfg0.N) : iblk m c 14 t = V m c main_arg18 := by
  funext y
  show V m c main_arg18 (((cfg0.win 14).blk t).view.emb y) = V m c main_arg18 y
  refine congrArg (V m c main_arg18) (funext fun a => Fin.ext ?_)
  have e0 := idxWhole14 t
  match a with
  | ⟨0, _⟩ => show win0_14.index t (0 : Fin 1) * 2 + 1 * (y 0).val = (y 0).val; rw [e0]; omega

/-- Window 15's block is its whole array at every point. -/
theorem iblk15_eq (c : Dev nD) (t : Fin cfg0.N) : iblk m c 15 t = V m c main_v39 := by
  funext y
  show V m c main_v39 (((cfg0.win 15).blk t).view.emb y) = V m c main_v39 y
  refine congrArg (V m c main_v39) (funext fun a => Fin.ext ?_)
  obtain ⟨e0, e1⟩ := idxWhole15 t
  match a with
  | ⟨0, _⟩ => show win0_15.index t (0 : Fin 2) * 512 + 1 * (y 0).val = (y 0).val; rw [e0]; omega
  | ⟨1, _⟩ => show win0_15.index t (1 : Fin 2) * 256 + 1 * (y 1).val = (y 1).val; rw [e1]; omega

/-- Window 16's block is its whole array at every point. -/
theorem iblk16_eq (c : Dev nD) (t : Fin cfg0.N) : iblk m c 16 t = V m c main_arg20 := by
  funext y
  show V m c main_arg20 (((cfg0.win 16).blk t).view.emb y) = V m c main_arg20 y
  refine congrArg (V m c main_arg20) (funext fun a => Fin.ext ?_)
  have e0 := idxWhole16 t
  match a with
  | ⟨0, _⟩ => show win0_16.index t (0 : Fin 1) * 256 + 1 * (y 0).val = (y 0).val; rw [e0]; omega

/-- Window 17's block is its whole array at every point. -/
theorem iblk17_eq (c : Dev nD) (t : Fin cfg0.N) : iblk m c 17 t = V m c main_v40 := by
  funext y
  show V m c main_v40 (((cfg0.win 17).blk t).view.emb y) = V m c main_v40 y
  refine congrArg (V m c main_v40) (funext fun a => Fin.ext ?_)
  obtain ⟨e0, e1⟩ := idxWhole17 t
  match a with
  | ⟨0, _⟩ => show win0_17.index t (0 : Fin 2) * 512 + 1 * (y 0).val = (y 0).val; rw [e0]; omega
  | ⟨1, _⟩ => show win0_17.index t (1 : Fin 2) * 256 + 1 * (y 1).val = (y 1).val; rw [e1]; omega

/-- Window 18's block is its whole array at every point. -/
theorem iblk18_eq (c : Dev nD) (t : Fin cfg0.N) : iblk m c 18 t = V m c main_arg22 := by
  funext y
  show V m c main_arg22 (((cfg0.win 18).blk t).view.emb y) = V m c main_arg22 y
  refine congrArg (V m c main_arg22) (funext fun a => Fin.ext ?_)
  have e0 := idxWhole18 t
  match a with
  | ⟨0, _⟩ => show win0_18.index t (0 : Fin 1) * 256 + 1 * (y 0).val = (y 0).val; rw [e0]; omega

/-- Window 19's block is its whole array at every point. -/
theorem iblk19_eq (c : Dev nD) (t : Fin cfg0.N) : iblk m c 19 t = V m c main_v41 := by
  funext y
  show V m c main_v41 (((cfg0.win 19).blk t).view.emb y) = V m c main_v41 y
  refine congrArg (V m c main_v41) (funext fun a => Fin.ext ?_)
  obtain ⟨e0, e1⟩ := idxWhole19 t
  match a with
  | ⟨0, _⟩ => show win0_19.index t (0 : Fin 2) * 256 + 1 * (y 0).val = (y 0).val; rw [e0]; omega
  | ⟨1, _⟩ => show win0_19.index t (1 : Fin 2) * 2 + 1 * (y 1).val = (y 1).val; rw [e1]; omega

/-- Window 20's block is its whole array at every point. -/
theorem iblk20_eq (c : Dev nD) (t : Fin cfg0.N) : iblk m c 20 t = V m c main_arg24 := by
  funext y
  show V m c main_arg24 (((cfg0.win 20).blk t).view.emb y) = V m c main_arg24 y
  refine congrArg (V m c main_arg24) (funext fun a => Fin.ext ?_)
  have e0 := idxWhole20 t
  match a with
  | ⟨0, _⟩ => show win0_20.index t (0 : Fin 1) * 2 + 1 * (y 0).val = (y 0).val; rw [e0]; omega

/-- Window 21's block is its whole array at every point. -/
theorem iblk21_eq (c : Dev nD) (t : Fin cfg0.N) : iblk m c 21 t = V m c main_v42 := by
  funext y
  show V m c main_v42 (((cfg0.win 21).blk t).view.emb y) = V m c main_v42 y
  refine congrArg (V m c main_v42) (funext fun a => Fin.ext ?_)
  obtain ⟨e0, e1⟩ := idxWhole21 t
  match a with
  | ⟨0, _⟩ => show win0_21.index t (0 : Fin 2) * 256 + 1 * (y 0).val = (y 0).val; rw [e0]; omega
  | ⟨1, _⟩ => show win0_21.index t (1 : Fin 2) * 2 + 1 * (y 1).val = (y 1).val; rw [e1]; omega

/-- Window 22's block is its whole array at every point. -/
theorem iblk22_eq (c : Dev nD) (t : Fin cfg0.N) : iblk m c 22 t = V m c main_arg26 := by
  funext y
  show V m c main_arg26 (((cfg0.win 22).blk t).view.emb y) = V m c main_arg26 y
  refine congrArg (V m c main_arg26) (funext fun a => Fin.ext ?_)
  have e0 := idxWhole22 t
  match a with
  | ⟨0, _⟩ => show win0_22.index t (0 : Fin 1) * 2 + 1 * (y 0).val = (y 0).val; rw [e0]; omega

end Cert.KernelBlocks

end
-- ==== Proof.KernelHost.lean ====
/-
  The arrays the kernel is launched on.

  Before the launch the program gathers the four feature arrays, thresholds the adjacency matrix and narrows the
  weights' format. The gathers and the threshold are the reference's own operations on the same arguments; a change
  of float format is the identity on extended reals, so each narrowed weight is the argument itself.
-/
import proofs.«167602_j51625506897950_2_alg».proof.Proof.Gen.KernelIdeal.Frame.Runs
import proofs.«167602_j51625506897950_2_alg».proof.Proof.Gen.ReferenceIdeal.Read
import Idealize.ShloMosaic.Lib.StableHlo.Run

noncomputable section

namespace Cert.KernelHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Read a buffer after the host operations that run before the kernel is launched. -/
local macro "read_host" : tactic => `(tactic| (
  dsimp only [Gen.V]
  simp only [Gen.hostOps0, Gen.hostOps0_1, Gen.hostOps0_2, List.flatten_cons, List.flatten_nil, List.append_nil,
    List.cons_append, List.nil_append]
  after_results
  rfl))

/-! ## The gathered features: the same gathers as the reference's, of the same arguments -/

set_option maxHeartbeats 8000000 in
theorem V_attr_s (c : Dev nD) :
    V m c main_v12 = Cert.ReferenceIdeal.Read.val_main_v11 (F := Ideal)
      (m ((c : Thread nD τ).loc main_arg0)) (m ((c : Thread nD τ).loc main_arg4)) := by read_host

set_option maxHeartbeats 8000000 in
theorem V_attr_t (c : Dev nD) :
    V m c main_v19 = Cert.ReferenceIdeal.Read.val_main_v62 (F := Ideal)
      (m ((c : Thread nD τ).loc main_arg1)) (m ((c : Thread nD τ).loc main_arg5)) := by read_host

set_option maxHeartbeats 8000000 in
theorem V_item_s (c : Dev nD) :
    V m c main_v26 = Cert.ReferenceIdeal.Read.val_main_v23 (F := Ideal)
      (m ((c : Thread nD τ).loc main_arg2)) (m ((c : Thread nD τ).loc main_arg6)) := by read_host

set_option maxHeartbeats 8000000 in
theorem V_item_t (c : Dev nD) :
    V m c main_v33 = Cert.ReferenceIdeal.Read.val_main_v74 (F := Ideal)
      (m ((c : Thread nD τ).loc main_arg3)) (m ((c : Thread nD τ).loc main_arg7)) := by read_host

/-! ## The thresholded adjacency matrix, as a result and as the kernel's operand -/

set_option maxHeartbeats 8000000 in
theorem V_adjT (c : Dev nD) :
    V m c main_v4 = Cert.ReferenceIdeal.Read.val_main_v4 (F := Ideal) (m ((c : Thread nD τ).loc main_arg14)) := by read_host

set_option maxHeartbeats 8000000 in
theorem V_adj (c : Dev nD) :
    (V m c main_v5 : S512x512.Idx → EReal)
      = Cert.ReferenceIdeal.Read.val_main_v4 (F := Ideal) (m ((c : Thread nD τ).loc main_arg14)) := by read_host

/-! ## The weights the kernel is given in the narrower format: the same numbers -/

set_option maxHeartbeats 8000000 in
theorem V_w34 (c : Dev nD) : (V m c main_v34 : S256x256.Idx → EReal) = m ((c : Thread nD τ).loc main_arg8) := by read_host

set_option maxHeartbeats 8000000 in
theorem V_w35 (c : Dev nD) : (V m c main_v35 : S256x256.Idx → EReal) = m ((c : Thread nD τ).loc main_arg10) := by read_host

set_option maxHeartbeats 8000000 in
theorem V_w36 (c : Dev nD) : (V m c main_v36 : S256x256.Idx → EReal) = m ((c : Thread nD τ).loc main_arg12) := by read_host

set_option maxHeartbeats 8000000 in
theorem V_w37 (c : Dev nD) : (V m c main_v37 : S256x128.Idx → EReal) = m ((c : Thread nD τ).loc main_arg15) := by read_host

set_option maxHeartbeats 8000000 in
theorem V_w38 (c : Dev nD) : (V m c main_v38 : S128x2.Idx → EReal) = m ((c : Thread nD τ).loc main_arg17) := by read_host

set_option maxHeartbeats 8000000 in
theorem V_w39 (c : Dev nD) : (V m c main_v39 : S512x256.Idx → EReal) = m ((c : Thread nD τ).loc main_arg19) := by read_host

set_option maxHeartbeats 8000000 in
theorem V_w40 (c : Dev nD) : (V m c main_v40 : S512x256.Idx → EReal) = m ((c : Thread nD τ).loc main_arg21) := by read_host

set_option maxHeartbeats 8000000 in
theorem V_w41 (c : Dev nD) : (V m c main_v41 : S256x2.Idx → EReal) = m ((c : Thread nD τ).loc main_arg23) := by read_host

set_option maxHeartbeats 8000000 in
theorem V_w42 (c : Dev nD) : (V m c main_v42 : S256x2.Idx → EReal) = m ((c : Thread nD τ).loc main_arg25) := by read_host

end Cert.KernelHost

end
-- ==== Proof.KernelValue.lean ====
/-
  What the kernel's program leaves in its eight output arrays.

  The frame run names, per output array, what each grid point writes back: the contents of the output's staging buffer
  after the body. Those contents are the canonical contents of the stores the body made there. For six outputs that is
  one store of a whole block; for the two joined outputs it is two stores, the features into columns 0‥256 and the
  shared embedding into columns 256‥512, which the body then reads back whole. Each stored value is a row function of
  `Spec` of the block's rows (`KernelArrays`), the block's rows are rows `1024 t + p` of the arrays the kernel was
  launched on (`KernelBlocks`), so point `t` writes back block `t` of an array of `Model`; the 64 blocks tile each
  array; and the arrays the kernel was launched on are the reference's gathers and threshold (`KernelHost`).
-/
import proofs.«167602_j51625506897950_2_alg».proof.Proof.KernelIdealFrameP
import proofs.«167602_j51625506897950_2_alg».proof.Proof.KernelArrays
import proofs.«167602_j51625506897950_2_alg».proof.Proof.KernelBlocks
import proofs.«167602_j51625506897950_2_alg».proof.Proof.KernelHost
import Idealize.ShloMosaic.Lib.Pipeline.Value

set_option maxRecDepth 16384

noncomputable section

namespace Cert.KernelValue

open Idealize.ShloMosaic Idealize.ShloMosaic.TcCoe Idealize.ShloMosaic.Tactic Idealize.ShloMosaic.ValueIdx Idealize.SL.Sem
open Idealize.ShloMosaic.Pipeline (Dat)
open Cert.Spec Cert.Model Cert.KernelTower Cert.KernelBlocks Cert.KernelHost
open Cert.KernelIdeal Cert.KernelIdeal.Gen Cert.KernelIdeal.GenP

theorem hz : (![0, 0] : Fin 2 → Nat) = fun _ => 0 := funext fun a => by fin_cases a <;> rfl
theorem hz1 : (![0] : Fin 1 → Nat) = fun _ => 0 := funext fun a => by fin_cases a; rfl

/-- The joined buffer after its two stores — the features into columns 0‥256, then the shared embedding into columns
    256‥512 — holds the two blocks side by side, whatever it held before. -/
theorem canon_joined (a b : S1024x256.Idx → EReal)
    (inb0 : ∀ d, (![0, 0] : Fin 2 → Nat) d + S1024x256.size d ≤ S1024x512.size d)
    (inb1 : ∀ d, (![0, 256] : Fin 2 → Nat) d + S1024x256.size d ≤ S1024x512.size d) :
    View.canon (Val := Elt Ideal) (s := S1024x512) (e := .f32)
      [⟨Rect.unit ![0, 256] S1024x256.size inb1, b⟩, ⟨Rect.unit ![0, 0] S1024x256.size inb0, a⟩] = joined a b := by
  funext i
  obtain ⟨p, j, rfl⟩ : ∃ (p : Fin 1024) (j : Fin 512), i = ix2 p j := ⟨i 0, i 1, eq_ix2 i⟩
  have hp := p.isLt
  have hj := j.isLt
  show _ = cat (row (α := EReal) a p) (row (α := EReal) b p) j
  unfold cat
  by_cases h : j.val < 256
  · rw [dif_pos h]
    rw [View.canon_cons_of_not_mem _ _ (y := ix2 p j) (by
      rw [Rect.mem_set_unit]
      intro hh
      have h1 := (hh 1).1
      change 256 ≤ j.val at h1
      omega)]
    have e : (ix2 p j : S1024x512.Idx)
        = (Rect.unit (s := S1024x512) ![0, 0] S1024x256.size inb0).emb (ix2 p ⟨j.val, h⟩) :=
      funext fun d => Fin.ext (by
        match d with
        | ⟨0, _⟩ => show p.val = 0 + 1 * p.val; omega
        | ⟨1, _⟩ => show j.val = 0 + 1 * j.val; omega)
    rw [e, View.canon_cons_emb]
  · rw [dif_neg h]
    have e : (ix2 p j : S1024x512.Idx)
        = (Rect.unit (s := S1024x512) ![0, 256] S1024x256.size inb1).emb (ix2 p ⟨j.val - 256, by omega⟩) :=
      funext fun d => Fin.ext (by
        match d with
        | ⟨0, _⟩ => show p.val = 0 + 1 * p.val; omega
        | ⟨1, _⟩ => show j.val = 256 + 1 * (j.val - 256); omega)
    rw [e, View.canon_cons_emb]

/-- The two stores cover the joined buffer: columns below 256 by the first store, the others by the second. -/
theorem cover_joined (a b : S1024x256.Idx → EReal)
    (inb0 : ∀ d, (![0, 0] : Fin 2 → Nat) d + S1024x256.size d ≤ S1024x512.size d)
    (inb1 : ∀ d, (![0, 256] : Fin 2 → Nat) d + S1024x256.size d ≤ S1024x512.size d) (y : S1024x512.Idx) :
    ∃ pc ∈ ([⟨Rect.unit ![0, 256] S1024x256.size inb1, b⟩, ⟨Rect.unit ![0, 0] S1024x256.size inb0, a⟩] :
      List (View.Piece (Elt Ideal) S1024x512 .f32)), y ∈ pc.1.set := by
  have h0 : (y 0).val < 1024 := (y 0).isLt
  have h1 : (y 1).val < 512 := (y 1).isLt
  by_cases h : (y 1).val < 256
  · refine ⟨_, List.mem_cons_of_mem _ (List.mem_singleton_self _), ?_⟩
    rw [Rect.mem_set_unit]
    intro d
    match d with
    | ⟨0, _⟩ => exact ⟨Nat.zero_le _, by show (y 0).val < 0 + 1024; omega⟩
    | ⟨1, _⟩ => exact ⟨Nat.zero_le _, by show (y 1).val < 0 + 256; omega⟩
  · refine ⟨_, List.mem_cons_self, ?_⟩
    rw [Rect.mem_set_unit]
    intro d
    match d with
    | ⟨0, _⟩ => exact ⟨Nat.zero_le _, by show (y 0).val < 0 + 1024; omega⟩
    | ⟨1, _⟩ => exact ⟨by show 256 ≤ (y 1).val; omega, by show (y 1).val < 256 + 256; omega⟩

/-- The joined buffer read back whole after its two stores. -/
theorem readCov_joined (v : View sig .tc .vmem S1024x512 .f32) (a b : S1024x256.Idx → EReal)
    (inb0 : ∀ d, (![0, 0] : Fin 2 → Nat) d + S1024x256.size d ≤ S1024x512.size d)
    (inb1 : ∀ d, (![0, 256] : Fin 2 → Nat) d + S1024x256.size d ≤ S1024x512.size d)
    (inbW : ∀ d, (![0, 0] : Fin 2 → Nat) d + S1024x512.size d ≤ S1024x512.size d) :
    v.readCov ([⟨Rect.unit ![0, 256] S1024x256.size inb1, b⟩, ⟨Rect.unit ![0, 0] S1024x256.size inb0, a⟩] :
        List (View.Piece (Elt Ideal) S1024x512 .f32)) (Rect.unit ![0, 0] S1024x512.size inbW).toLoadRect
      = joined a b := by
  rw [View.readCov_eq_canon_ld _ _ _ (cover_joined a b inb0 inb1), View.ld_unit_zero hz, canon_joined]

variable (m : (ℓ : Loc nD τ sig) → Buf (Elt Ideal) ℓ) (ρ : Dev nD → PrngReg)

/-! ## What the body leaves in each output's staging buffer -/

/-- What the body leaves in output 23's staging buffer. -/
theorem out23_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = k0_pay9 (F := Ideal) (k0_pay2 (F := Ideal) x1) (k0_pay4 (F := Ideal) x0 x4 x5) (k0_pay8 (F := Ideal) (joined (k0_pay1 (F := Ideal) x0) (k0_pay5 (F := Ideal) x0 x8 x9)) x10) x15 x16 x19 x20 := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  rw [View.canon_unit_zero hz, readCov_joined]

/-- What the body leaves in output 24's staging buffer. -/
theorem out24_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = k0_pay19 (F := Ideal) (k0_pay12 (F := Ideal) x3) (k0_pay14 (F := Ideal) x2 x6 x7) (k0_pay18 (F := Ideal) (joined (k0_pay11 (F := Ideal) x2) (k0_pay15 (F := Ideal) x2 x8 x9)) x10) x17 x18 x21 x22 := by
  unfold out0_A_24
  rw [View.read_writes_eq_canon _ _ _ (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  rw [View.canon_unit_zero hz, readCov_joined]

/-- What the body leaves in output 25's staging buffer. -/
theorem out25_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = k0_pay10 (F := Ideal) (k0_pay7 (F := Ideal) (joined (k0_pay1 (F := Ideal) x0) (k0_pay5 (F := Ideal) x0 x8 x9))) x11 x12 x13 x14 := by
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  rw [View.canon_unit_zero hz, readCov_joined]

/-- What the body leaves in output 26's staging buffer. -/
theorem out26_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = k0_pay20 (F := Ideal) (k0_pay17 (F := Ideal) (joined (k0_pay11 (F := Ideal) x2) (k0_pay15 (F := Ideal) x2 x8 x9))) x11 x12 x13 x14 := by
  unfold out0_A_26
  rw [View.read_writes_eq_canon _ _ _ (cover0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  rw [View.canon_unit_zero hz, readCov_joined]

/-- What the body leaves in output 27's staging buffer. -/
theorem out27_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_27 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = joined (k0_pay1 (F := Ideal) x0) (k0_pay5 (F := Ideal) x0 x8 x9) := by
  unfold out0_A_27
  rw [View.read_writes_eq_canon _ _ _ (cover0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  exact canon_joined _ _ _ _

/-- What the body leaves in output 28's staging buffer. -/
theorem out28_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_28 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = joined (k0_pay11 (F := Ideal) x2) (k0_pay15 (F := Ideal) x2 x8 x9) := by
  unfold out0_A_28
  rw [View.read_writes_eq_canon _ _ _ (cover0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  exact canon_joined _ _ _ _

/-- What the body leaves in output 29's staging buffer. -/
theorem out29_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = k0_pay8 (F := Ideal) (joined (k0_pay1 (F := Ideal) x0) (k0_pay5 (F := Ideal) x0 x8 x9)) x10 := by
  unfold out0_A_29
  rw [View.read_writes_eq_canon _ _ _ (cover0_A_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  rw [View.canon_unit_zero hz, readCov_joined]

/-- What the body leaves in output 30's staging buffer. -/
theorem out30_eq (c : Dev nD) (i : grid0.Coords) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S256x256 .bf16) (harg5 : arg5.IsWhole) (arg6 : Memref sig .tc .vmem S256 .f32) (harg6 : arg6.IsWhole) (arg7 : Memref sig .tc .vmem S256x256 .bf16) (harg7 : arg7.IsWhole) (arg8 : Memref sig .tc .vmem S256 .f32) (harg8 : arg8.IsWhole) (arg9 : Memref sig .tc .vmem S256x256 .bf16) (harg9 : arg9.IsWhole) (arg10 : Memref sig .tc .vmem S256 .f32) (harg10 : arg10.IsWhole) (arg11 : Memref sig .tc .vmem S512x512 .bf16) (harg11 : arg11.IsWhole) (arg12 : Memref sig .tc .vmem S256x128 .bf16) (harg12 : arg12.IsWhole) (arg13 : Memref sig .tc .vmem S128 .f32) (harg13 : arg13.IsWhole) (arg14 : Memref sig .tc .vmem S128x2 .bf16) (harg14 : arg14.IsWhole) (arg15 : Memref sig .tc .vmem S2 .f32) (harg15 : arg15.IsWhole) (arg16 : Memref sig .tc .vmem S512x256 .bf16) (harg16 : arg16.IsWhole) (arg17 : Memref sig .tc .vmem S256 .f32) (harg17 : arg17.IsWhole) (arg18 : Memref sig .tc .vmem S512x256 .bf16) (harg18 : arg18.IsWhole) (arg19 : Memref sig .tc .vmem S256 .f32) (harg19 : arg19.IsWhole) (arg20 : Memref sig .tc .vmem S256x2 .bf16) (harg20 : arg20.IsWhole) (arg21 : Memref sig .tc .vmem S2 .f32) (harg21 : arg21.IsWhole) (arg22 : Memref sig .tc .vmem S256x2 .bf16) (harg22 : arg22.IsWhole) (arg23 : Memref sig .tc .vmem S2 .f32) (harg23 : arg23.IsWhole) (arg24 : Memref sig .tc .vmem S1024x2 .f32) (harg24 : arg24.IsWhole) (arg25 : Memref sig .tc .vmem S1024x2 .f32) (harg25 : arg25.IsWhole) (arg26 : Memref sig .tc .vmem S1024x2 .f32) (harg26 : arg26.IsWhole) (arg27 : Memref sig .tc .vmem S1024x2 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x512 .f32) (harg30 : arg30.IsWhole) (arg31 : Memref sig .tc .vmem S1024x512 .f32) (harg31 : arg31.IsWhole) (x0 : Vec Ideal S1024x256 .f32) (x1 : Vec Ideal S1024x256 .f32) (x2 : Vec Ideal S1024x256 .f32) (x3 : Vec Ideal S1024x256 .f32) (x4 : Vec Ideal S256x256 .bf16) (x5 : Vec Ideal S256 .f32) (x6 : Vec Ideal S256x256 .bf16) (x7 : Vec Ideal S256 .f32) (x8 : Vec Ideal S256x256 .bf16) (x9 : Vec Ideal S256 .f32) (x10 : Vec Ideal S512x512 .bf16) (x11 : Vec Ideal S256x128 .bf16) (x12 : Vec Ideal S128 .f32) (x13 : Vec Ideal S128x2 .bf16) (x14 : Vec Ideal S2 .f32) (x15 : Vec Ideal S512x256 .bf16) (x16 : Vec Ideal S256 .f32) (x17 : Vec Ideal S512x256 .bf16) (x18 : Vec Ideal S256 .f32) (x19 : Vec Ideal S256x2 .bf16) (x20 : Vec Ideal S2 .f32) (x21 : Vec Ideal S256x2 .bf16) (x22 : Vec Ideal S2 .f32) :
    out0_A_30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22 = k0_pay18 (F := Ideal) (joined (k0_pay11 (F := Ideal) x2) (k0_pay15 (F := Ideal) x2 x8 x9)) x10 := by
  unfold out0_A_30
  rw [View.read_writes_eq_canon _ _ _ (cover0_A_30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 x0 x1 x2 x3 x4 x5 x6 x7 x8 x9 x10 x11 x12 x13 x14 x15 x16 x17 x18 x19 x20 x21 x22)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S256x256) hz, View.ld_unit_zero (S := S512x512) hz, View.ld_unit_zero (S := S256x128) hz, View.ld_unit_zero (S := S128x2) hz, View.ld_unit_zero (S := S512x256) hz, View.ld_unit_zero (S := S256x2) hz, View.ld_unit_zero (S := S1024x512) hz, View.ld_unit_zero (S := S1024x2) hz, View.ld_unit_zero (S := S256) hz1, View.ld_unit_zero (S := S128) hz1, View.ld_unit_zero (S := S2) hz1]
  rw [View.canon_unit_zero hz, readCov_joined]

/-! ## The weights and the gathered features in terms of the arguments -/

/-- The source tower's weights as the region finds them. -/
def Ws (c : Dev nD) : Weights := (weights (V m c main_v34) (V m c main_arg9) (V m c main_v36) (V m c main_arg13) (V m c main_v5) (V m c main_v39) (V m c main_arg20) (V m c main_v41) (V m c main_arg24) (V m c main_v37) (V m c main_arg16) (V m c main_v38) (V m c main_arg18))
/-- The target tower's weights as the region finds them. -/
def Wt (c : Dev nD) : Weights := (weights (V m c main_v35) (V m c main_arg11) (V m c main_v36) (V m c main_arg13) (V m c main_v5) (V m c main_v40) (V m c main_arg22) (V m c main_v42) (V m c main_arg26) (V m c main_v37) (V m c main_arg16) (V m c main_v38) (V m c main_arg18))

/-! ## Output window 23 -/

/-- What point `t` writes back is block `t` of the array of `Model`. -/
theorem flushed23_eq (c : Dev nD) (t : Fin cfg0.N) :
    (dats m 0 c).flushed 23 t = ((cfg0.win 23).blk t).view.read (Elt Ideal) (predArr (Ws m c) (V m c main_v12) (V m c main_v26)) := by
  show (cfg0.win 23).cut (grid0.coords t) ((dats m 0 c).after 23 t) = _
  rw [after0_23]
  simp only [outsAt0]
  rw [out23_eq]
  rw [iblk4_eq m c t, iblk5_eq m c t, iblk8_eq m c t, iblk9_eq m c t, iblk10_eq m c t, iblk15_eq m c t, iblk16_eq m c t, iblk19_eq m c t, iblk20_eq m c t]
  funext y
  obtain ⟨p, e, rfl⟩ : ∃ (p : Fin 1024) (e : Fin 2), y = ix2 p e := ⟨y 0, y 1, eq_ix2 y⟩
  have hr : ((cfg0.win 23).blk t).view.emb (ix2 p e)
      = ix2 ⟨t.val * 1024 + p.val, by have := lt64 t; have := p.isLt; omega⟩ e := funext fun a => Fin.ext (by
    obtain ⟨e0, e1⟩ := idxRows23 t
    match a with
    | ⟨0, _⟩ => show win0_23.index t (0 : Fin 2) * 1024 + 1 * p.val = t.val * 1024 + p.val; rw [e0]; omega
    | ⟨1, _⟩ => show win0_23.index t (1 : Fin 2) * 2 + 1 * e.val = e.val; rw [e1]; omega)
  show _ = (predArr (Ws m c) (V m c main_v12) (V m c main_v26)) (((cfg0.win 23).blk t).view.emb (ix2 p e))
  rw [hr]
  exact Cert.KernelArrays.pred_s (iblk m c 0 t) (iblk m c 1 t) (V m c main_v34) (V m c main_arg9) (V m c main_v36) (V m c main_arg13) (V m c main_v5) (V m c main_v39) (V m c main_arg20) (V m c main_v41) (V m c main_arg24) (V m c main_v37) (V m c main_arg16) (V m c main_v38) (V m c main_arg18) (V m c main_v12) (V m c main_v26)
    ⟨t.val * 1024 + p.val, by have := lt64 t; have := p.isLt; omega⟩ p (fun k => iblk0_apply m c t p k) (fun k => iblk1_apply m c t p k) e

/-- An index of the array is in point `t`'s block iff each coordinate is in the block's range on its axis. -/
theorem mem_blk23 (t : Fin cfg0.N) (i : S65536x2.Idx) :
    i ∈ ((cfg0.win 23).blk t).view.set ↔ ∀ a : Fin 2, win0_23.index t a * S1024x2.size a ≤ (i a).val
      ∧ (i a).val < win0_23.index t a * S1024x2.size a + S1024x2.size a := by
  show i ∈ ((View.whole main_v43_0).slice (win0_23.rect t)).set ↔ _
  rw [View.set_slice_whole, Rect.mem_set_unit]
  exact Iff.rfl

/-- Row `r` of the array is in the block of point `r / 1024`. -/
theorem cover23 (i : S65536x2.Idx) :
    ∃ t : Fin cfg0.N, (cfg0.win 23).flush t = true ∧ i ∈ ((cfg0.win 23).blk t).view.set := by
  have hi0 : (i 0).val < 65536 := (i 0).isLt
  have hi1 : (i 1).val < 2 := (i 1).isLt
  have hN : cfg0.N = 64 := N_0
  refine ⟨⟨(i 0).val / 1024, by omega⟩, flush0_23 _, ?_⟩
  rw [mem_blk23]
  obtain ⟨e0, e1⟩ := idxRows23 ⟨(i 0).val / 1024, by omega⟩
  intro a
  match a with
  | ⟨0, _⟩ =>
    show win0_23.index _ (0 : Fin 2) * 1024 ≤ (i 0).val ∧ (i 0).val < win0_23.index _ (0 : Fin 2) * 1024 + 1024
    rw [e0]; dsimp only; omega
  | ⟨1, _⟩ =>
    show win0_23.index _ (1 : Fin 2) * 2 ≤ (i 1).val ∧ (i 1).val < win0_23.index _ (1 : Fin 2) * 2 + 2
    rw [e1]; omega

/-- The array after the run. -/
theorem final23 (c : Dev nD) : (dats m 0 c).arrAt 23 cfg0.N = (predArr (Ws m c) (V m c main_v12) (V m c main_v26)) :=
  (dats m 0 c).arrAt_eq_of_cover 23 (predArr (Ws m c) (V m c main_v12) (V m c main_v26)) (fun t _ => flushed23_eq m c t) cover23

/-! ## Output window 24 -/

/-- What point `t` writes back is block `t` of the array of `Model`. -/
theorem flushed24_eq (c : Dev nD) (t : Fin cfg0.N) :
    (dats m 0 c).flushed 24 t = ((cfg0.win 24).blk t).view.read (Elt Ideal) (predArr (Wt m c) (V m c main_v19) (V m c main_v33)) := by
  show (cfg0.win 24).cut (grid0.coords t) ((dats m 0 c).after 24 t) = _
  rw [after0_24]
  simp only [outsAt0]
  rw [out24_eq]
  rw [iblk6_eq m c t, iblk7_eq m c t, iblk8_eq m c t, iblk9_eq m c t, iblk10_eq m c t, iblk17_eq m c t, iblk18_eq m c t, iblk21_eq m c t, iblk22_eq m c t]
  funext y
  obtain ⟨p, e, rfl⟩ : ∃ (p : Fin 1024) (e : Fin 2), y = ix2 p e := ⟨y 0, y 1, eq_ix2 y⟩
  have hr : ((cfg0.win 24).blk t).view.emb (ix2 p e)
      = ix2 ⟨t.val * 1024 + p.val, by have := lt64 t; have := p.isLt; omega⟩ e := funext fun a => Fin.ext (by
    obtain ⟨e0, e1⟩ := idxRows24 t
    match a with
    | ⟨0, _⟩ => show win0_24.index t (0 : Fin 2) * 1024 + 1 * p.val = t.val * 1024 + p.val; rw [e0]; omega
    | ⟨1, _⟩ => show win0_24.index t (1 : Fin 2) * 2 + 1 * e.val = e.val; rw [e1]; omega)
  show _ = (predArr (Wt m c) (V m c main_v19) (V m c main_v33)) (((cfg0.win 24).blk t).view.emb (ix2 p e))
  rw [hr]
  exact Cert.KernelArrays.pred_t (iblk m c 2 t) (iblk m c 3 t) (V m c main_v35) (V m c main_arg11) (V m c main_v36) (V m c main_arg13) (V m c main_v5) (V m c main_v40) (V m c main_arg22) (V m c main_v42) (V m c main_arg26) (V m c main_v37) (V m c main_arg16) (V m c main_v38) (V m c main_arg18) (V m c main_v19) (V m c main_v33)
    ⟨t.val * 1024 + p.val, by have := lt64 t; have := p.isLt; omega⟩ p (fun k => iblk2_apply m c t p k) (fun k => iblk3_apply m c t p k) e

/-- An index of the array is in point `t`'s block iff each coordinate is in the block's range on its axis. -/
theorem mem_blk24 (t : Fin cfg0.N) (i : S65536x2.Idx) :
    i ∈ ((cfg0.win 24).blk t).view.set ↔ ∀ a : Fin 2, win0_24.index t a * S1024x2.size a ≤ (i a).val
      ∧ (i a).val < win0_24.index t a * S1024x2.size a + S1024x2.size a := by
  show i ∈ ((View.whole main_v43_1).slice (win0_24.rect t)).set ↔ _
  rw [View.set_slice_whole, Rect.mem_set_unit]
  exact Iff.rfl

/-- Row `r` of the array is in the block of point `r / 1024`. -/
theorem cover24 (i : S65536x2.Idx) :
    ∃ t : Fin cfg0.N, (cfg0.win 24).flush t = true ∧ i ∈ ((cfg0.win 24).blk t).view.set := by
  have hi0 : (i 0).val < 65536 := (i 0).isLt
  have hi1 : (i 1).val < 2 := (i 1).isLt
  have hN : cfg0.N = 64 := N_0
  refine ⟨⟨(i 0).val / 1024, by omega⟩, flush0_24 _, ?_⟩
  rw [mem_blk24]
  obtain ⟨e0, e1⟩ := idxRows24 ⟨(i 0).val / 1024, by omega⟩
  intro a
  match a with
  | ⟨0, _⟩ =>
    show win0_24.index _ (0 : Fin 2) * 1024 ≤ (i 0).val ∧ (i 0).val < win0_24.index _ (0 : Fin 2) * 1024 + 1024
    rw [e0]; dsimp only; omega
  | ⟨1, _⟩ =>
    show win0_24.index _ (1 : Fin 2) * 2 ≤ (i 1).val ∧ (i 1).val < win0_24.index _ (1 : Fin 2) * 2 + 2
    rw [e1]; omega

/-- The array after the run. -/
theorem final24 (c : Dev nD) : (dats m 0 c).arrAt 24 cfg0.N = (predArr (Wt m c) (V m c main_v19) (V m c main_v33)) :=
  (dats m 0 c).arrAt_eq_of_cover 24 (predArr (Wt m c) (V m c main_v19) (V m c main_v33)) (fun t _ => flushed24_eq m c t) cover24

/-! ## Output window 25 -/

/-- What point `t` writes back is block `t` of the array of `Model`. -/
theorem flushed25_eq (c : Dev nD) (t : Fin cfg0.N) :
    (dats m 0 c).flushed 25 t = ((cfg0.win 25).blk t).view.read (Elt Ideal) (clsArr (Ws m c) (V m c main_v12)) := by
  show (cfg0.win 25).cut (grid0.coords t) ((dats m 0 c).after 25 t) = _
  rw [after0_25]
  simp only [outsAt0]
  rw [out25_eq]
  rw [iblk8_eq m c t, iblk9_eq m c t, iblk11_eq m c t, iblk12_eq m c t, iblk13_eq m c t, iblk14_eq m c t]
  funext y
  obtain ⟨p, e, rfl⟩ : ∃ (p : Fin 1024) (e : Fin 2), y = ix2 p e := ⟨y 0, y 1, eq_ix2 y⟩
  have hr : ((cfg0.win 25).blk t).view.emb (ix2 p e)
      = ix2 ⟨t.val * 1024 + p.val, by have := lt64 t; have := p.isLt; omega⟩ e := funext fun a => Fin.ext (by
    obtain ⟨e0, e1⟩ := idxRows25 t
    match a with
    | ⟨0, _⟩ => show win0_25.index t (0 : Fin 2) * 1024 + 1 * p.val = t.val * 1024 + p.val; rw [e0]; omega
    | ⟨1, _⟩ => show win0_25.index t (1 : Fin 2) * 2 + 1 * e.val = e.val; rw [e1]; omega)
  show _ = (clsArr (Ws m c) (V m c main_v12)) (((cfg0.win 25).blk t).view.emb (ix2 p e))
  rw [hr]
  exact Cert.KernelArrays.cls_s (iblk m c 0 t) (V m c main_v34) (V m c main_arg9) (V m c main_v36) (V m c main_arg13) (V m c main_v5) (V m c main_v39) (V m c main_arg20) (V m c main_v41) (V m c main_arg24) (V m c main_v37) (V m c main_arg16) (V m c main_v38) (V m c main_arg18) (V m c main_v12)
    ⟨t.val * 1024 + p.val, by have := lt64 t; have := p.isLt; omega⟩ p (fun k => iblk0_apply m c t p k) e

/-- An index of the array is in point `t`'s block iff each coordinate is in the block's range on its axis. -/
theorem mem_blk25 (t : Fin cfg0.N) (i : S65536x2.Idx) :
    i ∈ ((cfg0.win 25).blk t).view.set ↔ ∀ a : Fin 2, win0_25.index t a * S1024x2.size a ≤ (i a).val
      ∧ (i a).val < win0_25.index t a * S1024x2.size a + S1024x2.size a := by
  show i ∈ ((View.whole main_v43_2).slice (win0_25.rect t)).set ↔ _
  rw [View.set_slice_whole, Rect.mem_set_unit]
  exact Iff.rfl

/-- Row `r` of the array is in the block of point `r / 1024`. -/
theorem cover25 (i : S65536x2.Idx) :
    ∃ t : Fin cfg0.N, (cfg0.win 25).flush t = true ∧ i ∈ ((cfg0.win 25).blk t).view.set := by
  have hi0 : (i 0).val < 65536 := (i 0).isLt
  have hi1 : (i 1).val < 2 := (i 1).isLt
  have hN : cfg0.N = 64 := N_0
  refine ⟨⟨(i 0).val / 1024, by omega⟩, flush0_25 _, ?_⟩
  rw [mem_blk25]
  obtain ⟨e0, e1⟩ := idxRows25 ⟨(i 0).val / 1024, by omega⟩
  intro a
  match a with
  | ⟨0, _⟩ =>
    show win0_25.index _ (0 : Fin 2) * 1024 ≤ (i 0).val ∧ (i 0).val < win0_25.index _ (0 : Fin 2) * 1024 + 1024
    rw [e0]; dsimp only; omega
  | ⟨1, _⟩ =>
    show win0_25.index _ (1 : Fin 2) * 2 ≤ (i 1).val ∧ (i 1).val < win0_25.index _ (1 : Fin 2) * 2 + 2
    rw [e1]; omega

/-- The array after the run. -/
theorem final25 (c : Dev nD) : (dats m 0 c).arrAt 25 cfg0.N = (clsArr (Ws m c) (V m c main_v12)) :=
  (dats m 0 c).arrAt_eq_of_cover 25 (clsArr (Ws m c) (V m c main_v12)) (fun t _ => flushed25_eq m c t) cover25

/-! ## Output window 26 -/

/-- What point `t` writes back is block `t` of the array of `Model`. -/
theorem flushed26_eq (c : Dev nD) (t : Fin cfg0.N) :
    (dats m 0 c).flushed 26 t = ((cfg0.win 26).blk t).view.read (Elt Ideal) (clsArr (Wt m c) (V m c main_v19)) := by
  show (cfg0.win 26).cut (grid0.coords t) ((dats m 0 c).after 26 t) = _
  rw [after0_26]
  simp only [outsAt0]
  rw [out26_eq]
  rw [iblk8_eq m c t, iblk9_eq m c t, iblk11_eq m c t, iblk12_eq m c t, iblk13_eq m c t, iblk14_eq m c t]
  funext y
  obtain ⟨p, e, rfl⟩ : ∃ (p : Fin 1024) (e : Fin 2), y = ix2 p e := ⟨y 0, y 1, eq_ix2 y⟩
  have hr : ((cfg0.win 26).blk t).view.emb (ix2 p e)
      = ix2 ⟨t.val * 1024 + p.val, by have := lt64 t; have := p.isLt; omega⟩ e := funext fun a => Fin.ext (by
    obtain ⟨e0, e1⟩ := idxRows26 t
    match a with
    | ⟨0, _⟩ => show win0_26.index t (0 : Fin 2) * 1024 + 1 * p.val = t.val * 1024 + p.val; rw [e0]; omega
    | ⟨1, _⟩ => show win0_26.index t (1 : Fin 2) * 2 + 1 * e.val = e.val; rw [e1]; omega)
  show _ = (clsArr (Wt m c) (V m c main_v19)) (((cfg0.win 26).blk t).view.emb (ix2 p e))
  rw [hr]
  exact Cert.KernelArrays.cls_t (iblk m c 2 t) (V m c main_v35) (V m c main_arg11) (V m c main_v36) (V m c main_arg13) (V m c main_v5) (V m c main_v40) (V m c main_arg22) (V m c main_v42) (V m c main_arg26) (V m c main_v37) (V m c main_arg16) (V m c main_v38) (V m c main_arg18) (V m c main_v19)
    ⟨t.val * 1024 + p.val, by have := lt64 t; have := p.isLt; omega⟩ p (fun k => iblk2_apply m c t p k) e

/-- An index of the array is in point `t`'s block iff each coordinate is in the block's range on its axis. -/
theorem mem_blk26 (t : Fin cfg0.N) (i : S65536x2.Idx) :
    i ∈ ((cfg0.win 26).blk t).view.set ↔ ∀ a : Fin 2, win0_26.index t a * S1024x2.size a ≤ (i a).val
      ∧ (i a).val < win0_26.index t a * S1024x2.size a + S1024x2.size a := by
  show i ∈ ((View.whole main_v43_3).slice (win0_26.rect t)).set ↔ _
  rw [View.set_slice_whole, Rect.mem_set_unit]
  exact Iff.rfl

/-- Row `r` of the array is in the block of point `r / 1024`. -/
theorem cover26 (i : S65536x2.Idx) :
    ∃ t : Fin cfg0.N, (cfg0.win 26).flush t = true ∧ i ∈ ((cfg0.win 26).blk t).view.set := by
  have hi0 : (i 0).val < 65536 := (i 0).isLt
  have hi1 : (i 1).val < 2 := (i 1).isLt
  have hN : cfg0.N = 64 := N_0
  refine ⟨⟨(i 0).val / 1024, by omega⟩, flush0_26 _, ?_⟩
  rw [mem_blk26]
  obtain ⟨e0, e1⟩ := idxRows26 ⟨(i 0).val / 1024, by omega⟩
  intro a
  match a with
  | ⟨0, _⟩ =>
    show win0_26.index _ (0 : Fin 2) * 1024 ≤ (i 0).val ∧ (i 0).val < win0_26.index _ (0 : Fin 2) * 1024 + 1024
    rw [e0]; dsimp only; omega
  | ⟨1, _⟩ =>
    show win0_26.index _ (1 : Fin 2) * 2 ≤ (i 1).val ∧ (i 1).val < win0_26.index _ (1 : Fin 2) * 2 + 2
    rw [e1]; omega

/-- The array after the run. -/
theorem final26 (c : Dev nD) : (dats m 0 c).arrAt 26 cfg0.N = (clsArr (Wt m c) (V m c main_v19)) :=
  (dats m 0 c).arrAt_eq_of_cover 26 (clsArr (Wt m c) (V m c main_v19)) (fun t _ => flushed26_eq m c t) cover26

/-! ## Output window 27 -/

/-- What point `t` writes back is block `t` of the array of `Model`. -/
theorem flushed27_eq (c : Dev nD) (t : Fin cfg0.N) :
    (dats m 0 c).flushed 27 t = ((cfg0.win 27).blk t).view.read (Elt Ideal) (inpArr (Ws m c) (V m c main_v12)) := by
  show (cfg0.win 27).cut (grid0.coords t) ((dats m 0 c).after 27 t) = _
  rw [after0_27]
  simp only [outsAt0]
  rw [out27_eq]
  rw [iblk8_eq m c t, iblk9_eq m c t]
  funext y
  obtain ⟨p, e, rfl⟩ : ∃ (p : Fin 1024) (e : Fin 512), y = ix2 p e := ⟨y 0, y 1, eq_ix2 y⟩
  have hr : ((cfg0.win 27).blk t).view.emb (ix2 p e)
      = ix2 ⟨t.val * 1024 + p.val, by have := lt64 t; have := p.isLt; omega⟩ e := funext fun a => Fin.ext (by
    obtain ⟨e0, e1⟩ := idxRows27 t
    match a with
    | ⟨0, _⟩ => show win0_27.index t (0 : Fin 2) * 1024 + 1 * p.val = t.val * 1024 + p.val; rw [e0]; omega
    | ⟨1, _⟩ => show win0_27.index t (1 : Fin 2) * 512 + 1 * e.val = e.val; rw [e1]; omega)
  show _ = (inpArr (Ws m c) (V m c main_v12)) (((cfg0.win 27).blk t).view.emb (ix2 p e))
  rw [hr]
  exact Cert.KernelArrays.inp_s (iblk m c 0 t) (V m c main_v34) (V m c main_arg9) (V m c main_v36) (V m c main_arg13) (V m c main_v5) (V m c main_v39) (V m c main_arg20) (V m c main_v41) (V m c main_arg24) (V m c main_v37) (V m c main_arg16) (V m c main_v38) (V m c main_arg18) (V m c main_v12)
    ⟨t.val * 1024 + p.val, by have := lt64 t; have := p.isLt; omega⟩ p (fun k => iblk0_apply m c t p k) e

/-- An index of the array is in point `t`'s block iff each coordinate is in the block's range on its axis. -/
theorem mem_blk27 (t : Fin cfg0.N) (i : S65536x512.Idx) :
    i ∈ ((cfg0.win 27).blk t).view.set ↔ ∀ a : Fin 2, win0_27.index t a * S1024x512.size a ≤ (i a).val
      ∧ (i a).val < win0_27.index t a * S1024x512.size a + S1024x512.size a := by
  show i ∈ ((View.whole main_v43_4).slice (win0_27.rect t)).set ↔ _
  rw [View.set_slice_whole, Rect.mem_set_unit]
  exact Iff.rfl

/-- Row `r` of the array is in the block of point `r / 1024`. -/
theorem cover27 (i : S65536x512.Idx) :
    ∃ t : Fin cfg0.N, (cfg0.win 27).flush t = true ∧ i ∈ ((cfg0.win 27).blk t).view.set := by
  have hi0 : (i 0).val < 65536 := (i 0).isLt
  have hi1 : (i 1).val < 512 := (i 1).isLt
  have hN : cfg0.N = 64 := N_0
  refine ⟨⟨(i 0).val / 1024, by omega⟩, flush0_27 _, ?_⟩
  rw [mem_blk27]
  obtain ⟨e0, e1⟩ := idxRows27 ⟨(i 0).val / 1024, by omega⟩
  intro a
  match a with
  | ⟨0, _⟩ =>
    show win0_27.index _ (0 : Fin 2) * 1024 ≤ (i 0).val ∧ (i 0).val < win0_27.index _ (0 : Fin 2) * 1024 + 1024
    rw [e0]; dsimp only; omega
  | ⟨1, _⟩ =>
    show win0_27.index _ (1 : Fin 2) * 512 ≤ (i 1).val ∧ (i 1).val < win0_27.index _ (1 : Fin 2) * 512 + 512
    rw [e1]; omega

/-- The array after the run. -/
theorem final27 (c : Dev nD) : (dats m 0 c).arrAt 27 cfg0.N = (inpArr (Ws m c) (V m c main_v12)) :=
  (dats m 0 c).arrAt_eq_of_cover 27 (inpArr (Ws m c) (V m c main_v12)) (fun t _ => flushed27_eq m c t) cover27

/-! ## Output window 28 -/

/-- What point `t` writes back is block `t` of the array of `Model`. -/
theorem flushed28_eq (c : Dev nD) (t : Fin cfg0.N) :
    (dats m 0 c).flushed 28 t = ((cfg0.win 28).blk t).view.read (Elt Ideal) (inpArr (Wt m c) (V m c main_v19)) := by
  show (cfg0.win 28).cut (grid0.coords t) ((dats m 0 c).after 28 t) = _
  rw [after0_28]
  simp only [outsAt0]
  rw [out28_eq]
  rw [iblk8_eq m c t, iblk9_eq m c t]
  funext y
  obtain ⟨p, e, rfl⟩ : ∃ (p : Fin 1024) (e : Fin 512), y = ix2 p e := ⟨y 0, y 1, eq_ix2 y⟩
  have hr : ((cfg0.win 28).blk t).view.emb (ix2 p e)
      = ix2 ⟨t.val * 1024 + p.val, by have := lt64 t; have := p.isLt; omega⟩ e := funext fun a => Fin.ext (by
    obtain ⟨e0, e1⟩ := idxRows28 t
    match a with
    | ⟨0, _⟩ => show win0_28.index t (0 : Fin 2) * 1024 + 1 * p.val = t.val * 1024 + p.val; rw [e0]; omega
    | ⟨1, _⟩ => show win0_28.index t (1 : Fin 2) * 512 + 1 * e.val = e.val; rw [e1]; omega)
  show _ = (inpArr (Wt m c) (V m c main_v19)) (((cfg0.win 28).blk t).view.emb (ix2 p e))
  rw [hr]
  exact Cert.KernelArrays.inp_t (iblk m c 2 t) (V m c main_v35) (V m c main_arg11) (V m c main_v36) (V m c main_arg13) (V m c main_v5) (V m c main_v40) (V m c main_arg22) (V m c main_v42) (V m c main_arg26) (V m c main_v37) (V m c main_arg16) (V m c main_v38) (V m c main_arg18) (V m c main_v19)
    ⟨t.val * 1024 + p.val, by have := lt64 t; have := p.isLt; omega⟩ p (fun k => iblk2_apply m c t p k) e

/-- An index of the array is in point `t`'s block iff each coordinate is in the block's range on its axis. -/
theorem mem_blk28 (t : Fin cfg0.N) (i : S65536x512.Idx) :
    i ∈ ((cfg0.win 28).blk t).view.set ↔ ∀ a : Fin 2, win0_28.index t a * S1024x512.size a ≤ (i a).val
      ∧ (i a).val < win0_28.index t a * S1024x512.size a + S1024x512.size a := by
  show i ∈ ((View.whole main_v43_5).slice (win0_28.rect t)).set ↔ _
  rw [View.set_slice_whole, Rect.mem_set_unit]
  exact Iff.rfl

/-- Row `r` of the array is in the block of point `r / 1024`. -/
theorem cover28 (i : S65536x512.Idx) :
    ∃ t : Fin cfg0.N, (cfg0.win 28).flush t = true ∧ i ∈ ((cfg0.win 28).blk t).view.set := by
  have hi0 : (i 0).val < 65536 := (i 0).isLt
  have hi1 : (i 1).val < 512 := (i 1).isLt
  have hN : cfg0.N = 64 := N_0
  refine ⟨⟨(i 0).val / 1024, by omega⟩, flush0_28 _, ?_⟩
  rw [mem_blk28]
  obtain ⟨e0, e1⟩ := idxRows28 ⟨(i 0).val / 1024, by omega⟩
  intro a
  match a with
  | ⟨0, _⟩ =>
    show win0_28.index _ (0 : Fin 2) * 1024 ≤ (i 0).val ∧ (i 0).val < win0_28.index _ (0 : Fin 2) * 1024 + 1024
    rw [e0]; dsimp only; omega
  | ⟨1, _⟩ =>
    show win0_28.index _ (1 : Fin 2) * 512 ≤ (i 1).val ∧ (i 1).val < win0_28.index _ (1 : Fin 2) * 512 + 512
    rw [e1]; omega

/-- The array after the run. -/
theorem final28 (c : Dev nD) : (dats m 0 c).arrAt 28 cfg0.N = (inpArr (Wt m c) (V m c main_v19)) :=
  (dats m 0 c).arrAt_eq_of_cover 28 (inpArr (Wt m c) (V m c main_v19)) (fun t _ => flushed28_eq m c t) cover28

/-! ## Output window 29 -/

/-- What point `t` writes back is block `t` of the array of `Model`. -/
theorem flushed29_eq (c : Dev nD) (t : Fin cfg0.N) :
    (dats m 0 c).flushed 29 t = ((cfg0.win 29).blk t).view.read (Elt Ideal) (causalArr (Ws m c) (V m c main_v12)) := by
  show (cfg0.win 29).cut (grid0.coords t) ((dats m 0 c).after 29 t) = _
  rw [after0_29]
  simp only [outsAt0]
  rw [out29_eq]
  rw [iblk8_eq m c t, iblk9_eq m c t, iblk10_eq m c t]
  funext y
  obtain ⟨p, e, rfl⟩ : ∃ (p : Fin 1024) (e : Fin 512), y = ix2 p e := ⟨y 0, y 1, eq_ix2 y⟩
  have hr : ((cfg0.win 29).blk t).view.emb (ix2 p e)
      = ix2 ⟨t.val * 1024 + p.val, by have := lt64 t; have := p.isLt; omega⟩ e := funext fun a => Fin.ext (by
    obtain ⟨e0, e1⟩ := idxRows29 t
    match a with
    | ⟨0, _⟩ => show win0_29.index t (0 : Fin 2) * 1024 + 1 * p.val = t.val * 1024 + p.val; rw [e0]; omega
    | ⟨1, _⟩ => show win0_29.index t (1 : Fin 2) * 512 + 1 * e.val = e.val; rw [e1]; omega)
  show _ = (causalArr (Ws m c) (V m c main_v12)) (((cfg0.win 29).blk t).view.emb (ix2 p e))
  rw [hr]
  exact Cert.KernelArrays.causal_s (iblk m c 0 t) (V m c main_v34) (V m c main_arg9) (V m c main_v36) (V m c main_arg13) (V m c main_v5) (V m c main_v39) (V m c main_arg20) (V m c main_v41) (V m c main_arg24) (V m c main_v37) (V m c main_arg16) (V m c main_v38) (V m c main_arg18) (V m c main_v12)
    ⟨t.val * 1024 + p.val, by have := lt64 t; have := p.isLt; omega⟩ p (fun k => iblk0_apply m c t p k) e

/-- An index of the array is in point `t`'s block iff each coordinate is in the block's range on its axis. -/
theorem mem_blk29 (t : Fin cfg0.N) (i : S65536x512.Idx) :
    i ∈ ((cfg0.win 29).blk t).view.set ↔ ∀ a : Fin 2, win0_29.index t a * S1024x512.size a ≤ (i a).val
      ∧ (i a).val < win0_29.index t a * S1024x512.size a + S1024x512.size a := by
  show i ∈ ((View.whole main_v43_6).slice (win0_29.rect t)).set ↔ _
  rw [View.set_slice_whole, Rect.mem_set_unit]
  exact Iff.rfl

/-- Row `r` of the array is in the block of point `r / 1024`. -/
theorem cover29 (i : S65536x512.Idx) :
    ∃ t : Fin cfg0.N, (cfg0.win 29).flush t = true ∧ i ∈ ((cfg0.win 29).blk t).view.set := by
  have hi0 : (i 0).val < 65536 := (i 0).isLt
  have hi1 : (i 1).val < 512 := (i 1).isLt
  have hN : cfg0.N = 64 := N_0
  refine ⟨⟨(i 0).val / 1024, by omega⟩, flush0_29 _, ?_⟩
  rw [mem_blk29]
  obtain ⟨e0, e1⟩ := idxRows29 ⟨(i 0).val / 1024, by omega⟩
  intro a
  match a with
  | ⟨0, _⟩ =>
    show win0_29.index _ (0 : Fin 2) * 1024 ≤ (i 0).val ∧ (i 0).val < win0_29.index _ (0 : Fin 2) * 1024 + 1024
    rw [e0]; dsimp only; omega
  | ⟨1, _⟩ =>
    show win0_29.index _ (1 : Fin 2) * 512 ≤ (i 1).val ∧ (i 1).val < win0_29.index _ (1 : Fin 2) * 512 + 512
    rw [e1]; omega

/-- The array after the run. -/
theorem final29 (c : Dev nD) : (dats m 0 c).arrAt 29 cfg0.N = (causalArr (Ws m c) (V m c main_v12)) :=
  (dats m 0 c).arrAt_eq_of_cover 29 (causalArr (Ws m c) (V m c main_v12)) (fun t _ => flushed29_eq m c t) cover29

/-! ## Output window 30 -/

/-- What point `t` writes back is block `t` of the array of `Model`. -/
theorem flushed30_eq (c : Dev nD) (t : Fin cfg0.N) :
    (dats m 0 c).flushed 30 t = ((cfg0.win 30).blk t).view.read (Elt Ideal) (causalArr (Wt m c) (V m c main_v19)) := by
  show (cfg0.win 30).cut (grid0.coords t) ((dats m 0 c).after 30 t) = _
  rw [after0_30]
  simp only [outsAt0]
  rw [out30_eq]
  rw [iblk8_eq m c t, iblk9_eq m c t, iblk10_eq m c t]
  funext y
  obtain ⟨p, e, rfl⟩ : ∃ (p : Fin 1024) (e : Fin 512), y = ix2 p e := ⟨y 0, y 1, eq_ix2 y⟩
  have hr : ((cfg0.win 30).blk t).view.emb (ix2 p e)
      = ix2 ⟨t.val * 1024 + p.val, by have := lt64 t; have := p.isLt; omega⟩ e := funext fun a => Fin.ext (by
    obtain ⟨e0, e1⟩ := idxRows30 t
    match a with
    | ⟨0, _⟩ => show win0_30.index t (0 : Fin 2) * 1024 + 1 * p.val = t.val * 1024 + p.val; rw [e0]; omega
    | ⟨1, _⟩ => show win0_30.index t (1 : Fin 2) * 512 + 1 * e.val = e.val; rw [e1]; omega)
  show _ = (causalArr (Wt m c) (V m c main_v19)) (((cfg0.win 30).blk t).view.emb (ix2 p e))
  rw [hr]
  exact Cert.KernelArrays.causal_t (iblk m c 2 t) (V m c main_v35) (V m c main_arg11) (V m c main_v36) (V m c main_arg13) (V m c main_v5) (V m c main_v40) (V m c main_arg22) (V m c main_v42) (V m c main_arg26) (V m c main_v37) (V m c main_arg16) (V m c main_v38) (V m c main_arg18) (V m c main_v19)
    ⟨t.val * 1024 + p.val, by have := lt64 t; have := p.isLt; omega⟩ p (fun k => iblk2_apply m c t p k) e

/-- An index of the array is in point `t`'s block iff each coordinate is in the block's range on its axis. -/
theorem mem_blk30 (t : Fin cfg0.N) (i : S65536x512.Idx) :
    i ∈ ((cfg0.win 30).blk t).view.set ↔ ∀ a : Fin 2, win0_30.index t a * S1024x512.size a ≤ (i a).val
      ∧ (i a).val < win0_30.index t a * S1024x512.size a + S1024x512.size a := by
  show i ∈ ((View.whole main_v43_7).slice (win0_30.rect t)).set ↔ _
  rw [View.set_slice_whole, Rect.mem_set_unit]
  exact Iff.rfl

/-- Row `r` of the array is in the block of point `r / 1024`. -/
theorem cover30 (i : S65536x512.Idx) :
    ∃ t : Fin cfg0.N, (cfg0.win 30).flush t = true ∧ i ∈ ((cfg0.win 30).blk t).view.set := by
  have hi0 : (i 0).val < 65536 := (i 0).isLt
  have hi1 : (i 1).val < 512 := (i 1).isLt
  have hN : cfg0.N = 64 := N_0
  refine ⟨⟨(i 0).val / 1024, by omega⟩, flush0_30 _, ?_⟩
  rw [mem_blk30]
  obtain ⟨e0, e1⟩ := idxRows30 ⟨(i 0).val / 1024, by omega⟩
  intro a
  match a with
  | ⟨0, _⟩ =>
    show win0_30.index _ (0 : Fin 2) * 1024 ≤ (i 0).val ∧ (i 0).val < win0_30.index _ (0 : Fin 2) * 1024 + 1024
    rw [e0]; dsimp only; omega
  | ⟨1, _⟩ =>
    show win0_30.index _ (1 : Fin 2) * 512 ≤ (i 1).val ∧ (i 1).val < win0_30.index _ (1 : Fin 2) * 512 + 512
    rw [e1]; omega

/-- The array after the run. -/
theorem final30 (c : Dev nD) : (dats m 0 c).arrAt 30 cfg0.N = (causalArr (Wt m c) (V m c main_v19)) :=
  (dats m 0 c).arrAt_eq_of_cover 30 (causalArr (Wt m c) (V m c main_v19)) (fun t _ => flushed30_eq m c t) cover30

/-! ## The arrays in terms of @main's arguments -/

theorem Ws_eq (c : Dev nD) : Ws m c = (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) := by
  unfold Ws
  rw [V_w34 m c, V_main_arg9 m c, V_w36 m c, V_main_arg13 m c, V_adj m c, V_w39 m c, V_main_arg20 m c, V_w41 m c,
    V_main_arg24 m c, V_w37 m c, V_main_arg16 m c, V_w38 m c, V_main_arg18 m c]

theorem Wt_eq (c : Dev nD) : Wt m c = (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) := by
  unfold Wt
  rw [V_w35 m c, V_main_arg11 m c, V_w36 m c, V_main_arg13 m c, V_adj m c, V_w40 m c, V_main_arg22 m c, V_w42 m c,
    V_main_arg26 m c, V_w37 m c, V_main_arg16 m c, V_w38 m c, V_main_arg18 m c]

theorem result23 (c : Dev nD) : (dats m 0 c).arrAt 23 cfg0.N = (predArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4))) (Cert.ReferenceIdeal.Read.val_main_v23 (F := Ideal) (m ((c : Thread nD τ).loc main_arg2)) (m ((c : Thread nD τ).loc main_arg6)))) := by
  rw [final23 m c, Ws_eq m c, V_attr_s m c, V_item_s m c]

theorem result24 (c : Dev nD) : (dats m 0 c).arrAt 24 cfg0.N = (predArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5))) (Cert.ReferenceIdeal.Read.val_main_v74 (F := Ideal) (m ((c : Thread nD τ).loc main_arg3)) (m ((c : Thread nD τ).loc main_arg7)))) := by
  rw [final24 m c, Wt_eq m c, V_attr_t m c, V_item_t m c]

theorem result25 (c : Dev nD) : (dats m 0 c).arrAt 25 cfg0.N = (clsArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4)))) := by
  rw [final25 m c, Ws_eq m c, V_attr_s m c]

theorem result26 (c : Dev nD) : (dats m 0 c).arrAt 26 cfg0.N = (clsArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5)))) := by
  rw [final26 m c, Wt_eq m c, V_attr_t m c]

theorem result27 (c : Dev nD) : (dats m 0 c).arrAt 27 cfg0.N = (inpArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4)))) := by
  rw [final27 m c, Ws_eq m c, V_attr_s m c]

theorem result28 (c : Dev nD) : (dats m 0 c).arrAt 28 cfg0.N = (inpArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5)))) := by
  rw [final28 m c, Wt_eq m c, V_attr_t m c]

theorem result29 (c : Dev nD) : (dats m 0 c).arrAt 29 cfg0.N = (causalArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4)))) := by
  rw [final29 m c, Ws_eq m c, V_attr_s m c]

theorem result30 (c : Dev nD) : (dats m 0 c).arrAt 30 cfg0.N = (causalArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5)))) := by
  rw [final30 m c, Wt_eq m c, V_attr_t m c]

/-! ## The run, read -/

set_option maxHeartbeats 8000000 in
/-- Every weakly fair execution of the kernel's program terminates with the eight arrays the kernel writes at the arrays of
    `Model`, the thresholded adjacency matrix at the reference's own term, and the arguments unchanged. -/
theorem run : θ_run defs (onTc (τ := τ) (main (F := Ideal))) ⟨m, fun _ => 0, ρ⟩ fun r => ∀ c : Dev nD,
      r.2.mem ((c : Thread nD τ).loc main_v43_0) = (predArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4))) (Cert.ReferenceIdeal.Read.val_main_v23 (F := Ideal) (m ((c : Thread nD τ).loc main_arg2)) (m ((c : Thread nD τ).loc main_arg6))))
      ∧       r.2.mem ((c : Thread nD τ).loc main_v43_1) = (predArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5))) (Cert.ReferenceIdeal.Read.val_main_v74 (F := Ideal) (m ((c : Thread nD τ).loc main_arg3)) (m ((c : Thread nD τ).loc main_arg7))))
      ∧       r.2.mem ((c : Thread nD τ).loc main_v43_2) = (clsArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4))))
      ∧       r.2.mem ((c : Thread nD τ).loc main_v43_3) = (clsArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5))))
      ∧       r.2.mem ((c : Thread nD τ).loc main_v43_4) = (inpArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4))))
      ∧       r.2.mem ((c : Thread nD τ).loc main_v43_5) = (inpArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5))))
      ∧       r.2.mem ((c : Thread nD τ).loc main_v43_6) = (causalArr (weights (m ((c : Thread nD τ).loc main_arg8)) (m ((c : Thread nD τ).loc main_arg9)) (m ((c : Thread nD τ).loc main_arg12)) (m ((c : Thread nD τ).loc main_arg13)) (Cert.ReferenceIdeal.Read.val_main_v4 (F := Ideal) (m ((c : Thread nD τ).loc main_arg14))) (m ((c : Thread nD τ).loc main_arg19)) (m ((c : Thread nD τ).loc main_arg20)) (m ((c : Thread nD τ).loc main_arg23)) (m ((c : Thread nD τ).loc main_arg24)) (m ((c : Thread nD τ).loc main_arg15)) (m ((c : Thread nD τ).loc main_arg16)) (m ((c : Thread nD τ).loc main_arg17)) (m ((c : Thread nD τ).loc main_arg18))) (Cert.ReferenceIdeal.Read.val_main_v11 (F := Ideal) (m ((c : Thread nD τ).loc main_arg0)) (m ((c : Thread nD τ).loc main_arg4))))
      ∧       r.2.mem ((c : Thread nD τ).loc main_v43_7) = (causalArr (weights (m ((c : Thread nD τ).loc main_arg10)) (m ((c : Thread nD τ).loc main_arg11)) (m ((c : Thread nD τ).loc main_arg12)) (m ((c : Thread nD τ).loc main_arg13)) (Cert.ReferenceIdeal.Read.val_main_v4 (F := Ideal) (m ((c : Thread nD τ).loc main_arg14))) (m ((c : Thread nD τ).loc main_arg21)) (m ((c : Thread nD τ).loc main_arg22)) (m ((c : Thread nD τ).loc main_arg25)) (m ((c : Thread nD τ).loc main_arg26)) (m ((c : Thread nD τ).loc main_arg15)) (m ((c : Thread nD τ).loc main_arg16)) (m ((c : Thread nD τ).loc main_arg17)) (m ((c : Thread nD τ).loc main_arg18))) (Cert.ReferenceIdeal.Read.val_main_v62 (F := Ideal) (m ((c : Thread nD τ).loc main_arg1)) (m ((c : Thread nD τ).loc main_arg5))))
      ∧ r.2.mem ((c : Thread nD τ).loc main_v4) = (Cert.ReferenceIdeal.Read.val_main_v4 (F := Ideal) (m ((c : Thread nD τ).loc main_arg14)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨
      ((h c).1 23).trans (result23 m c),
      ((h c).1 24).trans (result24 m c),
      ((h c).1 25).trans (result25 m c),
      ((h c).1 26).trans (result26 m c),
      ((h c).1 27).trans (result27 m c),
      ((h c).1 28).trans (result28 m c),
      ((h c).1 29).trans (result29 m c),
      ((h c).1 30).trans (result30 m c),
      ((h c).2 main_v4 (Pipeline.mem_restRefs_of main_v4 (by decide) (by decide))).trans (V_adjT m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 5).trans (((dats m 0 c).arrAt_in 5 rfl _).trans ((A_eq m c 5).trans (V_main_arg9 m c))),
      ((h c).2 main_arg10 (Pipeline.mem_restRefs_of main_arg10 (by decide) (by decide))).trans (V_main_arg10 m c),
      ((h c).1 7).trans (((dats m 0 c).arrAt_in 7 rfl _).trans ((A_eq m c 7).trans (V_main_arg11 m c))),
      ((h c).2 main_arg12 (Pipeline.mem_restRefs_of main_arg12 (by decide) (by decide))).trans (V_main_arg12 m c),
      ((h c).1 9).trans (((dats m 0 c).arrAt_in 9 rfl _).trans ((A_eq m c 9).trans (V_main_arg13 m c))),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).1 12).trans (((dats m 0 c).arrAt_in 12 rfl _).trans ((A_eq m c 12).trans (V_main_arg16 m c))),
      ((h c).2 main_arg17 (Pipeline.mem_restRefs_of main_arg17 (by decide) (by decide))).trans (V_main_arg17 m c),
      ((h c).1 14).trans (((dats m 0 c).arrAt_in 14 rfl _).trans ((A_eq m c 14).trans (V_main_arg18 m c))),
      ((h c).2 main_arg19 (Pipeline.mem_restRefs_of main_arg19 (by decide) (by decide))).trans (V_main_arg19 m c),
      ((h c).1 16).trans (((dats m 0 c).arrAt_in 16 rfl _).trans ((A_eq m c 16).trans (V_main_arg20 m c))),
      ((h c).2 main_arg21 (Pipeline.mem_restRefs_of main_arg21 (by decide) (by decide))).trans (V_main_arg21 m c),
      ((h c).1 18).trans (((dats m 0 c).arrAt_in 18 rfl _).trans ((A_eq m c 18).trans (V_main_arg22 m c))),
      ((h c).2 main_arg23 (Pipeline.mem_restRefs_of main_arg23 (by decide) (by decide))).trans (V_main_arg23 m c),
      ((h c).1 20).trans (((dats m 0 c).arrAt_in 20 rfl _).trans ((A_eq m c 20).trans (V_main_arg24 m c))),
      ((h c).2 main_arg25 (Pipeline.mem_restRefs_of main_arg25 (by decide) (by decide))).trans (V_main_arg25 m c),
      ((h c).1 22).trans (((dats m 0 c).arrAt_in 22 rfl _).trans ((A_eq m c 22).trans (V_main_arg26 m c)))⟩)
    (run_main m ρ)

end Cert.KernelValue

end
-- ==== Proof.RefRows.lean ====
/-
  The reference, stage by stage, read at one entry.

  The reference is a straight line of host operations on 65536-row arrays. Read at `(r, e)`, each stage depends on
  row `r` of the gathered features only: a contraction plus a bias laid out over the rows is the affine layer of the
  row, `maximum` against the zero array is `relu`, `1 / (1 + exp (−z))` is the logistic function, a concatenation along
  the columns and the slice from column 256 on are `Spec.cat` and `Spec.hi`. Composed, the four results of each tower
  are the arrays of `Model`.
-/
import proofs.«167602_j51625506897950_2_alg».proof.Proof.Gen.ReferenceIdeal.Read
import proofs.«167602_j51625506897950_2_alg».proof.Proof.LibRowOps
import proofs.«167602_j51625506897950_2_alg».proof.Proof.Model

noncomputable section

namespace Cert.RefRows

open Idealize.ShloMosaic Idealize.ShloMosaic.ValueIdx Cert.Spec Cert.LibRowOps Cert.ReferenceIdeal Cert.ReferenceIdeal.Gen

/-! ## The host's operations on 65536-row arrays, read at one entry -/

/-- `relu (a · W + b)` with 256 outputs. -/
theorem reluLin256 (a : FVec Ideal S65536x256 .f32) (W : FVec Ideal S256x256 .f32) (b : FVec Ideal S256 .f32)
    (r : Fin 65536) (q : Fin 256) :
    maximumf (addf (Host.dotGeneral dot_S65536x256_S256x256_S65536x256_1_0_0_1_n_n none a W)
        (broadcastInDim S65536x256 ![0, 1] bcast_S1x256_S65536x256_0_1 (broadcastInDim S1x256 ![1] bcast_S256_S1x256_1 b)))
      (broadcastInDim S65536x256 ![] bcast_S_S65536x256 (constant (F := Ideal) S_ .f32 0x00000000#32)) (ix2 r q)
      = relu (lin (row (α := EReal) a r) (mat (α := EReal) W) (vec (α := EReal) b) q) :=
  congrArg (max · (Ideal.ofBits .f32 0x00000000#32))
    (hlin_apply dot_S65536x256_S256x256_S65536x256_1_0_0_1_n_n rfl rfl (fun _ _ => rfl) (fun _ _ => rfl) (fun _ _ => rfl) (fun _ _ => rfl)
      bcast_S256_S1x256_1 bcast_S1x256_S65536x256_0_1 a W b r q)

/-- The transfer layer: 512 inputs, 256 outputs. -/
theorem lin512 (v : FVec Ideal S65536x512 .f32) (W : FVec Ideal S512x256 .f32) (b : FVec Ideal S256 .f32)
    (r : Fin 65536) (k : Fin 256) :
    addf (Host.dotGeneral dot_S65536x512_S512x256_S65536x256_1_0_0_1_n_n none v W)
        (broadcastInDim S65536x256 ![0, 1] bcast_S1x256_S65536x256_0_1 (broadcastInDim S1x256 ![1] bcast_S256_S1x256_1 b)) (ix2 r k)
      = lin (row (α := EReal) v r) (mat (α := EReal) W) (vec (α := EReal) b) k :=
  hlin_apply dot_S65536x512_S512x256_S65536x256_1_0_0_1_n_n rfl rfl (fun _ _ => rfl) (fun _ _ => rfl) (fun _ _ => rfl) (fun _ _ => rfl)
    bcast_S256_S1x256_1 bcast_S1x256_S65536x256_0_1 v W b r k

/-- A layer with two outputs from 256 inputs. -/
theorem lin256x2 (v : FVec Ideal S65536x256 .f32) (W : FVec Ideal S256x2 .f32) (b : FVec Ideal S2 .f32)
    (r : Fin 65536) (e : Fin 2) :
    addf (Host.dotGeneral dot_S65536x256_S256x2_S65536x2_1_0_0_1_n_n none v W)
        (broadcastInDim S65536x2 ![0, 1] bcast_S1x2_S65536x2_0_1 (broadcastInDim S1x2 ![1] bcast_S2_S1x2_1 b)) (ix2 r e)
      = lin (row (α := EReal) v r) (mat (α := EReal) W) (vec (α := EReal) b) e :=
  hlin_apply dot_S65536x256_S256x2_S65536x2_1_0_0_1_n_n rfl rfl (fun _ _ => rfl) (fun _ _ => rfl) (fun _ _ => rfl) (fun _ _ => rfl)
    bcast_S2_S1x2_1 bcast_S1x2_S65536x2_0_1 v W b r e

/-- A layer with two outputs from 128 inputs. -/
theorem lin128x2 (v : FVec Ideal S65536x128 .f32) (W : FVec Ideal S128x2 .f32) (b : FVec Ideal S2 .f32)
    (r : Fin 65536) (e : Fin 2) :
    addf (Host.dotGeneral dot_S65536x128_S128x2_S65536x2_1_0_0_1_n_n none v W)
        (broadcastInDim S65536x2 ![0, 1] bcast_S1x2_S65536x2_0_1 (broadcastInDim S1x2 ![1] bcast_S2_S1x2_1 b)) (ix2 r e)
      = lin (row (α := EReal) v r) (mat (α := EReal) W) (vec (α := EReal) b) e :=
  hlin_apply dot_S65536x128_S128x2_S65536x2_1_0_0_1_n_n rfl rfl (fun _ _ => rfl) (fun _ _ => rfl) (fun _ _ => rfl) (fun _ _ => rfl)
    bcast_S2_S1x2_1 bcast_S1x2_S65536x2_0_1 v W b r e

/-- The logistic function as the host spells it, `1 / (1 + exp (−z))`, of a layer with 128 outputs. -/
theorem sigmLin128 (v : FVec Ideal S65536x256 .f32) (W : FVec Ideal S256x128 .f32) (b : FVec Ideal S128 .f32)
    (r : Fin 65536) (k : Fin 128) :
    Host.divf (broadcastInDim S65536x128 ![] bcast_S_S65536x128 (constant (F := Ideal) S_ .f32 0x3F800000#32))
        (addf (broadcastInDim S65536x128 ![] bcast_S_S65536x128 (constant (F := Ideal) S_ .f32 0x3F800000#32))
          (Host.exp (Host.negf (addf (Host.dotGeneral dot_S65536x256_S256x128_S65536x128_1_0_0_1_n_n none v W)
            (broadcastInDim S65536x128 ![0, 1] bcast_S1x128_S65536x128_0_1 (broadcastInDim S1x128 ![1] bcast_S128_S1x128_1 b)))))) (ix2 r k)
      = Ideal.logistic (lin (row (α := EReal) v r) (mat (α := EReal) W) (vec (α := EReal) b) k) := by
  have hz := hlin_apply dot_S65536x256_S256x128_S65536x128_1_0_0_1_n_n rfl rfl (fun _ _ => rfl) (fun _ _ => rfl) (fun _ _ => rfl) (fun _ _ => rfl)
    bcast_S128_S1x128_1 bcast_S1x128_S65536x128_0_1 v W b r k
  rw [← hz]
  show Ideal.div (Ideal.ofBits .f32 0x3F800000#32) (Ideal.ofBits .f32 0x3F800000#32 + Ideal.exp (- _)) = _
  rw [Cert.LibDotSum.one_f32]
  rfl

/-! ## The reference's stages, row by row

The arguments of @main: the four index vectors, the four embedding tables, and the weights. -/

section Towers

open Cert.ReferenceIdeal.Read

variable (x0 : (⟨S65536, .i32⟩ : BufTy).Contents (Elt Ideal)) (x1 : (⟨S65536, .i32⟩ : BufTy).Contents (Elt Ideal)) (x2 : (⟨S65536, .i32⟩ : BufTy).Contents (Elt Ideal)) (x3 : (⟨S65536, .i32⟩ : BufTy).Contents (Elt Ideal))
  (x4 : (⟨S100000x256, .f32⟩ : BufTy).Contents (Elt Ideal)) (x5 : (⟨S100000x256, .f32⟩ : BufTy).Contents (Elt Ideal)) (x6 : (⟨S50000x256, .f32⟩ : BufTy).Contents (Elt Ideal)) (x7 : (⟨S50000x256, .f32⟩ : BufTy).Contents (Elt Ideal))
  (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal))
  (x14 : (⟨S512x512, .f32⟩ : BufTy).Contents (Elt Ideal)) (x15 : (⟨S256x128, .f32⟩ : BufTy).Contents (Elt Ideal)) (x16 : (⟨S128, .f32⟩ : BufTy).Contents (Elt Ideal)) (x17 : (⟨S128x2, .f32⟩ : BufTy).Contents (Elt Ideal)) (x18 : (⟨S2, .f32⟩ : BufTy).Contents (Elt Ideal))
  (x19 : (⟨S512x256, .f32⟩ : BufTy).Contents (Elt Ideal)) (x20 : (⟨S256, .f32⟩ : BufTy).Contents (Elt Ideal)) (x21 : (⟨S512x256, .f32⟩ : BufTy).Contents (Elt Ideal)) (x22 : (⟨S256, .f32⟩ : BufTy).Contents (Elt Ideal))
  (x23 : (⟨S256x2, .f32⟩ : BufTy).Contents (Elt Ideal)) (x24 : (⟨S2, .f32⟩ : BufTy).Contents (Elt Ideal)) (x25 : (⟨S256x2, .f32⟩ : BufTy).Contents (Elt Ideal)) (x26 : (⟨S2, .f32⟩ : BufTy).Contents (Elt Ideal))

/-! ## The source tower of the reference -/

/-- The user embedding, row by row. -/
theorem emb_s (r : Fin 65536) (q : Fin 256) :
    (val_main_v16 (F := Ideal) x0 x4 x8 x9) (ix2 r q) = emb (Cert.Model.weights x8 x9 x12 x13 (val_main_v4 (F := Ideal) x14) x19 x20 x23 x24 x15 x16 x17 x18) (row (α := EReal) (val_main_v11 (F := Ideal) x0 x4) r) q :=
  reluLin256 (val_main_v11 (F := Ideal) x0 x4) x8 x9 r q

/-- The shared embedding, row by row. -/
theorem cemb_s (r : Fin 65536) (q : Fin 256) :
    (val_main_v28 (F := Ideal) x0 x4 x12 x13) (ix2 r q) = cemb (Cert.Model.weights x8 x9 x12 x13 (val_main_v4 (F := Ideal) x14) x19 x20 x23 x24 x15 x16 x17 x18) (row (α := EReal) (val_main_v11 (F := Ideal) x0 x4) r) q :=
  reluLin256 (val_main_v11 (F := Ideal) x0 x4) x12 x13 r q

/-- The features beside their shared embedding. -/
theorem inp_s (r : Fin 65536) (j : Fin 512) :
    (val_main_v29 (F := Ideal) x0 x4 x12 x13) (ix2 r j) = inp (Cert.Model.weights x8 x9 x12 x13 (val_main_v4 (F := Ideal) x14) x19 x20 x23 x24 x15 x16 x17 x18) (row (α := EReal) (val_main_v11 (F := Ideal) x0 x4) r) j :=
  (cat_apply (val_main_v11 (F := Ideal) x0 x4) (val_main_v28 (F := Ideal) x0 x4 x12 x13) concatenates_S65536x256_S65536x256_S65536x512_d1 r j).trans
    (congrArg (fun f => cat (row (α := EReal) (val_main_v11 (F := Ideal) x0 x4) r) f j) (funext fun q => cemb_s x0 x4 x8 x9 x12 x13 x14 x15 x16 x17 x18 x19 x20 x23 x24 r q))

/-- That row times the thresholded adjacency matrix. -/
theorem causal_s (r : Fin 65536) (j : Fin 512) :
    (val_main_v30 (F := Ideal) x0 x4 x12 x13 x14) (ix2 r j) = causal (Cert.Model.weights x8 x9 x12 x13 (val_main_v4 (F := Ideal) x14) x19 x20 x23 x24 x15 x16 x17 x18) (row (α := EReal) (val_main_v11 (F := Ideal) x0 x4) r) j :=
  (hdot_apply dot_S65536x512_S512x512_S65536x512_1_0_0_1_n_n rfl rfl (fun _ _ => rfl) (fun _ _ => rfl) (fun _ _ => rfl) (fun _ _ => rfl)
      (val_main_v29 (F := Ideal) x0 x4 x12 x13) (val_main_v4 (F := Ideal) x14) r j).trans
    (congrArg (fun f => dot f (mat (α := EReal) (val_main_v4 (F := Ideal) x14)) j) (funext fun k => inp_s x0 x4 x8 x9 x12 x13 x14 x15 x16 x17 x18 x19 x20 x23 x24 r k))

/-- The user representation. -/
theorem user_s (r : Fin 65536) (k : Fin 256) :
    (val_main_v36 (F := Ideal) x0 x4 x8 x9 x12 x13 x14 x19 x20) (ix2 r k) = user (Cert.Model.weights x8 x9 x12 x13 (val_main_v4 (F := Ideal) x14) x19 x20 x23 x24 x15 x16 x17 x18) (row (α := EReal) (val_main_v11 (F := Ideal) x0 x4) r) k :=
  (lin512 (val_main_v32 (F := Ideal) x0 x4 x8 x9 x12 x13 x14) x19 x20 r k).trans
    (congrArg (fun f => lin f (mat (α := EReal) x19) (vec (α := EReal) x20) k) (funext fun j =>
      (cat_apply (val_main_v16 (F := Ideal) x0 x4 x8 x9) (val_main_v31 (F := Ideal) x0 x4 x12 x13 x14) concatenates_S65536x256_S65536x256_S65536x512_d1 r j).trans
        (congrArg₂ (fun f g => cat f g j) (funext fun q => emb_s x0 x4 x8 x9 x12 x13 x14 x15 x16 x17 x18 x19 x20 x23 x24 r q) (funext fun q =>
          (hi_apply (val_main_v30 (F := Ideal) x0 x4 x12 x13 x14) slices_S65536x512_S65536x256_0_256 r q).trans
            (congrArg (fun f => hi f q) (funext fun j' => causal_s x0 x4 x8 x9 x12 x13 x14 x15 x16 x17 x18 x19 x20 x23 x24 r j'))))))

/-- The prediction. -/
theorem pred_s (r : Fin 65536) (e : Fin 2) :
    (val_main_v41 (F := Ideal) x0 x2 x4 x6 x8 x9 x12 x13 x14 x19 x20 x23 x24) (ix2 r e) = pred (Cert.Model.weights x8 x9 x12 x13 (val_main_v4 (F := Ideal) x14) x19 x20 x23 x24 x15 x16 x17 x18) (row (α := EReal) (val_main_v11 (F := Ideal) x0 x4) r) (row (α := EReal) (val_main_v23 (F := Ideal) x2 x6) r) e :=
  (lin256x2 (val_main_v37 (F := Ideal) x0 x2 x4 x6 x8 x9 x12 x13 x14 x19 x20) x23 x24 r e).trans
    (congrArg (fun f => lin f (mat (α := EReal) x23) (vec (α := EReal) x24) e) (funext fun k =>
      congrArg (· * (val_main_v23 (F := Ideal) x2 x6) (ix2 r k)) (user_s x0 x4 x8 x9 x12 x13 x14 x15 x16 x17 x18 x19 x20 x23 x24 r k)))

/-- The domain classifier. -/
theorem cls_s (r : Fin 65536) (e : Fin 2) :
    (val_main_v55 (F := Ideal) x0 x4 x12 x13 x15 x16 x17 x18) (ix2 r e) = cls (Cert.Model.weights x8 x9 x12 x13 (val_main_v4 (F := Ideal) x14) x19 x20 x23 x24 x15 x16 x17 x18) (row (α := EReal) (val_main_v11 (F := Ideal) x0 x4) r) e :=
  (lin128x2 (val_main_v51 (F := Ideal) x0 x4 x12 x13 x15 x16) x17 x18 r e).trans
    (congrArg (fun f => lin f (mat (α := EReal) x17) (vec (α := EReal) x18) e) (funext fun k =>
      (sigmLin128 (val_main_v28 (F := Ideal) x0 x4 x12 x13) x15 x16 r k).trans
        (congrArg (fun f => Ideal.logistic (lin f (mat (α := EReal) x15) (vec (α := EReal) x16) k)) (funext fun q => cemb_s x0 x4 x8 x9 x12 x13 x14 x15 x16 x17 x18 x19 x20 x23 x24 r q))))

/-! ### The source tower's four result arrays -/

theorem predArr_s : (val_main_v41 (F := Ideal) x0 x2 x4 x6 x8 x9 x12 x13 x14 x19 x20 x23 x24) = Cert.Model.predArr (Cert.Model.weights x8 x9 x12 x13 (val_main_v4 (F := Ideal) x14) x19 x20 x23 x24 x15 x16 x17 x18) (val_main_v11 (F := Ideal) x0 x4) (val_main_v23 (F := Ideal) x2 x6) :=
  funext fun i => by rw [eq_ix2 i]; exact pred_s x0 x2 x4 x6 x8 x9 x12 x13 x14 x15 x16 x17 x18 x19 x20 x23 x24 (i 0) (i 1)
theorem clsArr_s : (val_main_v55 (F := Ideal) x0 x4 x12 x13 x15 x16 x17 x18) = Cert.Model.clsArr (Cert.Model.weights x8 x9 x12 x13 (val_main_v4 (F := Ideal) x14) x19 x20 x23 x24 x15 x16 x17 x18) (val_main_v11 (F := Ideal) x0 x4) :=
  funext fun i => by rw [eq_ix2 i]; exact cls_s x0 x4 x8 x9 x12 x13 x14 x15 x16 x17 x18 x19 x20 x23 x24 (i 0) (i 1)
theorem inpArr_s : (val_main_v29 (F := Ideal) x0 x4 x12 x13) = Cert.Model.inpArr (Cert.Model.weights x8 x9 x12 x13 (val_main_v4 (F := Ideal) x14) x19 x20 x23 x24 x15 x16 x17 x18) (val_main_v11 (F := Ideal) x0 x4) :=
  funext fun i => by rw [eq_ix2 i]; exact inp_s x0 x4 x8 x9 x12 x13 x14 x15 x16 x17 x18 x19 x20 x23 x24 (i 0) (i 1)
theorem causalArr_s : (val_main_v30 (F := Ideal) x0 x4 x12 x13 x14) = Cert.Model.causalArr (Cert.Model.weights x8 x9 x12 x13 (val_main_v4 (F := Ideal) x14) x19 x20 x23 x24 x15 x16 x17 x18) (val_main_v11 (F := Ideal) x0 x4) :=
  funext fun i => by rw [eq_ix2 i]; exact causal_s x0 x4 x8 x9 x12 x13 x14 x15 x16 x17 x18 x19 x20 x23 x24 (i 0) (i 1)

/-! ## The target tower of the reference -/

/-- The user embedding, row by row. -/
theorem emb_t (r : Fin 65536) (q : Fin 256) :
    (val_main_v67 (F := Ideal) x1 x5 x10 x11) (ix2 r q) = emb (Cert.Model.weights x10 x11 x12 x13 (val_main_v4 (F := Ideal) x14) x21 x22 x25 x26 x15 x16 x17 x18) (row (α := EReal) (val_main_v62 (F := Ideal) x1 x5) r) q :=
  reluLin256 (val_main_v62 (F := Ideal) x1 x5) x10 x11 r q

/-- The shared embedding, row by row. -/
theorem cemb_t (r : Fin 65536) (q : Fin 256) :
    (val_main_v79 (F := Ideal) x1 x5 x12 x13) (ix2 r q) = cemb (Cert.Model.weights x10 x11 x12 x13 (val_main_v4 (F := Ideal) x14) x21 x22 x25 x26 x15 x16 x17 x18) (row (α := EReal) (val_main_v62 (F := Ideal) x1 x5) r) q :=
  reluLin256 (val_main_v62 (F := Ideal) x1 x5) x12 x13 r q

/-- The features beside their shared embedding. -/
theorem inp_t (r : Fin 65536) (j : Fin 512) :
    (val_main_v80 (F := Ideal) x1 x5 x12 x13) (ix2 r j) = inp (Cert.Model.weights x10 x11 x12 x13 (val_main_v4 (F := Ideal) x14) x21 x22 x25 x26 x15 x16 x17 x18) (row (α := EReal) (val_main_v62 (F := Ideal) x1 x5) r) j :=
  (cat_apply (val_main_v62 (F := Ideal) x1 x5) (val_main_v79 (F := Ideal) x1 x5 x12 x13) concatenates_S65536x256_S65536x256_S65536x512_d1 r j).trans
    (congrArg (fun f => cat (row (α := EReal) (val_main_v62 (F := Ideal) x1 x5) r) f j) (funext fun q => cemb_t x1 x5 x10 x11 x12 x13 x14 x15 x16 x17 x18 x21 x22 x25 x26 r q))

/-- That row times the thresholded adjacency matrix. -/
theorem causal_t (r : Fin 65536) (j : Fin 512) :
    (val_main_v81 (F := Ideal) x1 x5 x12 x13 x14) (ix2 r j) = causal (Cert.Model.weights x10 x11 x12 x13 (val_main_v4 (F := Ideal) x14) x21 x22 x25 x26 x15 x16 x17 x18) (row (α := EReal) (val_main_v62 (F := Ideal) x1 x5) r) j :=
  (hdot_apply dot_S65536x512_S512x512_S65536x512_1_0_0_1_n_n rfl rfl (fun _ _ => rfl) (fun _ _ => rfl) (fun _ _ => rfl) (fun _ _ => rfl)
      (val_main_v80 (F := Ideal) x1 x5 x12 x13) (val_main_v4 (F := Ideal) x14) r j).trans
    (congrArg (fun f => dot f (mat (α := EReal) (val_main_v4 (F := Ideal) x14)) j) (funext fun k => inp_t x1 x5 x10 x11 x12 x13 x14 x15 x16 x17 x18 x21 x22 x25 x26 r k))

/-- The user representation. -/
theorem user_t (r : Fin 65536) (k : Fin 256) :
    (val_main_v87 (F := Ideal) x1 x5 x10 x11 x12 x13 x14 x21 x22) (ix2 r k) = user (Cert.Model.weights x10 x11 x12 x13 (val_main_v4 (F := Ideal) x14) x21 x22 x25 x26 x15 x16 x17 x18) (row (α := EReal) (val_main_v62 (F := Ideal) x1 x5) r) k :=
  (lin512 (val_main_v83 (F := Ideal) x1 x5 x10 x11 x12 x13 x14) x21 x22 r k).trans
    (congrArg (fun f => lin f (mat (α := EReal) x21) (vec (α := EReal) x22) k) (funext fun j =>
      (cat_apply (val_main_v67 (F := Ideal) x1 x5 x10 x11) (val_main_v82 (F := Ideal) x1 x5 x12 x13 x14) concatenates_S65536x256_S65536x256_S65536x512_d1 r j).trans
        (congrArg₂ (fun f g => cat f g j) (funext fun q => emb_t x1 x5 x10 x11 x12 x13 x14 x15 x16 x17 x18 x21 x22 x25 x26 r q) (funext fun q =>
          (hi_apply (val_main_v81 (F := Ideal) x1 x5 x12 x13 x14) slices_S65536x512_S65536x256_0_256 r q).trans
            (congrArg (fun f => hi f q) (funext fun j' => causal_t x1 x5 x10 x11 x12 x13 x14 x15 x16 x17 x18 x21 x22 x25 x26 r j'))))))

/-- The prediction. -/
theorem pred_t (r : Fin 65536) (e : Fin 2) :
    (val_main_v92 (F := Ideal) x1 x3 x5 x7 x10 x11 x12 x13 x14 x21 x22 x25 x26) (ix2 r e) = pred (Cert.Model.weights x10 x11 x12 x13 (val_main_v4 (F := Ideal) x14) x21 x22 x25 x26 x15 x16 x17 x18) (row (α := EReal) (val_main_v62 (F := Ideal) x1 x5) r) (row (α := EReal) (val_main_v74 (F := Ideal) x3 x7) r) e :=
  (lin256x2 (val_main_v88 (F := Ideal) x1 x3 x5 x7 x10 x11 x12 x13 x14 x21 x22) x25 x26 r e).trans
    (congrArg (fun f => lin f (mat (α := EReal) x25) (vec (α := EReal) x26) e) (funext fun k =>
      congrArg (· * (val_main_v74 (F := Ideal) x3 x7) (ix2 r k)) (user_t x1 x5 x10 x11 x12 x13 x14 x15 x16 x17 x18 x21 x22 x25 x26 r k)))

/-- The domain classifier. -/
theorem cls_t (r : Fin 65536) (e : Fin 2) :
    (val_main_v106 (F := Ideal) x1 x5 x12 x13 x15 x16 x17 x18) (ix2 r e) = cls (Cert.Model.weights x10 x11 x12 x13 (val_main_v4 (F := Ideal) x14) x21 x22 x25 x26 x15 x16 x17 x18) (row (α := EReal) (val_main_v62 (F := Ideal) x1 x5) r) e :=
  (lin128x2 (val_main_v102 (F := Ideal) x1 x5 x12 x13 x15 x16) x17 x18 r e).trans
    (congrArg (fun f => lin f (mat (α := EReal) x17) (vec (α := EReal) x18) e) (funext fun k =>
      (sigmLin128 (val_main_v79 (F := Ideal) x1 x5 x12 x13) x15 x16 r k).trans
        (congrArg (fun f => Ideal.logistic (lin f (mat (α := EReal) x15) (vec (α := EReal) x16) k)) (funext fun q => cemb_t x1 x5 x10 x11 x12 x13 x14 x15 x16 x17 x18 x21 x22 x25 x26 r q))))

/-! ### The target tower's four result arrays -/

theorem predArr_t : (val_main_v92 (F := Ideal) x1 x3 x5 x7 x10 x11 x12 x13 x14 x21 x22 x25 x26) = Cert.Model.predArr (Cert.Model.weights x10 x11 x12 x13 (val_main_v4 (F := Ideal) x14) x21 x22 x25 x26 x15 x16 x17 x18) (val_main_v62 (F := Ideal) x1 x5) (val_main_v74 (F := Ideal) x3 x7) :=
  funext fun i => by rw [eq_ix2 i]; exact pred_t x1 x3 x5 x7 x10 x11 x12 x13 x14 x15 x16 x17 x18 x21 x22 x25 x26 (i 0) (i 1)
theorem clsArr_t : (val_main_v106 (F := Ideal) x1 x5 x12 x13 x15 x16 x17 x18) = Cert.Model.clsArr (Cert.Model.weights x10 x11 x12 x13 (val_main_v4 (F := Ideal) x14) x21 x22 x25 x26 x15 x16 x17 x18) (val_main_v62 (F := Ideal) x1 x5) :=
  funext fun i => by rw [eq_ix2 i]; exact cls_t x1 x5 x10 x11 x12 x13 x14 x15 x16 x17 x18 x21 x22 x25 x26 (i 0) (i 1)
theorem inpArr_t : (val_main_v80 (F := Ideal) x1 x5 x12 x13) = Cert.Model.inpArr (Cert.Model.weights x10 x11 x12 x13 (val_main_v4 (F := Ideal) x14) x21 x22 x25 x26 x15 x16 x17 x18) (val_main_v62 (F := Ideal) x1 x5) :=
  funext fun i => by rw [eq_ix2 i]; exact inp_t x1 x5 x10 x11 x12 x13 x14 x15 x16 x17 x18 x21 x22 x25 x26 (i 0) (i 1)
theorem causalArr_t : (val_main_v81 (F := Ideal) x1 x5 x12 x13 x14) = Cert.Model.causalArr (Cert.Model.weights x10 x11 x12 x13 (val_main_v4 (F := Ideal) x14) x21 x22 x25 x26 x15 x16 x17 x18) (val_main_v62 (F := Ideal) x1 x5) :=
  funext fun i => by rw [eq_ix2 i]; exact causal_t x1 x5 x10 x11 x12 x13 x14 x15 x16 x17 x18 x21 x22 x25 x26 (i 0) (i 1)

end Towers

end Cert.RefRows

end
-- ==== Proof.lean ====
/-
  The kernel and its reference compute the same nine arrays at the extended reals.

  The program gathers user and item features, runs two towers (source and target) that share the shared-embedding and
  classifier weights and a thresholded adjacency matrix, and returns, per tower, the prediction, the domain classifier's
  output, the features beside their shared embedding, and that array times the thresholded matrix; the thresholded
  matrix is the ninth result. Every result is computed row by row: `Spec` states one row of each tower as a function
  of one row of features, `Model` the arrays. The kernel's side (`KernelValue`): on a block of 1024 rows the body's
  stores are those row functions (`KernelRows`, `KernelTower`), the blocks tile the arrays, and the arrays the kernel is
  launched on are the reference's own gathers and threshold of the same arguments. The reference's side (`RefRows`):
  its straight line of host operations, read stage by stage at one entry. No law of arithmetic beyond reading each
  operation at an index joins the two sides: a change of float format is the identity, a product into a zero
  accumulator and a host contraction are the same finite sum, and the logistic function is `1 / (1 + exp (−z))` by
  definition. The precondition is therefore never opened.
-/
import proofs.«167602_j51625506897950_2_alg».proof.Defs
import proofs.«167602_j51625506897950_2_alg».proof.Proof.Gen.Kernel
import proofs.«167602_j51625506897950_2_alg».proof.Proof.Gen.KernelIdeal
import proofs.«167602_j51625506897950_2_alg».proof.Proof.Gen.ReferenceIdeal
import proofs.«167602_j51625506897950_2_alg».proof.Proof.Gen.Pre_finite_inputs
import proofs.«167602_j51625506897950_2_alg».proof.Proof.Gen.ReferenceIdeal.Run
import proofs.«167602_j51625506897950_2_alg».proof.Proof.Gen.ReferenceIdeal.Read
import proofs.«167602_j51625506897950_2_alg».proof.Proof.KernelFrameP
import proofs.«167602_j51625506897950_2_alg».proof.Proof.KernelValue
import proofs.«167602_j51625506897950_2_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.GenP.frame m ρ

/-- So does its idealization. -/
theorem frame_ideal : Cert.frame_KernelIdeal := fun m ρ _ => Cert.KernelIdeal.GenP.frame m ρ

set_option maxHeartbeats 16000000 in
/-- The reference's run, its nine results dropped. -/
theorem frame_ref : Cert.frame_ReferenceIdeal := fun m ρ _ =>
  (θ_run Cert.ReferenceIdeal.defs _ _).mono (fun _ h c => (h c).2.2.2.2.2.2.2.2.2)
    (Cert.ReferenceIdeal.Value.run (F := Ideal) m ρ)

/-- The idealization rewrote no operation. -/
theorem preserves : Cert.preserves_Kernel_KernelIdeal := trivial

set_option maxHeartbeats 64000000 in
/-- From memories that agree on the arguments, both programs end with the arrays of `Model` of those arguments. -/
theorem algebraic : Cert.algebraic_KernelIdeal_ReferenceIdeal := by
  intro m ρ m' ρ' _ hagree
  refine ⟨_, _, _, _, _, _, _, _, _, Cert.KernelValue.run m ρ, ?_⟩
  refine (θ_run Cert.ReferenceIdeal.defs _ _).mono (fun r h c => ?_)
    (Cert.ReferenceIdeal.Value.run (F := Ideal) m' ρ')
  obtain ⟨h0, h1, h2, h3, h4, h5, h6, h7, h8, hargs⟩ := h c
  obtain ⟨a0, a1, a2, a3, a4, a5, a6, a7, a8, a9, a10, a11, a12, a13, a14, a15, a16, a17, a18, a19, a20, a21, a22, a23, a24, a25, a26⟩ := hagree c
  refine ⟨h0.trans ?_, h1.trans ?_, h2.trans ?_, h3.trans ?_, h4.trans ?_, h5.trans ?_, h6.trans ?_, h7.trans ?_,
    h8.trans ?_, hargs⟩
  · rw [a0, a2, a4, a6, a8, a9, a12, a13, a14, a19, a20, a23, a24]
    exact Cert.RefRows.predArr_s _ _ _ _ _ _ _ _ _ _ _ _ _ _ _ _ _
  · rw [a1, a3, a5, a7, a10, a11, a12, a13, a14, a21, a22, a25, a26]
    exact Cert.RefRows.predArr_t _ _ _ _ _ _ _ _ _ _ _ _ _ _ _ _ _
  · rw [a0, a4, a12, a13, a15, a16, a17, a18]
    exact Cert.RefRows.clsArr_s _ _ _ _ _ _ _ _ _ _ _ _ _ _ _
  · rw [a1, a5, a12, a13, a15, a16, a17, a18]
    exact Cert.RefRows.clsArr_t _ _ _ _ _ _ _ _ _ _ _ _ _ _ _
  · rw [a0, a4, a12, a13]
    exact Cert.RefRows.inpArr_s _ _ _ _ _ _ _ _ _ _ _ _ _ _ _
  · rw [a1, a5, a12, a13]
    exact Cert.RefRows.inpArr_t _ _ _ _ _ _ _ _ _ _ _ _ _ _ _
  · rw [a0, a4, a12, a13, a14]
    exact Cert.RefRows.causalArr_s _ _ _ _ _ _ _ _ _ _ _ _ _ _ _
  · rw [a1, a5, a12, a13, a14]
    exact Cert.RefRows.causalArr_t _ _ _ _ _ _ _ _ _ _ _ _ _ _ _
  · rw [a14]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
